-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S1024x128 : Shape := ⟨2, ![1024, 128]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S1024x128 : S_.BroadcastsInDim S1024x128 (![] : Fin 0 → Fin S1024x128.rank)
  reducesTo_S1024x128_S_d0_1 : S1024x128.ReducesTo [0, 1] S_

variable [Facts]

def fn_part1 {F : FTy → Type} [FloatOps F] (main_v13 : IVec S_ 1) (main_v16 : IVec S1024x128 1) : IVec S_ 1 :=
  let main_c_5 : IVec S_ 1 := constantI S_ 1 1#1
  let main_v17 : IVec S_ 1 := (fun x v => Host.reduce IntOp.andi x v reducesTo_S1024x128_S_d0_1 h_S_) main_v16 main_c_5
  let main_v18 : IVec S_ 1 := andi main_v13 main_v17
  main_v18

def fn {F : FTy → Type} [FloatOps F] (main_arg0 : FVec F S4x4096x1024 .f32) (main_arg1 : FVec F S1024x128 .f32) (main_arg2 : FVec F S1024x128 .f32) (main_arg3 : FVec F S1024x128 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S1024x128 .f32 := Host.absf main_arg1
  let main_cst_0 : FVec F S_ .f32 := constant S_ .f32 0x7F800000#32
  let main_v5 : FVec F S1024x128 .f32 := broadcastInDim S1024x128 ![] bcast_S_S1024x128 main_cst_0
  let main_v6 : IVec S1024x128 1 := cmpf .olt main_v4 main_v5
  let main_c_1 : IVec S_ 1 := constantI S_ 1 1#1
  let main_v7 : IVec S_ 1 := (fun x v => Host.reduce IntOp.andi x v reducesTo_S1024x128_S_d0_1 h_S_) main_v6 main_c_1
  let main_v8 : IVec S_ 1 := andi main_v3 main_v7
  let main_v9 : FVec F S1024x128 .f32 := Host.absf main_arg2
  let main_cst_2 : FVec F S_ .f32 := constant S_ .f32 0x7F800000#32
  let main_v10 : FVec F S1024x128 .f32 := broadcastInDim S1024x128 ![] bcast_S_S1024x128 main_cst_2
  let main_v11 : IVec S1024x128 1 := cmpf .olt main_v9 main_v10
  let main_c_3 : IVec S_ 1 := constantI S_ 1 1#1
  let main_v12 : IVec S_ 1 := (fun x v => Host.reduce IntOp.andi x v reducesTo_S1024x128_S_d0_1 h_S_) main_v11 main_c_3
  let main_v13 : IVec S_ 1 := andi main_v8 main_v12
  let main_v14 : FVec F S1024x128 .f32 := Host.absf main_arg3
  let main_cst_4 : FVec F S_ .f32 := constant S_ .f32 0x7F800000#32
  let main_v15 : FVec F S1024x128 .f32 := broadcastInDim S1024x128 ![] bcast_S_S1024x128 main_cst_4
  let main_v16 : IVec S1024x128 1 := cmpf .olt main_v14 main_v15
  fn_part1 (F := F) main_v13 main_v16
-- ==== Kernel.lean ====
abbrev S4x4096x1024 : Shape := ⟨3, ![4, 4096, 1024]⟩
abbrev S1024x128 : Shape := ⟨2, ![1024, 128]⟩
abbrev S4x4096x128 : Shape := ⟨3, ![4, 4096, 128]⟩
abbrev S1x1024x1024 : Shape := ⟨3, ![1, 1024, 1024]⟩
abbrev S1x1024x128 : Shape := ⟨3, ![1, 1024, 128]⟩
abbrev S1024x1024 : Shape := ⟨2, ![1024, 1024]⟩
abbrev S1x512x128 : Shape := ⟨3, ![1, 512, 128]⟩
abbrev S512x1 : Shape := ⟨2, ![512, 1]⟩
abbrev S512x128 : Shape := ⟨2, ![512, 128]⟩
abbrev S128x512 : Shape := ⟨2, ![128, 512]⟩
abbrev S512x512 : Shape := ⟨2, ![512, 512]⟩
abbrev S512 : Shape := ⟨1, ![512]⟩

abbrev nBuf : Space → Nat
  | .hbm => 11
  | .vmem => 22
  | .smem => 0
  | _ => 0

abbrev bufTy : (tb : Table) → Fin (tcTables nBuf tb) → BufTy
  | .hbm, ⟨0, _⟩ => ⟨S4x4096x1024, .f32⟩
  | .hbm, ⟨1, _⟩ => ⟨S1024x128, .f32⟩
  | .hbm, ⟨2, _⟩ => ⟨S1024x128, .f32⟩
  | .hbm, ⟨3, _⟩ => ⟨S1024x128, .f32⟩
  | .hbm, ⟨4, _⟩ => ⟨S1024x128, .bf16⟩
  | .hbm, ⟨5, _⟩ => ⟨S1024x128, .bf16⟩
  | .hbm, ⟨6, _⟩ => ⟨S1024x128, .bf16⟩
  | .hbm, ⟨7, _⟩ => ⟨S4x4096x128, .bf16⟩
  | .hbm, ⟨8, _⟩ => ⟨S4x4096x128, .bf16⟩
  | .hbm, ⟨9, _⟩ => ⟨S4x4096x128, .bf16⟩
  | .hbm, ⟨10, _⟩ => ⟨S4x4096x128, .f32⟩
  | .local _ .vmem, ⟨0, _⟩ => ⟨S1x1024x1024, .f32⟩
  | .local _ .vmem, ⟨1, _⟩ => ⟨S1x1024x1024, .f32⟩
  | .local _ .vmem, ⟨2, _⟩ => ⟨S1024x128, .bf16⟩
  | .local _ .vmem, ⟨3, _⟩ => ⟨S1024x128, .bf16⟩
  | .local _ .vmem, ⟨4, _⟩ => ⟨S1024x128, .bf16⟩
  | .local _ .vmem, ⟨5, _⟩ => ⟨S1x1024x128, .bf16⟩
  | .local _ .vmem, ⟨6, _⟩ => ⟨S1x1024x128, .bf16⟩
  | .local _ .vmem, ⟨7, _⟩ => ⟨S1x1024x128, .bf16⟩
  | .local _ .vmem, ⟨8, _⟩ => ⟨S1x1024x128, .bf16⟩
  | .local _ .vmem, ⟨9, _⟩ => ⟨S1x1024x128, .bf16⟩
  | .local _ .vmem, ⟨10, _⟩ => ⟨S1x1024x128, .bf16⟩
  | .local _ .vmem, ⟨11, _⟩ => ⟨S1x512x128, .bf16⟩
  | .local _ .vmem, ⟨12, _⟩ => ⟨S1x512x128, .bf16⟩
  | .local _ .vmem, ⟨13, _⟩ => ⟨S1x512x128, .bf16⟩
  | .local _ .vmem, ⟨14, _⟩ => ⟨S1x512x128, .bf16⟩
  | .local _ .vmem, ⟨15, _⟩ => ⟨S1x512x128, .bf16⟩
  | .local _ .vmem, ⟨16, _⟩ => ⟨S1x512x128, .bf16⟩
  | .local _ .vmem, ⟨17, _⟩ => ⟨S1x512x128, .f32⟩
  | .local _ .vmem, ⟨18, _⟩ => ⟨S1x512x128, .f32⟩
  | .local _ .vmem, ⟨19, _⟩ => ⟨S512x1, .f32⟩
  | .local _ .vmem, ⟨20, _⟩ => ⟨S512x1, .f32⟩
  | .local _ .vmem, ⟨21, _⟩ => ⟨S512x128, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_scratch0 : Ref sig .tc := ⟨.vmem, 19, rfl⟩
abbrev cc1_scratch1 : Ref sig .tc := ⟨.vmem, 20, rfl⟩
abbrev cc1_scratch2 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨3, ![4, 8, 8], ![false, false, false]⟩

def k1_cond3 (i : grid1.Coords) : BitVec 1 :=
  let arg2 : BitVec 32 := BitVec.ofNat 32 (i 2).val
  let c7_i32 : BitVec 32 := 7#32
  let v6 : BitVec 1 := Scalar.cmpi .eq arg2 c7_i32
  let v7 : BitVec 32 := Scalar.extui v6
  let c0_i32_2 : BitVec 32 := 0#32
  let v8 : BitVec 1 := Scalar.cmpi .ne v7 c0_i32_2
  v8

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  let c0_i32_0 : BitVec 32 := 0#32
  ![arg0.toNat, v0.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  let c0_i32_0 : BitVec 32 := 0#32
  ![arg0.toNat, v0.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x512x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x512x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S1x512x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev stage1_3 : Fin 2 → Memref sig .tc .vmem S1x512x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  bitsLt_bf16_f32 : FTy.bits .bf16 < FTy.bits .f32
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  shapeCasts_S1024x128_S1x1024x128 : S1024x128.ShapeCasts S1x1024x128
  packedbf16_S1x1024x128_S1x1024x128_0_0_0 : (Rect.unit (s := S1x1024x128) ![0, 0, 0] S1x1024x128.size inb_S1x1024x128_S1x1024x128_0_0_0).PackedRows (EltTy.packing .bf16)
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  transposes_S512x128_p1_0_S128x512 : S512x128.Transposes [1, 0] S128x512
  iota_S512x512_d0_w32 : S512x512.Iotas .tc 32 [0]
  iota_S512x512_d1_w32 : S512x512.Iotas .tc 32 [1]
  reduces_S512x512_S512 : S512x512.Reduces [1] S512
  shapeCasts_S512_S512x1 : S512.ShapeCasts S512x1
  broadcasts_S512x1_S512x512 : S512x1.Broadcasts S512x512
  broadcasts_S512x1_S512x128 : S512x1.Broadcasts S512x128
  shapeCasts_S512x128_S1x512x128 : S512x128.ShapeCasts S1x512x128
  dot_S1024x1024_S1024x128_S1024x128_1_0_0_1_n_n_wf : DotDims.WF S1024x1024 S1024x128 S1024x128 [1] [0] [0] [1] [] []
  dot_S512x128_S128x512_S512x512_1_0_0_1_n_n_wf : DotDims.WF S512x128 S128x512 S512x512 [1] [0] [0] [1] [] []
  dot_S512x512_S512x128_S512x128_1_0_0_1_n_n_wf : DotDims.WF S512x512 S512x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S4x4096x1024.size a
  hwx0_0 : ∀ i : grid0.Coords, EltTy.bits .f32 = 32 ∨ (Rect.block (s := S4x4096x1024) S1x1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S1024x128.size a
  hwx0_1 : ∀ i : grid0.Coords, EltTy.bits .bf16 = 32 ∨ (Rect.block (s := S1024x128) S1024x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S1024x128.size a
  hwx0_2 : ∀ i : grid0.Coords, EltTy.bits .bf16 = 32 ∨ (Rect.block (s := S1024x128) S1024x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S1024x128.size a
  hwx0_3 : ∀ i : grid0.Coords, EltTy.bits .bf16 = 32 ∨ (Rect.block (s := S1024x128) S1024x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x128.size a ≤ S4x4096x128.size a
  hwx0_4 : ∀ i : grid0.Coords, EltTy.bits .bf16 = 32 ∨ (Rect.block (s := S4x4096x128) S1x1024x128.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x128.size a ≤ S4x4096x128.size a
  hwx0_5 : ∀ i : grid0.Coords, EltTy.bits .bf16 = 32 ∨ (Rect.block (s := S4x4096x128) S1x1024x128.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024x128.size a ≤ S4x4096x128.size a
  hwx0_6 : ∀ i : grid0.Coords, EltTy.bits .bf16 = 32 ∨ (Rect.block (s := S4x4096x128) S1x1024x128.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x128.size a ≤ S4x4096x128.size a
  hwx1_0 : ∀ i : grid1.Coords, EltTy.bits .bf16 = 32 ∨ (Rect.block (s := S4x4096x128) S1x512x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x128.size a ≤ S4x4096x128.size a
  hwx1_1 : ∀ i : grid1.Coords, EltTy.bits .bf16 = 32 ∨ (Rect.block (s := S4x4096x128) S1x512x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x128.size a ≤ S4x4096x128.size a
  hwx1_2 : ∀ i : grid1.Coords, EltTy.bits .bf16 = 32 ∨ (Rect.block (s := S4x4096x128) S1x512x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x128.size a ≤ S4x4096x128.size a
  hwx1_3 : ∀ i : grid1.Coords, EltTy.bits .f32 = 32 ∨ (Rect.block (s := S4x4096x128) S1x512x128.size (cc1_transform_3 i) (hinb1_3 i)).WholeWords (EltTy.packing .f32)

variable [Facts₀]

def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf
def dot_S512x128_S128x512_S512x512_1_0_0_1_n_n : DotDims S512x128 S128x512 S512x512 where
  lhsContracting := [1]
  rhsContracting := [0]
  lhsNonContracting := [0]
  rhsNonContracting := [1]
  lhsBatch := []
  rhsBatch := []
  wf := dot_S512x128_S128x512_S512x512_1_0_0_1_n_n_wf
def dot_S512x512_S512x128_S512x128_1_0_0_1_n_n : DotDims S512x512 S512x128 S512x128 where
  lhsContracting := [1]
  rhsContracting := [0]
  lhsNonContracting := [0]
  rhsNonContracting := [1]
  lhsBatch := []
  rhsBatch := []
  wf := dot_S512x512_S512x128_S512x128_1_0_0_1_n_n_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3_0) S1x1024x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3_1) S1x1024x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3_2) S1x1024x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v3_0) S1x512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3_1) S1x512x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3_2) S1x512x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1x512x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond3 i == 1#1) | ⟨_ + 4, h⟩ => absurd h (Nat.not_lt.2 (Nat.le_add_left _ _))

class Facts : Prop extends Facts₀ where

variable [Facts]
-- ==== ReferenceIdeal.lean ====
abbrev S4x4096x1024 : Shape := ⟨3, ![4, 4096, 1024]⟩
abbrev S1024x128 : Shape := ⟨2, ![1024, 128]⟩
abbrev S4x4096x128 : Shape := ⟨3, ![4, 4096, 128]⟩
abbrev S4x4096x4096 : Shape := ⟨3, ![4, 4096, 4096]⟩
abbrev S_ : Shape := ⟨0, ![]⟩
abbrev S4096x4096 : Shape := ⟨2, ![4096, 4096]⟩
abbrev S4x4096 : Shape := ⟨2, ![4, 4096]⟩
abbrev S4x4096x1 : Shape := ⟨3, ![4, 4096, 1]⟩

abbrev nBuf : Space → Nat
  | .hbm => 42
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x128, .f32⟩
  | .hbm, ⟨2, _⟩ => ⟨S1024x128, .f32⟩
  | .hbm, ⟨3, _⟩ => ⟨S1024x128, .f32⟩
  | .hbm, ⟨4, _⟩ => ⟨S4x4096x128, .f32⟩
  | .hbm, ⟨5, _⟩ => ⟨S4x4096x128, .f32⟩
  | .hbm, ⟨6, _⟩ => ⟨S4x4096x128, .f32⟩
  | .hbm, ⟨7, _⟩ => ⟨S4x4096x4096, .f32⟩
  | .hbm, ⟨8, _⟩ => ⟨S_, .f32⟩
  | .hbm, ⟨9, _⟩ => ⟨S4x4096x4096, .f32⟩
  | .hbm, ⟨10, _⟩ => ⟨S4x4096x4096, .f32⟩
  | .hbm, ⟨11, _⟩ => ⟨S_, .i1⟩
  | .hbm, ⟨12, _⟩ => ⟨S4096x4096, .i1⟩
  | .hbm, ⟨13, _⟩ => ⟨S4096x4096, .i32⟩
  | .hbm, ⟨14, _⟩ => ⟨S_, .i32⟩
  | .hbm, ⟨15, _⟩ => ⟨S4096x4096, .i32⟩
  | .hbm, ⟨16, _⟩ => ⟨S4096x4096, .i32⟩
  | .hbm, ⟨17, _⟩ => ⟨S4096x4096, .i32⟩
  | .hbm, ⟨18, _⟩ => ⟨S4096x4096, .i1⟩
  | .hbm, ⟨19, _⟩ => ⟨S_, .i1⟩
  | .hbm, ⟨20, _⟩ => ⟨S4096x4096, .i1⟩
  | .hbm, ⟨21, _⟩ => ⟨S4096x4096, .i1⟩
  | .hbm, ⟨22, _⟩ => ⟨S_, .f32⟩
  | .hbm, ⟨23, _⟩ => ⟨S_, .f32⟩
  | .hbm, ⟨24, _⟩ => ⟨S4x4096x4096, .i1⟩
  | .hbm, ⟨25, _⟩ => ⟨S4x4096x4096, .f32⟩
  | .hbm, ⟨26, _⟩ => ⟨S4x4096x4096, .f32⟩
  | .hbm, ⟨27, _⟩ => ⟨S_, .f32⟩
  | .hbm, ⟨28, _⟩ => ⟨S4x4096, .f32⟩
  | .hbm, ⟨29, _⟩ => ⟨S_, .f32⟩
  | .hbm, ⟨30, _⟩ => ⟨S4x4096, .f32⟩
  | .hbm, ⟨31, _⟩ => ⟨S4x4096, .f32⟩
  | .hbm, ⟨32, _⟩ => ⟨S4x4096x1, .f32⟩
  | .hbm, ⟨33, _⟩ => ⟨S4x4096x4096, .f32⟩
  | .hbm, ⟨34, _⟩ => ⟨S4x4096x4096, .f32⟩
  | .hbm, ⟨35, _⟩ => ⟨S4x4096x4096, .f32⟩
  | .hbm, ⟨36, _⟩ => ⟨S_, .f32⟩
  | .hbm, ⟨37, _⟩ => ⟨S4x4096, .f32⟩
  | .hbm, ⟨38, _⟩ => ⟨S4x4096x1, .f32⟩
  | .hbm, ⟨39, _⟩ => ⟨S4x4096x4096, .f32⟩
  | .hbm, ⟨40, _⟩ => ⟨S4x4096x4096, .f32⟩
  | .hbm, ⟨41, _⟩ => ⟨S4x4096x128, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_call0_v0 : Ref sig .tc := ⟨.hbm, 13, rfl⟩
abbrev main_call0_c : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_0 : Ref sig .tc := ⟨.hbm, 19, rfl⟩
abbrev main_call0_v5 : Ref sig .tc := ⟨.hbm, 20, rfl⟩
abbrev main_v7 : Ref sig .tc := ⟨.hbm, 21, rfl⟩
abbrev main_cst_0 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v8 : Ref sig .tc := ⟨.hbm, 26, rfl⟩
abbrev main_cst_1 : Ref sig .tc := ⟨.hbm, 27, rfl⟩
abbrev main_v9 : Ref sig .tc := ⟨.hbm, 28, rfl⟩
abbrev main_cst_2 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_3 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩

abbrev nD : Nat := 1
abbrev τ : Topo := Topo.v7x

variable {F : FTy → Type} [FloatOps F]

class Facts₀ : Prop where
  bcast_S_S4x4096x4096 : S_.BroadcastsInDim S4x4096x4096 (![] : Fin 0 → Fin S4x4096x4096.rank)
  bcast_S_S4096x4096 : S_.BroadcastsInDim S4096x4096 (![] : Fin 0 → Fin S4096x4096.rank)
  bcast_S4096x4096_S4x4096x4096_1_2 : S4096x4096.BroadcastsInDim S4x4096x4096 (![1, 2] : Fin 2 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  dot_S4x4096x1024_S1024x128_S4x4096x128_2_0_01_1_n_n_wf : DotDims.WF S4x4096x1024 S1024x128 S4x4096x128 [2] [0] [0, 1] [1] [] []
  dot_S4x4096x128_S4x4096x128_S4x4096x4096_2_2_1_1_0_0_wf : DotDims.WF S4x4096x128 S4x4096x128 S4x4096x4096 [2] [2] [1] [1] [0] [0]
  dot_S4x4096x4096_S4x4096x128_S4x4096x128_2_1_1_2_0_0_wf : DotDims.WF S4x4096x4096 S4x4096x128 S4x4096x128 [2] [1] [1] [2] [0] [0]

variable [Facts₀]

def dot_S4x4096x1024_S1024x128_S4x4096x128_2_0_01_1_n_n : DotDims S4x4096x1024 S1024x128 S4x4096x128 where
  lhsContracting := [2]
  rhsContracting := [0]
  lhsNonContracting := [0, 1]
  rhsNonContracting := [1]
  lhsBatch := []
  rhsBatch := []
  wf := dot_S4x4096x1024_S1024x128_S4x4096x128_2_0_01_1_n_n_wf
def dot_S4x4096x128_S4x4096x128_S4x4096x4096_2_2_1_1_0_0 : DotDims S4x4096x128 S4x4096x128 S4x4096x4096 where
  lhsContracting := [2]
  rhsContracting := [2]
  lhsNonContracting := [1]
  rhsNonContracting := [1]
  lhsBatch := [0]
  rhsBatch := [0]
  wf := dot_S4x4096x128_S4x4096x128_S4x4096x4096_2_2_1_1_0_0_wf
def dot_S4x4096x4096_S4x4096x128_S4x4096x128_2_1_1_2_0_0 : DotDims S4x4096x4096 S4x4096x128 S4x4096x128 where
  lhsContracting := [2]
  rhsContracting := [1]
  lhsNonContracting := [1]
  rhsNonContracting := [2]
  lhsBatch := [0]
  rhsBatch := [0]
  wf := dot_S4x4096x4096_S4x4096x128_S4x4096x128_2_1_1_2_0_0_wf

class Facts : Prop extends Facts₀ where

variable [Facts]
-- ==== Proof.Spec.lean ====
/-
  The specification both programs are compared with: single-head causal attention on the extended reals.
  For an input x (4 × 4096 × 1024) and three weight matrices (1024 × 128) the queries, keys and values are the
  products q = x·Wq, k = x·Wk, v = x·Wv; the score of query row i against key row j is (q_i · k_j)·c for the
  scale word c, and −∞ for j > i (the causal mask); each row of scores is turned into weights
  exp(w_j − M) / Z with M the row's maximum and Z the row's sum of exp(w_j − M); the result row is the
  weighted sum of the value rows. Every operation is the extended reals' own (sum, product, max,
  `Ideal.exp` with exp(−∞) = 0, `Ideal.div`), written in the order the two-pass form applies them.
-/
import Idealize.ShloMosaic.PureOps.Ideal
import Idealize.ShloMosaic.Lib.ValueIdx

noncomputable section

namespace Cert.Attn

open Idealize.ShloMosaic Idealize.ShloMosaic.ValueIdx

/-- The scale 1/√128 as the single-precision word both programs carry. -/
def scale : EReal := Ideal.ofBits .f32 0x3DB504F3#32

/-- A product with a weight matrix: (x·W)[b, s, h] = Σₑ x[b, s, e] · W[e, h]. -/
def proj {B S E H : Nat} (x : Fin B → Fin S → Fin E → EReal) (W : Fin E → Fin H → EReal)
    (b : Fin B) (s : Fin S) (h : Fin H) : EReal :=
  ∑ e : Fin E, x b s e * W e h

/-- The masked, scaled score of query row `i` against key row `j`: (q_i · k_j)·c when j ≤ i, and −∞ otherwise. -/
def score {B S H : Nat} (q k : Fin B → Fin S → Fin H → EReal) (b : Fin B) (i j : Fin S) : EReal :=
  if j ≤ i then (∑ h : Fin H, q b i h * k b j h) * scale else ⊥

/-- The largest score of a row. -/
def rowMax {B S H : Nat} (q k : Fin B → Fin S → Fin H → EReal) (b : Fin B) (i : Fin S) : EReal :=
  Finset.univ.sup fun j : Fin S => score q k b i j

/-- exp of a score less its row's maximum. -/
def expo {B S H : Nat} (q k : Fin B → Fin S → Fin H → EReal) (b : Fin B) (i j : Fin S) : EReal :=
  Ideal.exp (score q k b i j - rowMax q k b i)

/-- A row's normaliser: the sum of its exponentials. -/
def rowSum {B S H : Nat} (q k : Fin B → Fin S → Fin H → EReal) (b : Fin B) (i : Fin S) : EReal :=
  ∑ j : Fin S, expo q k b i j

/-- Causal attention in its two-pass form: out[b, i, h] = Σⱼ (exp(w_ij − M_i) / Z_i) · v[b, j, h]. -/
def attend {B S H : Nat} (q k v : Fin B → Fin S → Fin H → EReal) (b : Fin B) (i : Fin S) (h : Fin H) : EReal :=
  ∑ j : Fin S, Ideal.div (expo q k b i j) (rowSum q k b i) * v b j h

/-- An array of rank 3 read by its three coordinates. -/
def at3 {n0 n1 n2 : Nat} (a : (⟨3, ![n0, n1, n2]⟩ : Shape).Idx → EReal) (i : Fin n0) (j : Fin n1) (l : Fin n2) : EReal :=
  a (ix3 i j l)

/-- An array of rank 2 read by its two coordinates. -/
def at2 {n0 n1 : Nat} (a : (⟨2, ![n0, n1]⟩ : Shape).Idx → EReal) (i : Fin n0) (j : Fin n1) : EReal :=
  a (ix2 i j)

/-- The whole function of the four argument arrays, as an array of shape 4 × 4096 × 128. -/
def G (x : (⟨3, ![4, 4096, 1024]⟩ : Shape).Idx → EReal) (Wq Wk Wv : (⟨2, ![1024, 128]⟩ : Shape).Idx → EReal) :
    (⟨3, ![4, 4096, 128]⟩ : Shape).Idx → EReal :=
  fun o => attend (proj (at3 x) (at2 Wq)) (proj (at3 x) (at2 Wk)) (proj (at3 x) (at2 Wv)) (o 0) (o 1) (o 2)

end Cert.Attn

end
-- ==== Proof.KRegion0.lean ====
/- Region 0 of @main (the q/k/v projection pallas_call, pipeline 0) in separation logic, at a PARAMETER `V`: the
   TensorCore's buffer contents when the region is entered. Each window's block at a point, what the body leaves in
   each output window's staging buffer (the one store's payload over the blocks of the activations and of one weight
   matrix), the body's triple, the pipeline's proof data and the library's body obligation at every grid point. -/
import proofs.«120868_j4587025072851_2_alg».proof.Proof.Gen.Kernel.Launch
import proofs.«120868_j4587025072851_2_alg».proof.Proof.Gen.Kernel.Skeleton
import proofs.«120868_j4587025072851_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents: the elaborator's structural look recurses once per coordinate of the
-- long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when the region is entered: the parameter the region's half is stated at
variable (V : (c : Dev nD) → (b : Ref sig .tc) → Buf (Elt F) ((c : Thread nD τ).loc b))

/-! # Region 0 of @main: the projection kernel (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (a 1×1024×1024 block of the activations): its current staging buffer holds its block at every
    point, for ANY proof data whose array is `V`'s (`hA`) and whose body leaves the block in place (`hafter`). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the whole first weight matrix, fetched once): its staging buffer holds the matrix at every point,
    fetched there or not — unfetched, the block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (the whole second weight matrix, fetched once). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3 (the whole third weight matrix, fetched once). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

/-- The whole activations block. -/
abbrev r0_x : Rect S1x1024x1024 := Rect.unit (s := S1x1024x1024) ![0, 0, 0] S1x1024x1024.size inb_S1x1024x1024_S1x1024x1024_0_0_0
/-- A whole weight matrix. -/
abbrev r0_w : Rect S1024x128 := Rect.unit (s := S1024x128) ![0, 0] S1024x128.size inb_S1024x128_S1024x128_0_0
/-- A whole output block. -/
abbrev r0_o : Rect S1x1024x128 := Rect.unit (s := S1x1024x128) ![0, 0, 0] S1x1024x128.size inb_S1x1024x128_S1x1024x128_0_0_0

/-! ## What the body leaves in each output window's buffer -/

/-- Window 4's staging buffer after the body, from the activations block `x0` and the first weight matrix `x1`: its one
    store, the payload of the two loads. -/
def out0_4 (x0 : Vec F S1x1024x1024 .f32) (x1 : Vec F S1024x128 .bf16) : Vec F S1x1024x128 .bf16 :=
  View.canon [⟨r0_o, k0_pay2 (View.ld x0 r0_x) (View.ld x1 r0_w)⟩]

/-- Window 5's, from the activations block and the second weight matrix. -/
def out0_5 (x0 : Vec F S1x1024x1024 .f32) (x2 : Vec F S1024x128 .bf16) : Vec F S1x1024x128 .bf16 :=
  View.canon [⟨r0_o, k0_pay3 (View.ld x0 r0_x) (View.ld x2 r0_w)⟩]

/-- Window 6's, from the activations block and the third weight matrix. -/
def out0_6 (x0 : Vec F S1x1024x1024 .f32) (x3 : Vec F S1024x128 .bf16) : Vec F S1x1024x128 .bf16 :=
  View.canon [⟨r0_o, k0_pay4 (View.ld x0 r0_x) (View.ld x3 r0_w)⟩]

/-- The one store of an output buffer is the whole buffer, so it covers it. -/
theorem cover0_4 (p0 : Vec F S1x1024x128 .bf16) (y : S1x1024x128.Idx) :
    ∃ pc ∈ ([⟨r0_o, p0⟩] : List (View.Piece (Elt F) S1x1024x128 .bf16)), y ∈ pc.1.set :=
  View.cover_of_tiled [⟨r0_o, p0⟩] S1x1024x128.size (by rfl) y
theorem cover0_5 (p0 : Vec F S1x1024x128 .bf16) (y : S1x1024x128.Idx) :
    ∃ pc ∈ ([⟨r0_o, p0⟩] : List (View.Piece (Elt F) S1x1024x128 .bf16)), y ∈ pc.1.set :=
  cover0_4 p0 y
theorem cover0_6 (p0 : Vec F S1x1024x128 .bf16) (y : S1x1024x128.Idx) :
    ∃ pc ∈ ([⟨r0_o, p0⟩] : List (View.Piece (Elt F) S1x1024x128 .bf16)), y ∈ pc.1.set :=
  cover0_4 p0 y

/-! ## The body's triple -/

set_option maxHeartbeats 1000000 in
/-- The kernel body on whole staging memrefs, the inputs' at read contents `xW` and the outputs' at anything, runs to
    the continuation holding the inputs' as they were and each output's at `out0_W` of the inputs'. The body reads each
    output buffer once before it stores to it; the value read is used by nothing. -/
theorem sound_kernel0 (c : Dev nD) (E : Set ℕ) (i : grid0.Coords)
    (arg2 : Memref sig .tc .vmem S1x1024x1024 .f32) (harg2 : arg2.IsWhole)
    (arg3 : Memref sig .tc .vmem S1024x128 .bf16) (harg3 : arg3.IsWhole)
    (arg4 : Memref sig .tc .vmem S1024x128 .bf16) (harg4 : arg4.IsWhole)
    (arg5 : Memref sig .tc .vmem S1024x128 .bf16) (harg5 : arg5.IsWhole)
    (arg6 : Memref sig .tc .vmem S1x1024x128 .bf16) (harg6 : arg6.IsWhole)
    (arg7 : Memref sig .tc .vmem S1x1024x128 .bf16) (harg7 : arg7.IsWhole)
    (arg8 : Memref sig .tc .vmem S1x1024x128 .bf16) (harg8 : arg8.IsWhole)
    (x0 : Vec F S1x1024x1024 .f32) (x1 : Vec F S1024x128 .bf16) (x2 : Vec F S1024x128 .bf16) (x3 : Vec F S1024x128 .bf16)
    (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d) ∗ (∃ d, owns (c : Thread nD τ) arg7 fullShare d)
        ∗ (∃ d, owns (c : Thread nD τ) arg8 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (out0_4 x0 x1) ∗ owns (c : Thread nD τ) arg7 fullShare (out0_5 x0 x2)
            ∗ owns (c : Thread nD τ) arg8 fullShare (out0_6 x0 x3)) -∗ K ⟨⟩))
      ⊢ wp frame (wpE (defs₀ (F := F)) Variants.none c none) E (cc0__project_kernel i arg2 harg2 arg3 harg3 arg4 harg4 arg5 harg5 arg6 harg6 arg7 harg7 arg8 harg8) K := by
  simp only [cc0__project_kernel_eq_skeleton]; unfold cc0__project_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_4 _)
  isplitl [H5]
  · iexists _; isplitr
    swap; · iexact H5
    ipureintro
    exact View.read_writes_eq_canon _ _ _ (cover0_5 _)
  iexists _; isplitr
  swap; · iexact H6
  ipureintro
  exact View.read_writes_eq_canon _ _ _ (cover0_6 _)

/-! ## The pipeline's proof data -/

/-- The proof data of pipeline 0 on core `c`: the arrays as the region finds them (`V`); after the body at point `t`
    each input's buffer at its block and each output's at `out0_W` of the activations block and its weight matrix; the
    invariant the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 2 t)
    | ⟨6, _⟩ => out0_6 (iblk0 V c 0 t) (iblk0 V c 3 t)
  Φ _ := Pipeline.ΦA spec0 c
  q _ := fullShare
  owed _ := 0

/-- The proof data's arrays are the region-entry contents (the proof data's definition projected). -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 2 t) := by dsimp only [dat0]
theorem after0_6 (c : Dev nD) (t : Fin cfg0.N) : (dat0 V c).after 6 t = out0_6 (iblk0 V c 0 t) (iblk0 V c 3 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _
    (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.KR1Defs.lean ====
/-
  Region 1, the attention call: what its per-case runs are stated over. The grid is 4 × 8 × 8 (batch, query
  tile, key tile; the key tile runs fastest), so point t has key tile t mod 8 and query tile (t / 8) mod 8.
  The body has three conditionals: it resets the running maximum, sum and accumulator when the key tile is 0;
  it folds one key/value tile into them when the key tile is at most the query tile (tiles above the diagonal
  are skipped); and it writes accumulator / sum to the output block when the key tile is 7. The output window
  is idle except at key tile 7, where its block is written back.
-/
import proofs.«120868_j4587025072851_2_alg».proof.Proof.Gen.Kernel.Launch
import proofs.«120868_j4587025072851_2_alg».proof.Proof.Gen.Kernel.Skeleton
import proofs.«120868_j4587025072851_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three conditions, from the grid coordinates, and their closed forms over the 256 points -/

/-- The key tile is 0. -/
abbrev cond1_0 (i : grid1.Coords) : Prop :=
  (Scalar.cmpi .ne (Scalar.extui (Scalar.cmpi .eq (BitVec.ofNat 32 (i 2).val) 0#32)) 0#32) = 1#1
/-- The key tile is at most the query tile. -/
abbrev cond1_1 (i : grid1.Coords) : Prop :=
  (Scalar.cmpi .ne (Scalar.extui (Scalar.cmpi .sle (BitVec.ofNat 32 (i 2).val) (BitVec.ofNat 32 (i 1).val))) 0#32) = 1#1
/-- The key tile is 7, the last. -/
abbrev cond1_2 (i : grid1.Coords) : Prop := k1_cond3 i = 1#1

theorem hcond1_0 : ∀ t : Fin cfg1.N, cond1_0 (grid1.coords t) ↔ t.val % 8 = 0 :=
  (by decide +kernel : ∀ t : Fin grid1.N, cond1_0 (grid1.coords t) ↔ t.val % 8 = 0)
theorem hcond1_1 : ∀ t : Fin cfg1.N, cond1_1 (grid1.coords t) ↔ t.val % 8 ≤ t.val / 8 % 8 :=
  (by decide +kernel : ∀ t : Fin grid1.N, cond1_1 (grid1.coords t) ↔ t.val % 8 ≤ t.val / 8 % 8)
theorem hcond1_2 : ∀ t : Fin cfg1.N, cond1_2 (grid1.coords t) ↔ t.val % 8 = 7 :=
  (by decide +kernel : ∀ t : Fin grid1.N, cond1_2 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from key tile 7 the output window is idle and its block is not written back. -/
theorem idleAt1_3 : ∀ t : Fin cfg1.N, ¬cond1_2 (grid1.coords t) → cfg1.idle 3 (grid1.coords t) = true := by decide +kernel
theorem noFlush1_3 : ∀ t : Fin cfg1.N, ¬cond1_2 (grid1.coords t) → (cfg1.win 3).flush t = false := by decide +kernel
/-- At key tile 7 it is live. -/
theorem liveAt1_3 : ∀ t : Fin cfg1.N, cond1_2 (grid1.coords t) → cfg1.idle 3 (grid1.coords t) = false := by decide +kernel

/-! ## The memrefs the body is called with -/

abbrev ms1_0 (t : Fin cfg1.N) : Memref sig .tc .vmem S1x512x128 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x128 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512x128 .f32 := win1_3.stage (cfg1.slots t 3)
abbrev hs1_3 (t : Fin cfg1.N) : (ms1_3 t).IsWhole := hstage1_3 ((cfg1.slots t 3).cast nbuf1_3)
/-- The three scratch operands: the running maximum, the running sum, the accumulator. -/
abbrev scM1_0 : Memref sig .tc .vmem S512x1 .f32 := Memref.whole cc1_scratch0
abbrev scM1_1 : Memref sig .tc .vmem S512x1 .f32 := Memref.whole cc1_scratch1
abbrev scM1_2 : Memref sig .tc .vmem S512x128 .f32 := Memref.whole cc1_scratch2
/-- Views through which the contents of the output block and of the scratch buffers are stated. -/
abbrev VO1_3 : View sig .tc .vmem S1x512x128 .f32 := (Memref.whole cc1_stg3_0 : Memref sig .tc .vmem S1x512x128 .f32).view
abbrev VS1_0 : View sig .tc .vmem S512x1 .f32 := scM1_0.view
abbrev VS1_1 : View sig .tc .vmem S512x1 .f32 := scM1_1.view
abbrev VS1_2 : View sig .tc .vmem S512x128 .f32 := scM1_2.view

end Cert.Kernel.Hand

end
-- ==== Proof.KR1RunB.lean ====
/- Region 1: the whole-body run of the attention kernel in one case of its three conditionals. -/
import proofs.«120868_j4587025072851_2_alg».proof.Proof.KR1Defs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body in the case where it does not reset the running state, folds a key tile in and does not write the output block:
    on whole memrefs, the three input blocks at their contents, it runs to the continuation holding the inputs as they were and each
    buffer it stored into with its stores written, the others untouched; the lists of stores are the witness the run finds. -/
noncomputable def kernelRun1_B (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x128 .f32) (harg9 : arg9.IsWhole) (hc0 : ¬cond1_0 i) (hc1 : cond1_1 i) (hc2 : ¬cond1_2 i)
    (x0 : Vec F S1x512x128 .bf16) (x1 : Vec F S1x512x128 .bf16) (x2 : Vec F S1x512x128 .bf16) (xs0 : Vec F S512x1 .f32) (xs1 : Vec F S512x1 .f32) (xs2 : Vec F S512x128 .f32) :
    Σ' (L3 : List (View.Piece (Elt F) S1x512x128 .f32)) (LS0 : List (View.Piece (Elt F) S512x1 .f32)) (LS1 : List (View.Piece (Elt F) S512x1 .f32)), { LS2 : List (View.Piece (Elt F) S512x128 .f32) //
      ∀ (xi3 : Vec F S1x512x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1_kernel i arg3 harg3 arg4 harg4 arg5 harg5 arg6 harg6 arg7 harg7 arg8 harg8 arg9 harg9) K } := by
  refine ⟨[], ?_, ?_, ?_, fun xi3 E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.Kernel.Hand

end
-- ==== Proof.KR1RunA.lean ====
/- Region 1: the whole-body run of the attention kernel in one case of its three conditionals. -/
import proofs.«120868_j4587025072851_2_alg».proof.Proof.KR1RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body in the case where it resets the running state, folds a key tile in and does not write the output block:
    on whole memrefs, the three input blocks at their contents, it runs to the continuation holding the inputs as they were and each
    buffer it stored into with its stores written, the others untouched; the lists of stores are the witness the run finds. -/
noncomputable def kernelRun1_A (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x128 .f32) (harg9 : arg9.IsWhole) (hc0 : cond1_0 i) (hc1 : cond1_1 i) (hc2 : ¬cond1_2 i)
    (x0 : Vec F S1x512x128 .bf16) (x1 : Vec F S1x512x128 .bf16) (x2 : Vec F S1x512x128 .bf16) :
    Σ' (L3 : List (View.Piece (Elt F) S1x512x128 .f32)) (LS0 : List (View.Piece (Elt F) S512x1 .f32)) (LS1 : List (View.Piece (Elt F) S512x1 .f32)), { LS2 : List (View.Piece (Elt F) S512x128 .f32) //
      ∀ (xi3 : Vec F S1x512x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1_kernel i arg3 harg3 arg4 harg4 arg5 harg5 arg6 harg6 arg7 harg7 arg8 harg8 arg9 harg9) K } := by
  refine ⟨[], ?_, ?_, ?_, fun xi3 E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.Kernel.Hand

end
-- ==== Proof.KR1RunC.lean ====
/- Region 1: the whole-body run of the attention kernel in one case of its three conditionals. -/
import proofs.«120868_j4587025072851_2_alg».proof.Proof.KR1RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body in the case where it does not reset the running state, does not fold a key tile in and does not write the output block:
    on whole memrefs, the three input blocks at their contents, it runs to the continuation holding the inputs as they were and each
    buffer it stored into with its stores written, the others untouched; the lists of stores are the witness the run finds. -/
noncomputable def kernelRun1_C (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x128 .f32) (harg9 : arg9.IsWhole) (hc0 : ¬cond1_0 i) (hc1 : ¬cond1_1 i) (hc2 : ¬cond1_2 i)
    (x0 : Vec F S1x512x128 .bf16) (x1 : Vec F S1x512x128 .bf16) (x2 : Vec F S1x512x128 .bf16) (xs0 : Vec F S512x1 .f32) (xs1 : Vec F S512x1 .f32) (xs2 : Vec F S512x128 .f32) :
    Σ' (L3 : List (View.Piece (Elt F) S1x512x128 .f32)) (LS0 : List (View.Piece (Elt F) S512x1 .f32)) (LS1 : List (View.Piece (Elt F) S512x1 .f32)), { LS2 : List (View.Piece (Elt F) S512x128 .f32) //
      ∀ (xi3 : Vec F S1x512x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1 ∗ owns (c : Thread nD τ) arg9 fullShare xs2) -∗ K ⟨⟩))
          ⊢ wp frame (wpE (defs₀ (F := F)) Variants.none c none) E (cc1_kernel i arg3 harg3 arg4 harg4 arg5 harg5 arg6 harg6 arg7 harg7 arg8 harg8 arg9 harg9) K } := by
  refine ⟨[], [], [], [], fun xi3 E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]
    · iexists _; isplitr; · ipureintro; exact harg7.read_unread _
      iexact HS0
    isplitl [HS1]
    · iexists _; isplitr; · ipureintro; exact harg8.read_unread _
      iexact HS1
    iexists _; isplitr; · ipureintro; exact harg9.read_unread _
    iexact HS2

end Cert.Kernel.Hand

end
-- ==== Proof.KR1RunD.lean ====
/- Region 1: the whole-body run of the attention kernel in one case of its three conditionals. -/
import proofs.«120868_j4587025072851_2_alg».proof.Proof.KR1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body in the case where it does not reset the running state, folds a key tile in and writes the output block:
    on whole memrefs, the three input blocks at their contents, it runs to the continuation holding the inputs as they were and each
    buffer it stored into with its stores written, the others untouched; the lists of stores are the witness the run finds. -/
noncomputable def kernelRun1_D (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x128 .f32) (harg9 : arg9.IsWhole) (hc0 : ¬cond1_0 i) (hc1 : cond1_1 i) (hc2 : cond1_2 i)
    (x0 : Vec F S1x512x128 .bf16) (x1 : Vec F S1x512x128 .bf16) (x2 : Vec F S1x512x128 .bf16) (xs0 : Vec F S512x1 .f32) (xs1 : Vec F S512x1 .f32) (xs2 : Vec F S512x128 .f32) :
    Σ' (L3 : List (View.Piece (Elt F) S1x512x128 .f32)) (LS0 : List (View.Piece (Elt F) S512x1 .f32)) (LS1 : List (View.Piece (Elt F) S512x1 .f32)), { LS2 : List (View.Piece (Elt F) S512x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1_kernel i arg3 harg3 arg4 harg4 arg5 harg5 arg6 harg6 arg7 harg7 arg8 harg8 arg9 harg9) K } := by
  refine ⟨?_, ?_, ?_, ?_, fun E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.Kernel.Hand

end
-- ==== Proof.KR1RunE.lean ====
/- Region 1: the whole-body run of the attention kernel in one case of its three conditionals. -/
import proofs.«120868_j4587025072851_2_alg».proof.Proof.KR1RunD

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body in the case where it does not reset the running state, does not fold a key tile in and writes the output block:
    on whole memrefs, the three input blocks at their contents, it runs to the continuation holding the inputs as they were and each
    buffer it stored into with its stores written, the others untouched; the lists of stores are the witness the run finds. -/
noncomputable def kernelRun1_E (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x128 .f32) (harg9 : arg9.IsWhole) (hc0 : ¬cond1_0 i) (hc1 : ¬cond1_1 i) (hc2 : cond1_2 i)
    (x0 : Vec F S1x512x128 .bf16) (x1 : Vec F S1x512x128 .bf16) (x2 : Vec F S1x512x128 .bf16) (xs0 : Vec F S512x1 .f32) (xs1 : Vec F S512x1 .f32) (xs2 : Vec F S512x128 .f32) :
    Σ' (L3 : List (View.Piece (Elt F) S1x512x128 .f32)) (LS0 : List (View.Piece (Elt F) S512x1 .f32)) (LS1 : List (View.Piece (Elt F) S512x1 .f32)), { LS2 : List (View.Piece (Elt F) S512x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ owns (c : Thread nD τ) arg7 fullShare xs0 ∗ owns (c : Thread nD τ) arg8 fullShare xs1 ∗ owns (c : Thread nD τ) arg9 fullShare xs2) -∗ K ⟨⟩))
          ⊢ wp frame (wpE (defs₀ (F := F)) Variants.none c none) E (cc1_kernel i arg3 harg3 arg4 harg4 arg5 harg5 arg6 harg6 arg7 harg7 arg8 harg8 arg9 harg9) K } := by
  refine ⟨?_, [], [], [], fun E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]
    · iexists _; isplitr; · ipureintro; exact harg7.read_unread _
      iexact HS0
    isplitl [HS1]
    · iexists _; isplitr; · ipureintro; exact harg8.read_unread _
      iexact HS1
    iexists _; isplitr; · ipureintro; exact harg9.read_unread _
    iexact HS2

end Cert.Kernel.Hand

end
-- ==== Proof.KRegion1.lean ====
/-
  Region 1, the attention call: its proof data and body obligation. What the output block's buffer and the three
  scratch buffers (running maximum, running sum, accumulator) hold after each grid point is defined by recursion
  on the point: the case of the three conditionals that the point is in, run on the point's query, key and value
  blocks and on what the point before left in the scratch buffers. The invariant carries the scratch buffers at
  those contents from point to point; the output block is written at key tile 7 only and idle elsewhere.
-/
import proofs.«120868_j4587025072851_2_alg».proof.Proof.KR1RunE

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves -/

/-- The stores of this case into scratch 0 tile it. -/
theorem scover1_A_0 (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x128 .f32) (harg9 : arg9.IsWhole) (hc0 : cond1_0 i) (hc1 : cond1_1 i) (hc2 : ¬cond1_2 i)
    (x0 : Vec F S1x512x128 .bf16) (x1 : Vec F S1x512x128 .bf16) (x2 : Vec F S1x512x128 .bf16) (y : S512x1.Idx) :
    ∃ pc ∈ (kernelRun1_A c i arg3 harg3 arg4 harg4 arg5 harg5 arg6 harg6 arg7 harg7 arg8 harg8 arg9 harg9 hc0 hc1 hc2 x0 x1 x2).2.1, y ∈ pc.1.set :=
  View.cover_of_tiledL (kernelRun1_A c i arg3 harg3 arg4 harg4 arg5 harg5 arg6 harg6 arg7 harg7 arg8 harg8 arg9 harg9 hc0 hc1 hc2 x0 x1 x2).2.1 S512x1.size (by sl_kernel_rfl) y

/-- What this case leaves in scratch 0: its stores read back. -/
def sout1_A_0 (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x128 .f32) (harg9 : arg9.IsWhole) (hc0 : cond1_0 i) (hc1 : cond1_1 i) (hc2 : ¬cond1_2 i)
    (x0 : Vec F S1x512x128 .bf16) (x1 : Vec F S1x512x128 .bf16) (x2 : Vec F S1x512x128 .bf16) : Vec F S512x1 .f32 :=
  VS1_0.read (Elt F) (VS1_0.writes (Elt F) VS1_0.junk (kernelRun1_A c i arg3 harg3 arg4 harg4 arg5 harg5 arg6 harg6 arg7 harg7 arg8 harg8 arg9 harg9 hc0 hc1 hc2 x0 x1 x2).2.1)

/-- The stores of this case into scratch 1 tile it. -/
theorem scover1_A_1 (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x128 .f32) (harg9 : arg9.IsWhole) (hc0 : cond1_0 i) (hc1 : cond1_1 i) (hc2 : ¬cond1_2 i)
    (x0 : Vec F S1x512x128 .bf16) (x1 : Vec F S1x512x128 .bf16) (x2 : Vec F S1x512x128 .bf16) (y : S512x1.Idx) :
    ∃ pc ∈ (kernelRun1_A c i arg3 harg3 arg4 harg4 arg5 harg5 arg6 harg6 arg7 harg7 arg8 harg8 arg9 harg9 hc0 hc1 hc2 x0 x1 x2).2.2.1, y ∈ pc.1.set :=
  View.cover_of_tiledL (kernelRun1_A c i arg3 harg3 arg4 harg4 arg5 harg5 arg6 harg6 arg7 harg7 arg8 harg8 arg9 harg9 hc0 hc1 hc2 x0 x1 x2).2.2.1 S512x1.size (by sl_kernel_rfl) y

/-- What this case leaves in scratch 1: its stores read back. -/
def sout1_A_1 (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x128 .f32) (harg9 : arg9.IsWhole) (hc0 : cond1_0 i) (hc1 : cond1_1 i) (hc2 : ¬cond1_2 i)
    (x0 : Vec F S1x512x128 .bf16) (x1 : Vec F S1x512x128 .bf16) (x2 : Vec F S1x512x128 .bf16) : Vec F S512x1 .f32 :=
  VS1_1.read (Elt F) (VS1_1.writes (Elt F) VS1_1.junk (kernelRun1_A c i arg3 harg3 arg4 harg4 arg5 harg5 arg6 harg6 arg7 harg7 arg8 harg8 arg9 harg9 hc0 hc1 hc2 x0 x1 x2).2.2.1)

/-- The stores of this case into scratch 2 tile it. -/
theorem scover1_A_2 (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x128 .f32) (harg9 : arg9.IsWhole) (hc0 : cond1_0 i) (hc1 : cond1_1 i) (hc2 : ¬cond1_2 i)
    (x0 : Vec F S1x512x128 .bf16) (x1 : Vec F S1x512x128 .bf16) (x2 : Vec F S1x512x128 .bf16) (y : S512x128.Idx) :
    ∃ pc ∈ (kernelRun1_A c i arg3 harg3 arg4 harg4 arg5 harg5 arg6 harg6 arg7 harg7 arg8 harg8 arg9 harg9 hc0 hc1 hc2 x0 x1 x2).2.2.2.1, y ∈ pc.1.set :=
  View.cover_of_tiledL (kernelRun1_A c i arg3 harg3 arg4 harg4 arg5 harg5 arg6 harg6 arg7 harg7 arg8 harg8 arg9 harg9 hc0 hc1 hc2 x0 x1 x2).2.2.2.1 S512x128.size (by sl_kernel_rfl) y

/-- What this case leaves in scratch 2: its stores read back. -/
def sout1_A_2 (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x128 .f32) (harg9 : arg9.IsWhole) (hc0 : cond1_0 i) (hc1 : cond1_1 i) (hc2 : ¬cond1_2 i)
    (x0 : Vec F S1x512x128 .bf16) (x1 : Vec F S1x512x128 .bf16) (x2 : Vec F S1x512x128 .bf16) : Vec F S512x128 .f32 :=
  VS1_2.read (Elt F) (VS1_2.writes (Elt F) VS1_2.junk (kernelRun1_A c i arg3 harg3 arg4 harg4 arg5 harg5 arg6 harg6 arg7 harg7 arg8 harg8 arg9 harg9 hc0 hc1 hc2 x0 x1 x2).2.2.2.1)

/-- The stores of this case into scratch 0 tile it. -/
theorem scover1_B_0 (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x128 .f32) (harg9 : arg9.IsWhole) (hc0 : ¬cond1_0 i) (hc1 : cond1_1 i) (hc2 : ¬cond1_2 i)
    (x0 : Vec F S1x512x128 .bf16) (x1 : Vec F S1x512x128 .bf16) (x2 : Vec F S1x512x128 .bf16) (xs0 : Vec F S512x1 .f32) (xs1 : Vec F S512x1 .f32) (xs2 : Vec F S512x128 .f32) (y : S512x1.Idx) :
    ∃ pc ∈ (kernelRun1_B c i arg3 harg3 arg4 harg4 arg5 harg5 arg6 harg6 arg7 harg7 arg8 harg8 arg9 harg9 hc0 hc1 hc2 x0 x1 x2 xs0 xs1 xs2).2.1, y ∈ pc.1.set :=
  View.cover_of_tiledL (kernelRun1_B c i arg3 harg3 arg4 harg4 arg5 harg5 arg6 harg6 arg7 harg7 arg8 harg8 arg9 harg9 hc0 hc1 hc2 x0 x1 x2 xs0 xs1 xs2).2.1 S512x1.size (by sl_kernel_rfl) y

/-- What this case leaves in scratch 0: its stores read back. -/
def sout1_B_0 (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x128 .f32) (harg9 : arg9.IsWhole) (hc0 : ¬cond1_0 i) (hc1 : cond1_1 i) (hc2 : ¬cond1_2 i)
    (x0 : Vec F S1x512x128 .bf16) (x1 : Vec F S1x512x128 .bf16) (x2 : Vec F S1x512x128 .bf16) (xs0 : Vec F S512x1 .f32) (xs1 : Vec F S512x1 .f32) (xs2 : Vec F S512x128 .f32) : Vec F S512x1 .f32 :=
  VS1_0.read (Elt F) (VS1_0.writes (Elt F) VS1_0.junk (kernelRun1_B c i arg3 harg3 arg4 harg4 arg5 harg5 arg6 harg6 arg7 harg7 arg8 harg8 arg9 harg9 hc0 hc1 hc2 x0 x1 x2 xs0 xs1 xs2).2.1)

/-- The stores of this case into scratch 1 tile it. -/
theorem scover1_B_1 (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x128 .f32) (harg9 : arg9.IsWhole) (hc0 : ¬cond1_0 i) (hc1 : cond1_1 i) (hc2 : ¬cond1_2 i)
    (x0 : Vec F S1x512x128 .bf16) (x1 : Vec F S1x512x128 .bf16) (x2 : Vec F S1x512x128 .bf16) (xs0 : Vec F S512x1 .f32) (xs1 : Vec F S512x1 .f32) (xs2 : Vec F S512x128 .f32) (y : S512x1.Idx) :
    ∃ pc ∈ (kernelRun1_B c i arg3 harg3 arg4 harg4 arg5 harg5 arg6 harg6 arg7 harg7 arg8 harg8 arg9 harg9 hc0 hc1 hc2 x0 x1 x2 xs0 xs1 xs2).2.2.1, y ∈ pc.1.set :=
  View.cover_of_tiledL (kernelRun1_B c i arg3 harg3 arg4 harg4 arg5 harg5 arg6 harg6 arg7 harg7 arg8 harg8 arg9 harg9 hc0 hc1 hc2 x0 x1 x2 xs0 xs1 xs2).2.2.1 S512x1.size (by sl_kernel_rfl) y

/-- What this case leaves in scratch 1: its stores read back. -/
def sout1_B_1 (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x128 .f32) (harg9 : arg9.IsWhole) (hc0 : ¬cond1_0 i) (hc1 : cond1_1 i) (hc2 : ¬cond1_2 i)
    (x0 : Vec F S1x512x128 .bf16) (x1 : Vec F S1x512x128 .bf16) (x2 : Vec F S1x512x128 .bf16) (xs0 : Vec F S512x1 .f32) (xs1 : Vec F S512x1 .f32) (xs2 : Vec F S512x128 .f32) : Vec F S512x1 .f32 :=
  VS1_1.read (Elt F) (VS1_1.writes (Elt F) VS1_1.junk (kernelRun1_B c i arg3 harg3 arg4 harg4 arg5 harg5 arg6 harg6 arg7 harg7 arg8 harg8 arg9 harg9 hc0 hc1 hc2 x0 x1 x2 xs0 xs1 xs2).2.2.1)

/-- The stores of this case into scratch 2 tile it. -/
theorem scover1_B_2 (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x128 .f32) (harg9 : arg9.IsWhole) (hc0 : ¬cond1_0 i) (hc1 : cond1_1 i) (hc2 : ¬cond1_2 i)
    (x0 : Vec F S1x512x128 .bf16) (x1 : Vec F S1x512x128 .bf16) (x2 : Vec F S1x512x128 .bf16) (xs0 : Vec F S512x1 .f32) (xs1 : Vec F S512x1 .f32) (xs2 : Vec F S512x128 .f32) (y : S512x128.Idx) :
    ∃ pc ∈ (kernelRun1_B c i arg3 harg3 arg4 harg4 arg5 harg5 arg6 harg6 arg7 harg7 arg8 harg8 arg9 harg9 hc0 hc1 hc2 x0 x1 x2 xs0 xs1 xs2).2.2.2.1, y ∈ pc.1.set :=
  View.cover_of_tiledL (kernelRun1_B c i arg3 harg3 arg4 harg4 arg5 harg5 arg6 harg6 arg7 harg7 arg8 harg8 arg9 harg9 hc0 hc1 hc2 x0 x1 x2 xs0 xs1 xs2).2.2.2.1 S512x128.size (by sl_kernel_rfl) y

/-- What this case leaves in scratch 2: its stores read back. -/
def sout1_B_2 (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x128 .f32) (harg9 : arg9.IsWhole) (hc0 : ¬cond1_0 i) (hc1 : cond1_1 i) (hc2 : ¬cond1_2 i)
    (x0 : Vec F S1x512x128 .bf16) (x1 : Vec F S1x512x128 .bf16) (x2 : Vec F S1x512x128 .bf16) (xs0 : Vec F S512x1 .f32) (xs1 : Vec F S512x1 .f32) (xs2 : Vec F S512x128 .f32) : Vec F S512x128 .f32 :=
  VS1_2.read (Elt F) (VS1_2.writes (Elt F) VS1_2.junk (kernelRun1_B c i arg3 harg3 arg4 harg4 arg5 harg5 arg6 harg6 arg7 harg7 arg8 harg8 arg9 harg9 hc0 hc1 hc2 x0 x1 x2 xs0 xs1 xs2).2.2.2.1)

/-- The stores of this case into scratch 0 tile it. -/
theorem scover1_D_0 (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x128 .f32) (harg9 : arg9.IsWhole) (hc0 : ¬cond1_0 i) (hc1 : cond1_1 i) (hc2 : cond1_2 i)
    (x0 : Vec F S1x512x128 .bf16) (x1 : Vec F S1x512x128 .bf16) (x2 : Vec F S1x512x128 .bf16) (xs0 : Vec F S512x1 .f32) (xs1 : Vec F S512x1 .f32) (xs2 : Vec F S512x128 .f32) (y : S512x1.Idx) :
    ∃ pc ∈ (kernelRun1_D c i arg3 harg3 arg4 harg4 arg5 harg5 arg6 harg6 arg7 harg7 arg8 harg8 arg9 harg9 hc0 hc1 hc2 x0 x1 x2 xs0 xs1 xs2).2.1, y ∈ pc.1.set :=
  View.cover_of_tiledL (kernelRun1_D c i arg3 harg3 arg4 harg4 arg5 harg5 arg6 harg6 arg7 harg7 arg8 harg8 arg9 harg9 hc0 hc1 hc2 x0 x1 x2 xs0 xs1 xs2).2.1 S512x1.size (by sl_kernel_rfl) y

/-- What this case leaves in scratch 0: its stores read back. -/
def sout1_D_0 (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x128 .f32) (harg9 : arg9.IsWhole) (hc0 : ¬cond1_0 i) (hc1 : cond1_1 i) (hc2 : cond1_2 i)
    (x0 : Vec F S1x512x128 .bf16) (x1 : Vec F S1x512x128 .bf16) (x2 : Vec F S1x512x128 .bf16) (xs0 : Vec F S512x1 .f32) (xs1 : Vec F S512x1 .f32) (xs2 : Vec F S512x128 .f32) : Vec F S512x1 .f32 :=
  VS1_0.read (Elt F) (VS1_0.writes (Elt F) VS1_0.junk (kernelRun1_D c i arg3 harg3 arg4 harg4 arg5 harg5 arg6 harg6 arg7 harg7 arg8 harg8 arg9 harg9 hc0 hc1 hc2 x0 x1 x2 xs0 xs1 xs2).2.1)

/-- The stores of this case into scratch 1 tile it. -/
theorem scover1_D_1 (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x128 .f32) (harg9 : arg9.IsWhole) (hc0 : ¬cond1_0 i) (hc1 : cond1_1 i) (hc2 : cond1_2 i)
    (x0 : Vec F S1x512x128 .bf16) (x1 : Vec F S1x512x128 .bf16) (x2 : Vec F S1x512x128 .bf16) (xs0 : Vec F S512x1 .f32) (xs1 : Vec F S512x1 .f32) (xs2 : Vec F S512x128 .f32) (y : S512x1.Idx) :
    ∃ pc ∈ (kernelRun1_D c i arg3 harg3 arg4 harg4 arg5 harg5 arg6 harg6 arg7 harg7 arg8 harg8 arg9 harg9 hc0 hc1 hc2 x0 x1 x2 xs0 xs1 xs2).2.2.1, y ∈ pc.1.set :=
  View.cover_of_tiledL (kernelRun1_D c i arg3 harg3 arg4 harg4 arg5 harg5 arg6 harg6 arg7 harg7 arg8 harg8 arg9 harg9 hc0 hc1 hc2 x0 x1 x2 xs0 xs1 xs2).2.2.1 S512x1.size (by sl_kernel_rfl) y

/-- What this case leaves in scratch 1: its stores read back. -/
def sout1_D_1 (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x128 .f32) (harg9 : arg9.IsWhole) (hc0 : ¬cond1_0 i) (hc1 : cond1_1 i) (hc2 : cond1_2 i)
    (x0 : Vec F S1x512x128 .bf16) (x1 : Vec F S1x512x128 .bf16) (x2 : Vec F S1x512x128 .bf16) (xs0 : Vec F S512x1 .f32) (xs1 : Vec F S512x1 .f32) (xs2 : Vec F S512x128 .f32) : Vec F S512x1 .f32 :=
  VS1_1.read (Elt F) (VS1_1.writes (Elt F) VS1_1.junk (kernelRun1_D c i arg3 harg3 arg4 harg4 arg5 harg5 arg6 harg6 arg7 harg7 arg8 harg8 arg9 harg9 hc0 hc1 hc2 x0 x1 x2 xs0 xs1 xs2).2.2.1)

/-- The stores of this case into scratch 2 tile it. -/
theorem scover1_D_2 (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x128 .f32) (harg9 : arg9.IsWhole) (hc0 : ¬cond1_0 i) (hc1 : cond1_1 i) (hc2 : cond1_2 i)
    (x0 : Vec F S1x512x128 .bf16) (x1 : Vec F S1x512x128 .bf16) (x2 : Vec F S1x512x128 .bf16) (xs0 : Vec F S512x1 .f32) (xs1 : Vec F S512x1 .f32) (xs2 : Vec F S512x128 .f32) (y : S512x128.Idx) :
    ∃ pc ∈ (kernelRun1_D c i arg3 harg3 arg4 harg4 arg5 harg5 arg6 harg6 arg7 harg7 arg8 harg8 arg9 harg9 hc0 hc1 hc2 x0 x1 x2 xs0 xs1 xs2).2.2.2.1, y ∈ pc.1.set :=
  View.cover_of_tiledL (kernelRun1_D c i arg3 harg3 arg4 harg4 arg5 harg5 arg6 harg6 arg7 harg7 arg8 harg8 arg9 harg9 hc0 hc1 hc2 x0 x1 x2 xs0 xs1 xs2).2.2.2.1 S512x128.size (by sl_kernel_rfl) y

/-- What this case leaves in scratch 2: its stores read back. -/
def sout1_D_2 (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x128 .f32) (harg9 : arg9.IsWhole) (hc0 : ¬cond1_0 i) (hc1 : cond1_1 i) (hc2 : cond1_2 i)
    (x0 : Vec F S1x512x128 .bf16) (x1 : Vec F S1x512x128 .bf16) (x2 : Vec F S1x512x128 .bf16) (xs0 : Vec F S512x1 .f32) (xs1 : Vec F S512x1 .f32) (xs2 : Vec F S512x128 .f32) : Vec F S512x128 .f32 :=
  VS1_2.read (Elt F) (VS1_2.writes (Elt F) VS1_2.junk (kernelRun1_D c i arg3 harg3 arg4 harg4 arg5 harg5 arg6 harg6 arg7 harg7 arg8 harg8 arg9 harg9 hc0 hc1 hc2 x0 x1 x2 xs0 xs1 xs2).2.2.2.1)

/-- The store of this case into the output block tiles it. -/
theorem cover1_D_3 (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x128 .f32) (harg9 : arg9.IsWhole) (hc0 : ¬cond1_0 i) (hc1 : cond1_1 i) (hc2 : cond1_2 i)
    (x0 : Vec F S1x512x128 .bf16) (x1 : Vec F S1x512x128 .bf16) (x2 : Vec F S1x512x128 .bf16) (xs0 : Vec F S512x1 .f32) (xs1 : Vec F S512x1 .f32) (xs2 : Vec F S512x128 .f32) (y : S1x512x128.Idx) :
    ∃ pc ∈ (kernelRun1_D c i arg3 harg3 arg4 harg4 arg5 harg5 arg6 harg6 arg7 harg7 arg8 harg8 arg9 harg9 hc0 hc1 hc2 x0 x1 x2 xs0 xs1 xs2).1, y ∈ pc.1.set :=
  View.cover_of_tiledL (kernelRun1_D c i arg3 harg3 arg4 harg4 arg5 harg5 arg6 harg6 arg7 harg7 arg8 harg8 arg9 harg9 hc0 hc1 hc2 x0 x1 x2 xs0 xs1 xs2).1 S1x512x128.size (by sl_kernel_rfl) y

/-- What this case leaves in the output block: its store read back. -/
def out1_D_3 (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x128 .f32) (harg9 : arg9.IsWhole) (hc0 : ¬cond1_0 i) (hc1 : cond1_1 i) (hc2 : cond1_2 i)
    (x0 : Vec F S1x512x128 .bf16) (x1 : Vec F S1x512x128 .bf16) (x2 : Vec F S1x512x128 .bf16) (xs0 : Vec F S512x1 .f32) (xs1 : Vec F S512x1 .f32) (xs2 : Vec F S512x128 .f32) : Vec F S1x512x128 .f32 :=
  VO1_3.read (Elt F) (VO1_3.writes (Elt F) VO1_3.junk (kernelRun1_D c i arg3 harg3 arg4 harg4 arg5 harg5 arg6 harg6 arg7 harg7 arg8 harg8 arg9 harg9 hc0 hc1 hc2 x0 x1 x2 xs0 xs1 xs2).1)

/-- The store of this case into the output block tiles it. -/
theorem cover1_E_3 (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x128 .f32) (harg9 : arg9.IsWhole) (hc0 : ¬cond1_0 i) (hc1 : ¬cond1_1 i) (hc2 : cond1_2 i)
    (x0 : Vec F S1x512x128 .bf16) (x1 : Vec F S1x512x128 .bf16) (x2 : Vec F S1x512x128 .bf16) (xs0 : Vec F S512x1 .f32) (xs1 : Vec F S512x1 .f32) (xs2 : Vec F S512x128 .f32) (y : S1x512x128.Idx) :
    ∃ pc ∈ (kernelRun1_E c i arg3 harg3 arg4 harg4 arg5 harg5 arg6 harg6 arg7 harg7 arg8 harg8 arg9 harg9 hc0 hc1 hc2 x0 x1 x2 xs0 xs1 xs2).1, y ∈ pc.1.set :=
  View.cover_of_tiledL (kernelRun1_E c i arg3 harg3 arg4 harg4 arg5 harg5 arg6 harg6 arg7 harg7 arg8 harg8 arg9 harg9 hc0 hc1 hc2 x0 x1 x2 xs0 xs1 xs2).1 S1x512x128.size (by sl_kernel_rfl) y

/-- What this case leaves in the output block: its store read back. -/
def out1_E_3 (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x128 .f32) (harg9 : arg9.IsWhole) (hc0 : ¬cond1_0 i) (hc1 : ¬cond1_1 i) (hc2 : cond1_2 i)
    (x0 : Vec F S1x512x128 .bf16) (x1 : Vec F S1x512x128 .bf16) (x2 : Vec F S1x512x128 .bf16) (xs0 : Vec F S512x1 .f32) (xs1 : Vec F S512x1 .f32) (xs2 : Vec F S512x128 .f32) : Vec F S1x512x128 .f32 :=
  VO1_3.read (Elt F) (VO1_3.writes (Elt F) VO1_3.junk (kernelRun1_E c i arg3 harg3 arg4 harg4 arg5 harg5 arg6 harg6 arg7 harg7 arg8 harg8 arg9 harg9 hc0 hc1 hc2 x0 x1 x2 xs0 xs1 xs2).1)

/-! ## What the buffers hold after each point -/

/-- A placeholder for the output block's buffer at the points where the window is idle: nothing consults it. -/
def idleOut : Vec F S1x512x128 .f32 := VO1_3.read (Elt F) VO1_3.junk

/-- One point: the case its key and query tiles select, run on its blocks and on what the point before left in the
    scratch buffers (`prev`: running maximum, running sum, accumulator). -/
def stepAt (c : Dev nD) (t : Fin cfg1.N) (prev : Vec F S512x1 .f32 × Vec F S512x1 .f32 × Vec F S512x128 .f32) : Vec F S1x512x128 .f32 × Vec F S512x1 .f32 × Vec F S512x1 .f32 × Vec F S512x128 .f32 :=
  if h0 : t.val % 8 = 0 then
    if h1 : t.val % 8 ≤ t.val / 8 % 8 then
      if h2 : t.val % 8 = 7 then (idleOut, prev)
      else (idleOut, (sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr h1) (fun h => h2 ((hcond1_2 t).mp h)) (iblk1 V c 0 t) (iblk1 V c 1 t) (iblk1 V c 2 t), sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr h1) (fun h => h2 ((hcond1_2 t).mp h)) (iblk1 V c 0 t) (iblk1 V c 1 t) (iblk1 V c 2 t), sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr h1) (fun h => h2 ((hcond1_2 t).mp h)) (iblk1 V c 0 t) (iblk1 V c 1 t) (iblk1 V c 2 t)))
    else (idleOut, prev)
  else
    if h1 : t.val % 8 ≤ t.val / 8 % 8 then
      if h2 : t.val % 8 = 7 then
        (out1_D_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) prev.1 prev.2.1 prev.2.2, (sout1_D_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) prev.1 prev.2.1 prev.2.2, sout1_D_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) prev.1 prev.2.1 prev.2.2, sout1_D_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) prev.1 prev.2.1 prev.2.2))
      else (idleOut, (sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (iblk1 V c 0 t) (iblk1 V c 1 t) (iblk1 V c 2 t) prev.1 prev.2.1 prev.2.2, sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (iblk1 V c 0 t) (iblk1 V c 1 t) (iblk1 V c 2 t) prev.1 prev.2.1 prev.2.2, sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (iblk1 V c 0 t) (iblk1 V c 1 t) (iblk1 V c 2 t) prev.1 prev.2.1 prev.2.2))
    else
      if h2 : t.val % 8 = 7 then (out1_E_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) ((hcond1_2 t).mpr h2) (iblk1 V c 0 t) (iblk1 V c 1 t) (iblk1 V c 2 t) prev.1 prev.2.1 prev.2.2, prev)
      else (idleOut, prev)

/-- The accumulation over the points, in grid order. -/
def outsAt1 (c : Dev nD) : (n : ℕ) → n < cfg1.N → Vec F S1x512x128 .f32 × Vec F S512x1 .f32 × Vec F S512x1 .f32 × Vec F S512x128 .f32
  | 0, hn => stepAt V c ⟨0, hn⟩ (VS1_0.read (Elt F) VS1_0.junk, VS1_1.read (Elt F) VS1_1.junk, VS1_2.read (Elt F) VS1_2.junk)
  | n + 1, hn => stepAt V c ⟨n + 1, hn⟩ (outsAt1 c n (Nat.lt_of_succ_lt hn)).2

theorem outsAt1_pos (c : Dev nD) (t : Fin cfg1.N) (hz : t.val ≠ 0) :
    outsAt1 V c t.val t.isLt = stepAt V c t (outsAt1 V c (t.val - 1) (Nat.lt_of_le_of_lt (Nat.sub_le _ _) t.isLt)).2 := by
  obtain ⟨n, hn⟩ := t
  cases n with
  | zero => exact absurd rfl hz
  | succ n => rfl

theorem outsAt1_zero (c : Dev nD) (t : Fin cfg1.N) (hz : t.val = 0) :
    outsAt1 V c t.val t.isLt = stepAt V c t (VS1_0.read (Elt F) VS1_0.junk, VS1_1.read (Elt F) VS1_1.junk, VS1_2.read (Elt F) VS1_2.junk) := by
  obtain ⟨n, hn⟩ := t
  cases n with
  | zero => rfl
  | succ n => exact absurd hz (Nat.succ_ne_zero n)

/-! ## The invariant: the scratch buffers carried from point to point -/

/-- The scoped buffers of the other call, each whole at some contents: what the body never touches. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f))

theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

/-- The class's invariant opened: the other call's buffers, the three scratch buffers at some contents, the generator register. -/
theorem PhiA1_open (c : Dev nD) :
    (Pipeline.ΦA spec1 c : sProp 𝕄) ⊢ iprop(rest1 c ∗ (∃ d, owns (c : Thread nD τ) scM1_0 fullShare d) ∗ (∃ d, owns (c : Thread nD τ) scM1_1 fullShare d) ∗ (∃ d, owns (c : Thread nD τ) scM1_2 fullShare d) ∗ (∃ r, prngReg c r)) := by
  rw [PhiA1_eq]; unfold rest1
  iintro ⟨⟨R0, R1, R2, R3, R4, R5, R6, R7, R8, R9, R10, HS0, HS1, HS2⟩, Hg⟩
  isplitl [R0 R1 R2 R3 R4 R5 R6 R7 R8 R9 R10]
  ·
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    iexact R10
  isplitl [HS0]; · iexact HS0
  isplitl [HS1]; · iexact HS1
  isplitl [HS2]; · iexact HS2
  iexact Hg

/-- and closed again. -/
theorem PhiA1_close (c : Dev nD) :
    iprop(rest1 c ∗ (∃ d, owns (c : Thread nD τ) scM1_0 fullShare d) ∗ (∃ d, owns (c : Thread nD τ) scM1_1 fullShare d) ∗ (∃ d, owns (c : Thread nD τ) scM1_2 fullShare d) ∗ (∃ r, prngReg c r)) ⊢ (Pipeline.ΦA spec1 c : sProp 𝕄) := by
  rw [PhiA1_eq]; unfold rest1
  iintro ⟨⟨R0, R1, R2, R3, R4, R5, R6, R7, R8, R9, R10⟩, HS0, HS1, HS2, Hg⟩
  isplitr [Hg]
  swap; · iexact Hg
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [HS0]; · iexact HS0
  isplitl [HS1]; · iexact HS1
  iexact HS2

/-- The region's invariant before position `n`: before the first point the class's; afterwards the scratch buffers at
    what the point before left in them. -/
def PhiS (c : Dev nD) : (n : ℕ) → n ≤ cfg1.N → sProp 𝕄
  | 0, _ => Pipeline.ΦA spec1 c
  | n + 1, hn => iprop(rest1 c ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(rest1 c ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2) ∗ (∃ r, prngReg c r)) := rfl

theorem PhiS_pos (c : Dev nD) (n : ℕ) (h : n ≤ cfg1.N) (hz : n ≠ 0) :
    PhiS V c n h = iprop(rest1 c ∗ owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2) ∗ (∃ r, prngReg c r)) := by
  cases n with
  | zero => exact absurd rfl hz
  | succ n => rfl

/-- Whatever the position, the invariant holds the scratch buffers at SOME contents. -/
theorem PhiS_any (c : Dev nD) (n : ℕ) (h : n ≤ cfg1.N) :
    PhiS V c n h ⊢ iprop(rest1 c ∗ (∃ d, owns (c : Thread nD τ) scM1_0 fullShare d) ∗ (∃ d, owns (c : Thread nD τ) scM1_1 fullShare d) ∗ (∃ d, owns (c : Thread nD τ) scM1_2 fullShare d) ∗ (∃ r, prngReg c r)) := by
  cases n with
  | zero => exact PhiA1_open c
  | succ n =>
    rw [PhiS_succ]
    iintro ⟨HR, HS0, HS1, HS2, Hg⟩
    isplitl [HR]; · iexact HR
    isplitl [HS0]; · iexists _; iexact HS0
    isplitl [HS1]; · iexists _; iexact HS1
    isplitl [HS2]; · iexists _; iexact HS2
    iexact Hg

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## One point, case by case -/

theorem stepAt_A (c : Dev nD) (t : Fin cfg1.N) (prev : Vec F S512x1 .f32 × Vec F S512x1 .f32 × Vec F S512x128 .f32) (h0 : t.val % 8 = 0) (h1 : t.val % 8 ≤ t.val / 8 % 8) (h2 : ¬t.val % 8 = 7) :
    stepAt V c t prev = (idleOut, (sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr h1) (fun h => h2 ((hcond1_2 t).mp h)) (iblk1 V c 0 t) (iblk1 V c 1 t) (iblk1 V c 2 t), sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr h1) (fun h => h2 ((hcond1_2 t).mp h)) (iblk1 V c 0 t) (iblk1 V c 1 t) (iblk1 V c 2 t), sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr h1) (fun h => h2 ((hcond1_2 t).mp h)) (iblk1 V c 0 t) (iblk1 V c 1 t) (iblk1 V c 2 t))) := by
  unfold stepAt; rw [dif_pos h0, dif_pos h1, dif_neg h2]

theorem stepAt_B (c : Dev nD) (t : Fin cfg1.N) (prev : Vec F S512x1 .f32 × Vec F S512x1 .f32 × Vec F S512x128 .f32) (h0 : ¬t.val % 8 = 0) (h1 : t.val % 8 ≤ t.val / 8 % 8) (h2 : ¬t.val % 8 = 7) :
    stepAt V c t prev = (idleOut, (sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (iblk1 V c 0 t) (iblk1 V c 1 t) (iblk1 V c 2 t) prev.1 prev.2.1 prev.2.2, sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (iblk1 V c 0 t) (iblk1 V c 1 t) (iblk1 V c 2 t) prev.1 prev.2.1 prev.2.2, sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (iblk1 V c 0 t) (iblk1 V c 1 t) (iblk1 V c 2 t) prev.1 prev.2.1 prev.2.2)) := by
  unfold stepAt; rw [dif_neg h0, dif_pos h1, dif_neg h2]

theorem stepAt_C (c : Dev nD) (t : Fin cfg1.N) (prev : Vec F S512x1 .f32 × Vec F S512x1 .f32 × Vec F S512x128 .f32) (h0 : ¬t.val % 8 = 0) (h1 : ¬t.val % 8 ≤ t.val / 8 % 8) (h2 : ¬t.val % 8 = 7) :
    stepAt V c t prev = (idleOut, prev) := by
  unfold stepAt; rw [dif_neg h0, dif_neg h1, dif_neg h2]

theorem stepAt_D (c : Dev nD) (t : Fin cfg1.N) (prev : Vec F S512x1 .f32 × Vec F S512x1 .f32 × Vec F S512x128 .f32) (h0 : ¬t.val % 8 = 0) (h1 : t.val % 8 ≤ t.val / 8 % 8) (h2 : t.val % 8 = 7) :
    stepAt V c t prev = (out1_D_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) prev.1 prev.2.1 prev.2.2, (sout1_D_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) prev.1 prev.2.1 prev.2.2, sout1_D_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) prev.1 prev.2.1 prev.2.2, sout1_D_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) prev.1 prev.2.1 prev.2.2)) := by
  unfold stepAt; rw [dif_neg h0, dif_pos h1, dif_pos h2]

theorem stepAt_E (c : Dev nD) (t : Fin cfg1.N) (prev : Vec F S512x1 .f32 × Vec F S512x1 .f32 × Vec F S512x128 .f32) (h0 : ¬t.val % 8 = 0) (h1 : ¬t.val % 8 ≤ t.val / 8 % 8) (h2 : t.val % 8 = 7) :
    stepAt V c t prev = (out1_E_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) ((hcond1_2 t).mpr h2) (iblk1 V c 0 t) (iblk1 V c 1 t) (iblk1 V c 2 t) prev.1 prev.2.1 prev.2.2, prev) := by
  unfold stepAt; rw [dif_neg h0, dif_neg h1, dif_pos h2]

/-- The accumulation at a point is one step from what the point before left. -/
theorem outsAt1_eq (c : Dev nD) (t : Fin cfg1.N) :
    ∃ prev : Vec F S512x1 .f32 × Vec F S512x1 .f32 × Vec F S512x128 .f32, outsAt1 V c t.val t.isLt = stepAt V c t prev
      ∧ ∀ hz : t.val ≠ 0, (outsAt1 V c (t.val - 1) (by omega)).2 = prev := by
  by_cases hz : t.val = 0
  · exact ⟨_, outsAt1_zero V c t hz, fun h => absurd hz h⟩
  · exact ⟨_, outsAt1_pos V c t hz, fun _ => rfl⟩

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
/-- The body at any point: the input buffers hold their blocks; the point's key and query tiles say which case it is in;
    the invariant hands the body the scratch buffers at what the point before left (at anything where the body resets
    them) and takes them back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [PhiS_castSucc V c t]
  obtain ⟨prev, hO, hprev⟩ := outsAt1_eq V c t
  by_cases h0 : t.val % 8 = 0
  · have h1 : t.val % 8 ≤ t.val / 8 % 8 := by omega
    have h2 : ¬t.val % 8 = 7 := by omega
    rw [Dat.leavesExact_idle (dat1 V c) 3 t (idleAt1_3 t (fun h => h2 ((hcond1_2 t).mp h))) (noFlush1_3 t (fun h => h2 ((hcond1_2 t).mp h)))]
    rw [hO, stepAt_A V c t prev h0 h1 h2]
    unfold sout1_A_0 sout1_A_1 sout1_A_2; (try dsimp only)
    iintro ⟨HΦ, Ho, ⟨%d0, H0⟩, ⟨%d1, H1⟩, ⟨%d2, H2⟩, ⟨%d3, H3⟩⟩
    ihave HΦ' := (PhiS_any V c _ _) $$ HΦ
    icases HΦ' with ⟨HR, HS0, HS1, HS2, Hg⟩
    iapply ((kernelRun1_A c (grid1.coords t) _ _ _ _ _ _ _ _ _ _ _ _ _ _ ((hcond1_0 t).mpr h0) ((hcond1_1 t).mpr h1) (fun h => h2 ((hcond1_2 t).mp h)) (iblk1 V c 0 t) (iblk1 V c 1 t) (iblk1 V c 2 t)).2.2.2.2 _ Set.univ _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    iintro ⟨H0, H1, H2, H3, ⟨%es0, HS0⟩, ⟨%es1, HS1⟩, ⟨%es2, HS2⟩⟩
    isplitl [HR HS0 HS1 HS2 Hg]
    · isplitl [HR]; · iexact HR
      isplitl [HS0]
      · unfold owns; iexists _; isplitr
        swap; · iexact HS0
        ipureintro; exact View.read_writes_of_cover _ _ _ _ _ (scover1_A_0 c _ _ _ _ _ _ _ _ _ _ _ _ _ _ _ _ _ _ _ _ _)
      isplitl [HS1]
      · unfold owns; iexists _; isplitr
        swap; · iexact HS1
        ipureintro; exact View.read_writes_of_cover _ _ _ _ _ (scover1_A_1 c _ _ _ _ _ _ _ _ _ _ _ _ _ _ _ _ _ _ _ _ _)
      isplitl [HS2]
      · unfold owns; iexists _; isplitr
        swap; · iexact HS2
        ipureintro; exact View.read_writes_of_cover _ _ _ _ _ (scover1_A_2 c _ _ _ _ _ _ _ _ _ _ _ _ _ _ _ _ _ _ _ _ _)
      iexact Hg
    isplitl [Ho]; · iexact Ho
    isplitl [H0]; · iexact H0
    isplitl [H1]; · iexact H1
    isplitl [H2]; · iexact H2
    iexists _; iexact H3
  · by_cases h1 : t.val % 8 ≤ t.val / 8 % 8
    · by_cases h2 : t.val % 8 = 7
      · rw [show (dat1 V c).leavesExact 3 t = owns (c : Thread nD τ) (ms1_3 t) fullShare ((dat1 V c).after 3 t) from by
          unfold Dat.leavesExact; rw [liveAt1_3 t ((hcond1_2 t).mpr h2)], after1_3]
        rw [hO, stepAt_D V c t prev h0 h1 h2]
        unfold sout1_D_0 sout1_D_1 sout1_D_2 out1_D_3; (try dsimp only)
        have hz : t.val ≠ 0 := by omega
        rw [PhiS_pos V c _ _ hz, ← hprev hz]
        iintro ⟨⟨HR, HS0, HS1, HS2, Hg⟩, Ho, ⟨%d0, H0⟩, ⟨%d1, H1⟩, ⟨%d2, H2⟩, ⟨%d3, H3⟩⟩
        iapply ((kernelRun1_D c (grid1.coords t) _ _ _ _ _ _ _ _ _ _ _ _ _ _ (fun h => h0 ((hcond1_0 t).mp h)) ((hcond1_1 t).mpr h1) ((hcond1_2 t).mpr h2) (iblk1 V c 0 t) (iblk1 V c 1 t) (iblk1 V c 2 t) _ _ _).2.2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, ⟨%e3, H3⟩, ⟨%es0, HS0⟩, ⟨%es1, HS1⟩, ⟨%es2, HS2⟩⟩
        isplitl [HR HS0 HS1 HS2 Hg]
        · isplitl [HR]; · iexact HR
          isplitl [HS0]
          · unfold owns; iexists _; isplitr
            swap; · iexact HS0
            ipureintro; exact View.read_writes_of_cover _ _ _ _ _ (scover1_D_0 c _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_D_1 c _ _ _ _ _ _ _ _ _ _ _ _ _ _ _ _ _ _ _ _ _ _ _ _)
          isplitl [HS2]
          · unfold owns; iexists _; isplitr
            swap; · iexact HS2
            ipureintro; exact View.read_writes_of_cover _ _ _ _ _ (scover1_D_2 c _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_D_3 c _ _ _ _ _ _ _ _ _ _ _ _ _ _ _ _ _ _ _ _ _ _ _ _)
      · rw [Dat.leavesExact_idle (dat1 V c) 3 t (idleAt1_3 t (fun h => h2 ((hcond1_2 t).mp h))) (noFlush1_3 t (fun h => h2 ((hcond1_2 t).mp h)))]
        rw [hO, stepAt_B V c t prev h0 h1 h2]
        unfold sout1_B_0 sout1_B_1 sout1_B_2; (try dsimp only)
        have hz : t.val ≠ 0 := by omega
        rw [PhiS_pos V c _ _ hz, ← hprev hz]
        iintro ⟨⟨HR, HS0, HS1, HS2, Hg⟩, Ho, ⟨%d0, H0⟩, ⟨%d1, H1⟩, ⟨%d2, H2⟩, ⟨%d3, H3⟩⟩
        iapply ((kernelRun1_B c (grid1.coords t) _ _ _ _ _ _ _ _ _ _ _ _ _ _ (fun h => h0 ((hcond1_0 t).mp h)) ((hcond1_1 t).mpr h1) (fun h => h2 ((hcond1_2 t).mp h)) (iblk1 V c 0 t) (iblk1 V c 1 t) (iblk1 V c 2 t) _ _ _).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [HR HS0 HS1 HS2 Hg]
        · isplitl [HR]; · iexact HR
          isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_B_1 c _ _ _ _ _ _ _ _ _ _ _ _ _ _ _ _ _ _ _ _ _ _ _ _)
          isplitl [HS2]
          · unfold owns; iexists _; isplitr
            swap; · iexact HS2
            ipureintro; exact View.read_writes_of_cover _ _ _ _ _ (scover1_B_2 c _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
    · by_cases h2 : t.val % 8 = 7
      · rw [show (dat1 V c).leavesExact 3 t = owns (c : Thread nD τ) (ms1_3 t) fullShare ((dat1 V c).after 3 t) from by
          unfold Dat.leavesExact; rw [liveAt1_3 t ((hcond1_2 t).mpr h2)], after1_3]
        rw [hO, stepAt_E V c t prev h0 h1 h2]
        unfold out1_E_3; (try dsimp only)
        have hz : t.val ≠ 0 := by omega
        rw [PhiS_pos V c _ _ hz, ← hprev hz]
        iintro ⟨⟨HR, HS0, HS1, HS2, Hg⟩, Ho, ⟨%d0, H0⟩, ⟨%d1, H1⟩, ⟨%d2, H2⟩, ⟨%d3, H3⟩⟩
        iapply ((kernelRun1_E c (grid1.coords t) _ _ _ _ _ _ _ _ _ _ _ _ _ _ (fun h => h0 ((hcond1_0 t).mp h)) (fun h => h1 ((hcond1_1 t).mp h)) ((hcond1_2 t).mpr h2) (iblk1 V c 0 t) (iblk1 V c 1 t) (iblk1 V c 2 t) _ _ _).2.2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, ⟨%e3, H3⟩, HS0, HS1, HS2⟩
        isplitl [HR HS0 HS1 HS2 Hg]
        · isplitl [HR]; · iexact HR
          isplitl [HS0]; · iexact HS0
          isplitl [HS1]; · iexact HS1
          isplitl [HS2]; · iexact HS2
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_E_3 c _ _ _ _ _ _ _ _ _ _ _ _ _ _ _ _ _ _ _ _ _ _ _ _)
      · rw [Dat.leavesExact_idle (dat1 V c) 3 t (idleAt1_3 t (fun h => h2 ((hcond1_2 t).mp h))) (noFlush1_3 t (fun h => h2 ((hcond1_2 t).mp h)))]
        rw [hO, stepAt_C V c t prev h0 h1 h2]
        (try dsimp only)
        have hz : t.val ≠ 0 := by omega
        rw [PhiS_pos V c _ _ hz, ← hprev hz]
        iintro ⟨⟨HR, HS0, HS1, HS2, Hg⟩, Ho, ⟨%d0, H0⟩, ⟨%d1, H1⟩, ⟨%d2, H2⟩, ⟨%d3, H3⟩⟩
        iapply ((kernelRun1_C c (grid1.coords t) _ _ _ _ _ _ _ _ _ _ _ _ _ _ (fun h => h0 ((hcond1_0 t).mp h)) (fun h => h1 ((hcond1_1 t).mp h)) (fun h => h2 ((hcond1_2 t).mp h)) (iblk1 V c 0 t) (iblk1 V c 1 t) (iblk1 V c 2 t) _ _ _).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, HS0, HS1, HS2⟩
        isplitl [HR HS0 HS1 HS2 Hg]
        · isplitl [HR]; · iexact HR
          isplitl [HS0]; · iexact HS0
          isplitl [HS1]; · iexact HS1
          isplitl [HS2]; · iexact HS2
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS V c 0 (Nat.zero_le _) from rfl, PhiS_zero V c 0 _ rfl]
  try exact Idealize.SL.BI.Entails.refl _

/-- At any position the invariant gives the class's back: the scratch buffers' contents are forgotten. -/
theorem Phi_out1 (c : Dev nD) (t : Fin (cfg1.N + 1)) : (dat1 V c).Φ t ⊢ (Pipeline.ΦA spec1 c : sProp 𝕄) := by
  have e : (dat1 V c).Φ t = PhiS V c t.val (Nat.le_of_lt_succ t.isLt) := by dsimp only [dat1]
  rw [e]
  exact (PhiS_any V c _ _).trans (PhiA1_close c)

/-- The same after the last point. -/
theorem hout1 (c : Dev nD) : (dat1 V c).Φ (Fin.last cfg1.N) ⊢ (Pipeline.ΦA spec1 c : sProp 𝕄) :=
  Phi_out1 V c _

end Cert.Kernel.Hand

end
-- ==== Proof.KRun.lean ====
/- The run of @main: the program as a list of segments, run by the library's theorem for a sequence of host stretches and
   pipelined regions, from the launch to the return — three host conversions, then the projection region, then the attention region. The buffer contents at
   every segment boundary are a fold from the launch memory; each region is a segment over the thread state "every
   unscoped buffer at the boundary's contents, the generator register at some state, nothing owed"; the run's result
   is read off the last boundary's contents: the output array at what the second pipeline's write-backs leave, every
   argument at its launch contents. -/
import proofs.«120868_j4587025072851_2_alg».proof.Proof.Gen.Kernel.Launch
import proofs.«120868_j4587025072851_2_alg».proof.Proof.Gen.Kernel.Skeleton
import proofs.«120868_j4587025072851_2_alg».proof.Proof.Gen.Kernel.Points
import proofs.«120868_j4587025072851_2_alg».proof.Proof.KRegion0
import proofs.«120868_j4587025072851_2_alg».proof.Proof.KRegion1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main -/

/-- Core `c`'s buffers at launch. -/
abbrev W0 : Dev nD → Valuation τ sig (Elt F) := fun c b => (s₀ m ρ).mem ((c : Dev nD), b)
/-- After the three host conversions (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents, which are region 1's entry contents: no
    host operation stands between the two regions). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`). -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references (region 1's exit contents). -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## What region 0 is entered with -/

/-- The activations reach region 0 as launched: no conversion writes them. -/
theorem V1_main_arg0 (c : Dev nD) : V1 m ρ c main_arg0 = m ((c : Thread nD τ).loc main_arg0) :=
  (StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem V1_main_arg1 (c : Dev nD) : V1 m ρ c main_arg1 = m ((c : Thread nD τ).loc main_arg1) :=
  (StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem V1_main_arg2 (c : Dev nD) : V1 m ρ c main_arg2 = m ((c : Thread nD τ).loc main_arg2) :=
  (StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem V1_main_arg3 (c : Dev nD) : V1 m ρ c main_arg3 = m ((c : Thread nD τ).loc main_arg3) :=
  (StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl

/-- Each weight matrix reaches region 0 rounded to bf16 from its launch contents. -/
theorem V1_main_v0 (c : Dev nD) :
    (V1 m ρ c main_v0 : (⟨S1024x128, .bf16⟩ : BufTy).Contents (Elt F))
      = truncf .bf16 (m ((c : Thread nD τ).loc main_arg1) : (⟨S1024x128, .f32⟩ : BufTy).Contents (Elt F)) bitsLt_bf16_f32 := by
  dsimp only [V1, W1, W0, hostOps0]; after_results
theorem V1_main_v1 (c : Dev nD) :
    (V1 m ρ c main_v1 : (⟨S1024x128, .bf16⟩ : BufTy).Contents (Elt F))
      = truncf .bf16 (m ((c : Thread nD τ).loc main_arg2) : (⟨S1024x128, .f32⟩ : BufTy).Contents (Elt F)) bitsLt_bf16_f32 := by
  dsimp only [V1, W1, W0, hostOps0]; after_results
theorem V1_main_v2 (c : Dev nD) :
    (V1 m ρ c main_v2 : (⟨S1024x128, .bf16⟩ : BufTy).Contents (Elt F))
      = truncf .bf16 (m ((c : Thread nD τ).loc main_arg3) : (⟨S1024x128, .f32⟩ : BufTy).Contents (Elt F)) bitsLt_bf16_f32 := by
  dsimp only [V1, W1, W0, hostOps0]; after_results

/-! ## What region 1 is entered with: region 0's three results -/

theorem V2_main_v3_0 (c : Dev nD) : V2 m ρ c main_v3_0 = (dat0 (V1 m ρ) c).arrAt 4 cfg0.N := W2_arr m ρ c 4
theorem V2_main_v3_1 (c : Dev nD) : V2 m ρ c main_v3_1 = (dat0 (V1 m ρ) c).arrAt 5 cfg0.N := W2_arr m ρ c 5
theorem V2_main_v3_2 (c : Dev nD) : V2 m ρ c main_v3_2 = (dat0 (V1 m ρ) c).arrAt 6 cfg0.N := W2_arr m ρ c 6

/-! ## The arguments end as launched: no conversion and no region writes one -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = m ((c : Thread nD τ).loc main_arg0) := V1_main_arg0 m ρ c
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = m ((c : Thread nD τ).loc main_arg1) := V1_main_arg1 m ρ c
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = m ((c : Thread nD τ).loc main_arg2) := V1_main_arg2 m ρ c
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = m ((c : Thread nD τ).loc main_arg3) := V1_main_arg3 m ρ c

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No conversion allocates a buffer. -/
theorem hostOps0_fresh : (hostOps0 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W3`, the
    generator register at some state. -/
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- Region 0 over the thread state: entered from every unscoped buffer at `W1`, left at `W2`. Its arrays split out
    of the unscoped buffers and put back at the exit contents; the generator register into the invariant and out;
    nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3` (what the launch
    reads at the end). Its invariant starts from and ends in the scoped rest beside the generator register. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIClass.entails_trans ?_ (hin1 (V2 m ρ) c); unfold Pipeline.ΦA
    iintro ⟨Hp, -, Hr⟩
    isplitl [Hr]; · iexact Hr
    iexact Hp
  hout c := by
    rw [Pipeline.ownSems0_none]
    refine BIClass.entails_trans (hout1 (V2 m ρ) c) ?_; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's three segments in order: the host conversions from the launch contents, then a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
/-- @main is the run of the segments: the program as a chain of its items, then the segments' run against that chain
    by the kernel's definitional check. -/
theorem main_run (c : Dev nD) : main (F := F) c = Pipeline.Seg.run (segs m ρ) := (main_chain c).trans (by chain_rfl)

set_option backward.isDefEq.respectTransparency.types false in
/-- The run: from any memory with zero counters, every weakly fair execution of @main on the TensorCores terminates,
    nothing faulting, and every final state has the output array at what the second pipeline's write-backs leave and
    the argument arrays as launched. -/
theorem run_all : θ_run defs (onTc (τ := τ) (main (F := F))) ⟨m, fun _ => 0, ρ⟩ (fun r => ∀ c : Dev nD,
      r.2.mem ((c.tc : Thread nD τ).loc main_v4) = (dat1 (V2 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v4 (by decide))).trans (W3_arr m ρ c 3),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c)⟩)

end Cert.Kernel.Hand

end
-- ==== Proof.KIRegion0.lean ====
/- Region 0 of @main (the q/k/v projection pallas_call, pipeline 0) in separation logic, at a PARAMETER `V`: the
   TensorCore's buffer contents when the region is entered. Each window's block at a point, what the body leaves in
   each output window's staging buffer (the one store's payload over the blocks of the activations and of one weight
   matrix), the body's triple, the pipeline's proof data and the library's body obligation at every grid point. -/
import proofs.«120868_j4587025072851_2_alg».proof.Proof.Gen.KernelIdeal.Launch
import proofs.«120868_j4587025072851_2_alg».proof.Proof.Gen.KernelIdeal.Skeleton
import proofs.«120868_j4587025072851_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents: the elaborator's structural look recurses once per coordinate of the
-- long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Region0
-- the TensorCore's buffer contents when the region is entered: the parameter the region's half is stated at
variable (V : (c : Dev nD) → (b : Ref sig .tc) → Buf (Elt F) ((c : Thread nD τ).loc b))

/-! # Region 0 of @main: the projection kernel (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (a 1×1024×1024 block of the activations): its current staging buffer holds its block at every
    point, for ANY proof data whose array is `V`'s (`hA`) and whose body leaves the block in place (`hafter`). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the whole first weight matrix, fetched once): its staging buffer holds the matrix at every point,
    fetched there or not — unfetched, the block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (the whole second weight matrix, fetched once). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3 (the whole third weight matrix, fetched once). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

/-- The whole activations block. -/
abbrev r0_x : Rect S1x1024x1024 := Rect.unit (s := S1x1024x1024) ![0, 0, 0] S1x1024x1024.size inb_S1x1024x1024_S1x1024x1024_0_0_0
/-- A whole weight matrix. -/
abbrev r0_w : Rect S1024x128 := Rect.unit (s := S1024x128) ![0, 0] S1024x128.size inb_S1024x128_S1024x128_0_0
/-- A whole output block. -/
abbrev r0_o : Rect S1x1024x128 := Rect.unit (s := S1x1024x128) ![0, 0, 0] S1x1024x128.size inb_S1x1024x128_S1x1024x128_0_0_0

/-! ## What the body leaves in each output window's buffer -/

/-- Window 4's staging buffer after the body, from the activations block `x0` and the first weight matrix `x1`: its one
    store, the payload of the two loads. -/
def out0_4 (x0 : Vec F S1x1024x1024 .f32) (x1 : Vec F S1024x128 .bf16) : Vec F S1x1024x128 .bf16 :=
  View.canon [⟨r0_o, k0_pay2 (View.ld x0 r0_x) (View.ld x1 r0_w)⟩]

/-- Window 5's, from the activations block and the second weight matrix. -/
def out0_5 (x0 : Vec F S1x1024x1024 .f32) (x2 : Vec F S1024x128 .bf16) : Vec F S1x1024x128 .bf16 :=
  View.canon [⟨r0_o, k0_pay3 (View.ld x0 r0_x) (View.ld x2 r0_w)⟩]

/-- Window 6's, from the activations block and the third weight matrix. -/
def out0_6 (x0 : Vec F S1x1024x1024 .f32) (x3 : Vec F S1024x128 .bf16) : Vec F S1x1024x128 .bf16 :=
  View.canon [⟨r0_o, k0_pay4 (View.ld x0 r0_x) (View.ld x3 r0_w)⟩]

/-- The one store of an output buffer is the whole buffer, so it covers it. -/
theorem cover0_4 (p0 : Vec F S1x1024x128 .bf16) (y : S1x1024x128.Idx) :
    ∃ pc ∈ ([⟨r0_o, p0⟩] : List (View.Piece (Elt F) S1x1024x128 .bf16)), y ∈ pc.1.set :=
  View.cover_of_tiled [⟨r0_o, p0⟩] S1x1024x128.size (by rfl) y
theorem cover0_5 (p0 : Vec F S1x1024x128 .bf16) (y : S1x1024x128.Idx) :
    ∃ pc ∈ ([⟨r0_o, p0⟩] : List (View.Piece (Elt F) S1x1024x128 .bf16)), y ∈ pc.1.set :=
  cover0_4 p0 y
theorem cover0_6 (p0 : Vec F S1x1024x128 .bf16) (y : S1x1024x128.Idx) :
    ∃ pc ∈ ([⟨r0_o, p0⟩] : List (View.Piece (Elt F) S1x1024x128 .bf16)), y ∈ pc.1.set :=
  cover0_4 p0 y

/-! ## The body's triple -/

set_option maxHeartbeats 1000000 in
/-- The kernel body on whole staging memrefs, the inputs' at read contents `xW` and the outputs' at anything, runs to
    the continuation holding the inputs' as they were and each output's at `out0_W` of the inputs'. The body reads each
    output buffer once before it stores to it; the value read is used by nothing. -/
theorem sound_kernel0 (c : Dev nD) (E : Set ℕ) (i : grid0.Coords)
    (arg2 : Memref sig .tc .vmem S1x1024x1024 .f32) (harg2 : arg2.IsWhole)
    (arg3 : Memref sig .tc .vmem S1024x128 .bf16) (harg3 : arg3.IsWhole)
    (arg4 : Memref sig .tc .vmem S1024x128 .bf16) (harg4 : arg4.IsWhole)
    (arg5 : Memref sig .tc .vmem S1024x128 .bf16) (harg5 : arg5.IsWhole)
    (arg6 : Memref sig .tc .vmem S1x1024x128 .bf16) (harg6 : arg6.IsWhole)
    (arg7 : Memref sig .tc .vmem S1x1024x128 .bf16) (harg7 : arg7.IsWhole)
    (arg8 : Memref sig .tc .vmem S1x1024x128 .bf16) (harg8 : arg8.IsWhole)
    (x0 : Vec F S1x1024x1024 .f32) (x1 : Vec F S1024x128 .bf16) (x2 : Vec F S1024x128 .bf16) (x3 : Vec F S1024x128 .bf16)
    (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d) ∗ (∃ d, owns (c : Thread nD τ) arg7 fullShare d)
        ∗ (∃ d, owns (c : Thread nD τ) arg8 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (out0_4 x0 x1) ∗ owns (c : Thread nD τ) arg7 fullShare (out0_5 x0 x2)
            ∗ owns (c : Thread nD τ) arg8 fullShare (out0_6 x0 x3)) -∗ K ⟨⟩))
      ⊢ wp frame (wpE (defs₀ (F := F)) Variants.none c none) E (cc0__project_kernel i arg2 harg2 arg3 harg3 arg4 harg4 arg5 harg5 arg6 harg6 arg7 harg7 arg8 harg8) K := by
  simp only [cc0__project_kernel_eq_skeleton]; unfold cc0__project_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_4 _)
  isplitl [H5]
  · iexists _; isplitr
    swap; · iexact H5
    ipureintro
    exact View.read_writes_eq_canon _ _ _ (cover0_5 _)
  iexists _; isplitr
  swap; · iexact H6
  ipureintro
  exact View.read_writes_eq_canon _ _ _ (cover0_6 _)

/-! ## The pipeline's proof data -/

/-- The proof data of pipeline 0 on core `c`: the arrays as the region finds them (`V`); after the body at point `t`
    each input's buffer at its block and each output's at `out0_W` of the activations block and its weight matrix; the
    invariant the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 2 t)
    | ⟨6, _⟩ => out0_6 (iblk0 V c 0 t) (iblk0 V c 3 t)
  Φ _ := Pipeline.ΦA spec0 c
  q _ := fullShare
  owed _ := 0

/-- The proof data's arrays are the region-entry contents (the proof data's definition projected). -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 2 t) := by dsimp only [dat0]
theorem after0_6 (c : Dev nD) (t : Fin cfg0.N) : (dat0 V c).after 6 t = out0_6 (iblk0 V c 0 t) (iblk0 V c 3 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _
    (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KIR1Defs.lean ====
/-
  Region 1, the attention call: what its per-case runs are stated over. The grid is 4 × 8 × 8 (batch, query
  tile, key tile; the key tile runs fastest), so point t has key tile t mod 8 and query tile (t / 8) mod 8.
  The body has three conditionals: it resets the running maximum, sum and accumulator when the key tile is 0;
  it folds one key/value tile into them when the key tile is at most the query tile (tiles above the diagonal
  are skipped); and it writes accumulator / sum to the output block when the key tile is 7. The output window
  is idle except at key tile 7, where its block is written back.
-/
import proofs.«120868_j4587025072851_2_alg».proof.Proof.Gen.KernelIdeal.Launch
import proofs.«120868_j4587025072851_2_alg».proof.Proof.Gen.KernelIdeal.Skeleton
import proofs.«120868_j4587025072851_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The three conditions, from the grid coordinates, and their closed forms over the 256 points -/

/-- The key tile is 0. -/
abbrev cond1_0 (i : grid1.Coords) : Prop :=
  (Scalar.cmpi .ne (Scalar.extui (Scalar.cmpi .eq (BitVec.ofNat 32 (i 2).val) 0#32)) 0#32) = 1#1
/-- The key tile is at most the query tile. -/
abbrev cond1_1 (i : grid1.Coords) : Prop :=
  (Scalar.cmpi .ne (Scalar.extui (Scalar.cmpi .sle (BitVec.ofNat 32 (i 2).val) (BitVec.ofNat 32 (i 1).val))) 0#32) = 1#1
/-- The key tile is 7, the last. -/
abbrev cond1_2 (i : grid1.Coords) : Prop := k1_cond3 i = 1#1

theorem hcond1_0 : ∀ t : Fin cfg1.N, cond1_0 (grid1.coords t) ↔ t.val % 8 = 0 :=
  (by decide +kernel : ∀ t : Fin grid1.N, cond1_0 (grid1.coords t) ↔ t.val % 8 = 0)
theorem hcond1_1 : ∀ t : Fin cfg1.N, cond1_1 (grid1.coords t) ↔ t.val % 8 ≤ t.val / 8 % 8 :=
  (by decide +kernel : ∀ t : Fin grid1.N, cond1_1 (grid1.coords t) ↔ t.val % 8 ≤ t.val / 8 % 8)
theorem hcond1_2 : ∀ t : Fin cfg1.N, cond1_2 (grid1.coords t) ↔ t.val % 8 = 7 :=
  (by decide +kernel : ∀ t : Fin grid1.N, cond1_2 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from key tile 7 the output window is idle and its block is not written back. -/
theorem idleAt1_3 : ∀ t : Fin cfg1.N, ¬cond1_2 (grid1.coords t) → cfg1.idle 3 (grid1.coords t) = true := by decide +kernel
theorem noFlush1_3 : ∀ t : Fin cfg1.N, ¬cond1_2 (grid1.coords t) → (cfg1.win 3).flush t = false := by decide +kernel
/-- At key tile 7 it is live. -/
theorem liveAt1_3 : ∀ t : Fin cfg1.N, cond1_2 (grid1.coords t) → cfg1.idle 3 (grid1.coords t) = false := by decide +kernel

/-! ## The memrefs the body is called with -/

abbrev ms1_0 (t : Fin cfg1.N) : Memref sig .tc .vmem S1x512x128 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x128 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512x128 .f32 := win1_3.stage (cfg1.slots t 3)
abbrev hs1_3 (t : Fin cfg1.N) : (ms1_3 t).IsWhole := hstage1_3 ((cfg1.slots t 3).cast nbuf1_3)
/-- The three scratch operands: the running maximum, the running sum, the accumulator. -/
abbrev scM1_0 : Memref sig .tc .vmem S512x1 .f32 := Memref.whole cc1_scratch0
abbrev scM1_1 : Memref sig .tc .vmem S512x1 .f32 := Memref.whole cc1_scratch1
abbrev scM1_2 : Memref sig .tc .vmem S512x128 .f32 := Memref.whole cc1_scratch2
/-- Views through which the contents of the output block and of the scratch buffers are stated. -/
abbrev VO1_3 : View sig .tc .vmem S1x512x128 .f32 := (Memref.whole cc1_stg3_0 : Memref sig .tc .vmem S1x512x128 .f32).view
abbrev VS1_0 : View sig .tc .vmem S512x1 .f32 := scM1_0.view
abbrev VS1_1 : View sig .tc .vmem S512x1 .f32 := scM1_1.view
abbrev VS1_2 : View sig .tc .vmem S512x128 .f32 := scM1_2.view

end Cert.KernelIdeal.Hand

end
-- ==== Proof.KIR1RunB.lean ====
/- Region 1: the whole-body run of the attention kernel in one case of its three conditionals. -/
import proofs.«120868_j4587025072851_2_alg».proof.Proof.KIR1Defs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body in the case where it does not reset the running state, folds a key tile in and does not write the output block:
    on whole memrefs, the three input blocks at their contents, it runs to the continuation holding the inputs as they were and each
    buffer it stored into with its stores written, the others untouched; the lists of stores are the witness the run finds. -/
noncomputable def kernelRun1_B (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x128 .f32) (harg9 : arg9.IsWhole) (hc0 : ¬cond1_0 i) (hc1 : cond1_1 i) (hc2 : ¬cond1_2 i)
    (x0 : Vec F S1x512x128 .bf16) (x1 : Vec F S1x512x128 .bf16) (x2 : Vec F S1x512x128 .bf16) (xs0 : Vec F S512x1 .f32) (xs1 : Vec F S512x1 .f32) (xs2 : Vec F S512x128 .f32) :
    Σ' (L3 : List (View.Piece (Elt F) S1x512x128 .f32)) (LS0 : List (View.Piece (Elt F) S512x1 .f32)) (LS1 : List (View.Piece (Elt F) S512x1 .f32)), { LS2 : List (View.Piece (Elt F) S512x128 .f32) //
      ∀ (xi3 : Vec F S1x512x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1_kernel i arg3 harg3 arg4 harg4 arg5 harg5 arg6 harg6 arg7 harg7 arg8 harg8 arg9 harg9) K } := by
  refine ⟨[], ?_, ?_, ?_, fun xi3 E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.KernelIdeal.Hand

end
-- ==== Proof.KIR1RunA.lean ====
/- Region 1: the whole-body run of the attention kernel in one case of its three conditionals. -/
import proofs.«120868_j4587025072851_2_alg».proof.Proof.KIR1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body in the case where it resets the running state, folds a key tile in and does not write the output block:
    on whole memrefs, the three input blocks at their contents, it runs to the continuation holding the inputs as they were and each
    buffer it stored into with its stores written, the others untouched; the lists of stores are the witness the run finds. -/
noncomputable def kernelRun1_A (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x128 .f32) (harg9 : arg9.IsWhole) (hc0 : cond1_0 i) (hc1 : cond1_1 i) (hc2 : ¬cond1_2 i)
    (x0 : Vec F S1x512x128 .bf16) (x1 : Vec F S1x512x128 .bf16) (x2 : Vec F S1x512x128 .bf16) :
    Σ' (L3 : List (View.Piece (Elt F) S1x512x128 .f32)) (LS0 : List (View.Piece (Elt F) S512x1 .f32)) (LS1 : List (View.Piece (Elt F) S512x1 .f32)), { LS2 : List (View.Piece (Elt F) S512x128 .f32) //
      ∀ (xi3 : Vec F S1x512x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1_kernel i arg3 harg3 arg4 harg4 arg5 harg5 arg6 harg6 arg7 harg7 arg8 harg8 arg9 harg9) K } := by
  refine ⟨[], ?_, ?_, ?_, fun xi3 E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.KernelIdeal.Hand

end
-- ==== Proof.KIR1RunC.lean ====
/- Region 1: the whole-body run of the attention kernel in one case of its three conditionals. -/
import proofs.«120868_j4587025072851_2_alg».proof.Proof.KIR1RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body in the case where it does not reset the running state, does not fold a key tile in and does not write the output block:
    on whole memrefs, the three input blocks at their contents, it runs to the continuation holding the inputs as they were and each
    buffer it stored into with its stores written, the others untouched; the lists of stores are the witness the run finds. -/
noncomputable def kernelRun1_C (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x128 .f32) (harg9 : arg9.IsWhole) (hc0 : ¬cond1_0 i) (hc1 : ¬cond1_1 i) (hc2 : ¬cond1_2 i)
    (x0 : Vec F S1x512x128 .bf16) (x1 : Vec F S1x512x128 .bf16) (x2 : Vec F S1x512x128 .bf16) (xs0 : Vec F S512x1 .f32) (xs1 : Vec F S512x1 .f32) (xs2 : Vec F S512x128 .f32) :
    Σ' (L3 : List (View.Piece (Elt F) S1x512x128 .f32)) (LS0 : List (View.Piece (Elt F) S512x1 .f32)) (LS1 : List (View.Piece (Elt F) S512x1 .f32)), { LS2 : List (View.Piece (Elt F) S512x128 .f32) //
      ∀ (xi3 : Vec F S1x512x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1 ∗ owns (c : Thread nD τ) arg9 fullShare xs2) -∗ K ⟨⟩))
          ⊢ wp frame (wpE (defs₀ (F := F)) Variants.none c none) E (cc1_kernel i arg3 harg3 arg4 harg4 arg5 harg5 arg6 harg6 arg7 harg7 arg8 harg8 arg9 harg9) K } := by
  refine ⟨[], [], [], [], fun xi3 E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]
    · iexists _; isplitr; · ipureintro; exact harg7.read_unread _
      iexact HS0
    isplitl [HS1]
    · iexists _; isplitr; · ipureintro; exact harg8.read_unread _
      iexact HS1
    iexists _; isplitr; · ipureintro; exact harg9.read_unread _
    iexact HS2

end Cert.KernelIdeal.Hand

end
-- ==== Proof.KIR1RunD.lean ====
/- Region 1: the whole-body run of the attention kernel in one case of its three conditionals. -/
import proofs.«120868_j4587025072851_2_alg».proof.Proof.KIR1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body in the case where it does not reset the running state, folds a key tile in and writes the output block:
    on whole memrefs, the three input blocks at their contents, it runs to the continuation holding the inputs as they were and each
    buffer it stored into with its stores written, the others untouched; the lists of stores are the witness the run finds. -/
noncomputable def kernelRun1_D (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x128 .f32) (harg9 : arg9.IsWhole) (hc0 : ¬cond1_0 i) (hc1 : cond1_1 i) (hc2 : cond1_2 i)
    (x0 : Vec F S1x512x128 .bf16) (x1 : Vec F S1x512x128 .bf16) (x2 : Vec F S1x512x128 .bf16) (xs0 : Vec F S512x1 .f32) (xs1 : Vec F S512x1 .f32) (xs2 : Vec F S512x128 .f32) :
    Σ' (L3 : List (View.Piece (Elt F) S1x512x128 .f32)) (LS0 : List (View.Piece (Elt F) S512x1 .f32)) (LS1 : List (View.Piece (Elt F) S512x1 .f32)), { LS2 : List (View.Piece (Elt F) S512x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1_kernel i arg3 harg3 arg4 harg4 arg5 harg5 arg6 harg6 arg7 harg7 arg8 harg8 arg9 harg9) K } := by
  refine ⟨?_, ?_, ?_, ?_, fun E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.KernelIdeal.Hand

end
-- ==== Proof.KIR1RunE.lean ====
/- Region 1: the whole-body run of the attention kernel in one case of its three conditionals. -/
import proofs.«120868_j4587025072851_2_alg».proof.Proof.KIR1RunD

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body in the case where it does not reset the running state, does not fold a key tile in and writes the output block:
    on whole memrefs, the three input blocks at their contents, it runs to the continuation holding the inputs as they were and each
    buffer it stored into with its stores written, the others untouched; the lists of stores are the witness the run finds. -/
noncomputable def kernelRun1_E (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x128 .f32) (harg9 : arg9.IsWhole) (hc0 : ¬cond1_0 i) (hc1 : ¬cond1_1 i) (hc2 : cond1_2 i)
    (x0 : Vec F S1x512x128 .bf16) (x1 : Vec F S1x512x128 .bf16) (x2 : Vec F S1x512x128 .bf16) (xs0 : Vec F S512x1 .f32) (xs1 : Vec F S512x1 .f32) (xs2 : Vec F S512x128 .f32) :
    Σ' (L3 : List (View.Piece (Elt F) S1x512x128 .f32)) (LS0 : List (View.Piece (Elt F) S512x1 .f32)) (LS1 : List (View.Piece (Elt F) S512x1 .f32)), { LS2 : List (View.Piece (Elt F) S512x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ owns (c : Thread nD τ) arg7 fullShare xs0 ∗ owns (c : Thread nD τ) arg8 fullShare xs1 ∗ owns (c : Thread nD τ) arg9 fullShare xs2) -∗ K ⟨⟩))
          ⊢ wp frame (wpE (defs₀ (F := F)) Variants.none c none) E (cc1_kernel i arg3 harg3 arg4 harg4 arg5 harg5 arg6 harg6 arg7 harg7 arg8 harg8 arg9 harg9) K } := by
  refine ⟨?_, [], [], [], fun E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]
    · iexists _; isplitr; · ipureintro; exact harg7.read_unread _
      iexact HS0
    isplitl [HS1]
    · iexists _; isplitr; · ipureintro; exact harg8.read_unread _
      iexact HS1
    iexists _; isplitr; · ipureintro; exact harg9.read_unread _
    iexact HS2

end Cert.KernelIdeal.Hand

end
-- ==== Proof.KIRegion1.lean ====
/-
  Region 1, the attention call: its proof data and body obligation. What the output block's buffer and the three
  scratch buffers (running maximum, running sum, accumulator) hold after each grid point is defined by recursion
  on the point: the case of the three conditionals that the point is in, run on the point's query, key and value
  blocks and on what the point before left in the scratch buffers. The invariant carries the scratch buffers at
  those contents from point to point; the output block is written at key tile 7 only and idle elsewhere.
-/
import proofs.«120868_j4587025072851_2_alg».proof.Proof.KIR1RunE

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves -/

/-- The stores of this case into scratch 0 tile it. -/
theorem scover1_A_0 (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x128 .f32) (harg9 : arg9.IsWhole) (hc0 : cond1_0 i) (hc1 : cond1_1 i) (hc2 : ¬cond1_2 i)
    (x0 : Vec F S1x512x128 .bf16) (x1 : Vec F S1x512x128 .bf16) (x2 : Vec F S1x512x128 .bf16) (y : S512x1.Idx) :
    ∃ pc ∈ (kernelRun1_A c i arg3 harg3 arg4 harg4 arg5 harg5 arg6 harg6 arg7 harg7 arg8 harg8 arg9 harg9 hc0 hc1 hc2 x0 x1 x2).2.1, y ∈ pc.1.set :=
  View.cover_of_tiledL (kernelRun1_A c i arg3 harg3 arg4 harg4 arg5 harg5 arg6 harg6 arg7 harg7 arg8 harg8 arg9 harg9 hc0 hc1 hc2 x0 x1 x2).2.1 S512x1.size (by sl_kernel_rfl) y

/-- What this case leaves in scratch 0: its stores read back. -/
def sout1_A_0 (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x128 .f32) (harg9 : arg9.IsWhole) (hc0 : cond1_0 i) (hc1 : cond1_1 i) (hc2 : ¬cond1_2 i)
    (x0 : Vec F S1x512x128 .bf16) (x1 : Vec F S1x512x128 .bf16) (x2 : Vec F S1x512x128 .bf16) : Vec F S512x1 .f32 :=
  VS1_0.read (Elt F) (VS1_0.writes (Elt F) VS1_0.junk (kernelRun1_A c i arg3 harg3 arg4 harg4 arg5 harg5 arg6 harg6 arg7 harg7 arg8 harg8 arg9 harg9 hc0 hc1 hc2 x0 x1 x2).2.1)

/-- The stores of this case into scratch 1 tile it. -/
theorem scover1_A_1 (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x128 .f32) (harg9 : arg9.IsWhole) (hc0 : cond1_0 i) (hc1 : cond1_1 i) (hc2 : ¬cond1_2 i)
    (x0 : Vec F S1x512x128 .bf16) (x1 : Vec F S1x512x128 .bf16) (x2 : Vec F S1x512x128 .bf16) (y : S512x1.Idx) :
    ∃ pc ∈ (kernelRun1_A c i arg3 harg3 arg4 harg4 arg5 harg5 arg6 harg6 arg7 harg7 arg8 harg8 arg9 harg9 hc0 hc1 hc2 x0 x1 x2).2.2.1, y ∈ pc.1.set :=
  View.cover_of_tiledL (kernelRun1_A c i arg3 harg3 arg4 harg4 arg5 harg5 arg6 harg6 arg7 harg7 arg8 harg8 arg9 harg9 hc0 hc1 hc2 x0 x1 x2).2.2.1 S512x1.size (by sl_kernel_rfl) y

/-- What this case leaves in scratch 1: its stores read back. -/
def sout1_A_1 (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x128 .f32) (harg9 : arg9.IsWhole) (hc0 : cond1_0 i) (hc1 : cond1_1 i) (hc2 : ¬cond1_2 i)
    (x0 : Vec F S1x512x128 .bf16) (x1 : Vec F S1x512x128 .bf16) (x2 : Vec F S1x512x128 .bf16) : Vec F S512x1 .f32 :=
  VS1_1.read (Elt F) (VS1_1.writes (Elt F) VS1_1.junk (kernelRun1_A c i arg3 harg3 arg4 harg4 arg5 harg5 arg6 harg6 arg7 harg7 arg8 harg8 arg9 harg9 hc0 hc1 hc2 x0 x1 x2).2.2.1)

/-- The stores of this case into scratch 2 tile it. -/
theorem scover1_A_2 (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x128 .f32) (harg9 : arg9.IsWhole) (hc0 : cond1_0 i) (hc1 : cond1_1 i) (hc2 : ¬cond1_2 i)
    (x0 : Vec F S1x512x128 .bf16) (x1 : Vec F S1x512x128 .bf16) (x2 : Vec F S1x512x128 .bf16) (y : S512x128.Idx) :
    ∃ pc ∈ (kernelRun1_A c i arg3 harg3 arg4 harg4 arg5 harg5 arg6 harg6 arg7 harg7 arg8 harg8 arg9 harg9 hc0 hc1 hc2 x0 x1 x2).2.2.2.1, y ∈ pc.1.set :=
  View.cover_of_tiledL (kernelRun1_A c i arg3 harg3 arg4 harg4 arg5 harg5 arg6 harg6 arg7 harg7 arg8 harg8 arg9 harg9 hc0 hc1 hc2 x0 x1 x2).2.2.2.1 S512x128.size (by sl_kernel_rfl) y

/-- What this case leaves in scratch 2: its stores read back. -/
def sout1_A_2 (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x128 .f32) (harg9 : arg9.IsWhole) (hc0 : cond1_0 i) (hc1 : cond1_1 i) (hc2 : ¬cond1_2 i)
    (x0 : Vec F S1x512x128 .bf16) (x1 : Vec F S1x512x128 .bf16) (x2 : Vec F S1x512x128 .bf16) : Vec F S512x128 .f32 :=
  VS1_2.read (Elt F) (VS1_2.writes (Elt F) VS1_2.junk (kernelRun1_A c i arg3 harg3 arg4 harg4 arg5 harg5 arg6 harg6 arg7 harg7 arg8 harg8 arg9 harg9 hc0 hc1 hc2 x0 x1 x2).2.2.2.1)

/-- The stores of this case into scratch 0 tile it. -/
theorem scover1_B_0 (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x128 .f32) (harg9 : arg9.IsWhole) (hc0 : ¬cond1_0 i) (hc1 : cond1_1 i) (hc2 : ¬cond1_2 i)
    (x0 : Vec F S1x512x128 .bf16) (x1 : Vec F S1x512x128 .bf16) (x2 : Vec F S1x512x128 .bf16) (xs0 : Vec F S512x1 .f32) (xs1 : Vec F S512x1 .f32) (xs2 : Vec F S512x128 .f32) (y : S512x1.Idx) :
    ∃ pc ∈ (kernelRun1_B c i arg3 harg3 arg4 harg4 arg5 harg5 arg6 harg6 arg7 harg7 arg8 harg8 arg9 harg9 hc0 hc1 hc2 x0 x1 x2 xs0 xs1 xs2).2.1, y ∈ pc.1.set :=
  View.cover_of_tiledL (kernelRun1_B c i arg3 harg3 arg4 harg4 arg5 harg5 arg6 harg6 arg7 harg7 arg8 harg8 arg9 harg9 hc0 hc1 hc2 x0 x1 x2 xs0 xs1 xs2).2.1 S512x1.size (by sl_kernel_rfl) y

/-- What this case leaves in scratch 0: its stores read back. -/
def sout1_B_0 (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x128 .f32) (harg9 : arg9.IsWhole) (hc0 : ¬cond1_0 i) (hc1 : cond1_1 i) (hc2 : ¬cond1_2 i)
    (x0 : Vec F S1x512x128 .bf16) (x1 : Vec F S1x512x128 .bf16) (x2 : Vec F S1x512x128 .bf16) (xs0 : Vec F S512x1 .f32) (xs1 : Vec F S512x1 .f32) (xs2 : Vec F S512x128 .f32) : Vec F S512x1 .f32 :=
  VS1_0.read (Elt F) (VS1_0.writes (Elt F) VS1_0.junk (kernelRun1_B c i arg3 harg3 arg4 harg4 arg5 harg5 arg6 harg6 arg7 harg7 arg8 harg8 arg9 harg9 hc0 hc1 hc2 x0 x1 x2 xs0 xs1 xs2).2.1)

/-- The stores of this case into scratch 1 tile it. -/
theorem scover1_B_1 (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x128 .f32) (harg9 : arg9.IsWhole) (hc0 : ¬cond1_0 i) (hc1 : cond1_1 i) (hc2 : ¬cond1_2 i)
    (x0 : Vec F S1x512x128 .bf16) (x1 : Vec F S1x512x128 .bf16) (x2 : Vec F S1x512x128 .bf16) (xs0 : Vec F S512x1 .f32) (xs1 : Vec F S512x1 .f32) (xs2 : Vec F S512x128 .f32) (y : S512x1.Idx) :
    ∃ pc ∈ (kernelRun1_B c i arg3 harg3 arg4 harg4 arg5 harg5 arg6 harg6 arg7 harg7 arg8 harg8 arg9 harg9 hc0 hc1 hc2 x0 x1 x2 xs0 xs1 xs2).2.2.1, y ∈ pc.1.set :=
  View.cover_of_tiledL (kernelRun1_B c i arg3 harg3 arg4 harg4 arg5 harg5 arg6 harg6 arg7 harg7 arg8 harg8 arg9 harg9 hc0 hc1 hc2 x0 x1 x2 xs0 xs1 xs2).2.2.1 S512x1.size (by sl_kernel_rfl) y

/-- What this case leaves in scratch 1: its stores read back. -/
def sout1_B_1 (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x128 .f32) (harg9 : arg9.IsWhole) (hc0 : ¬cond1_0 i) (hc1 : cond1_1 i) (hc2 : ¬cond1_2 i)
    (x0 : Vec F S1x512x128 .bf16) (x1 : Vec F S1x512x128 .bf16) (x2 : Vec F S1x512x128 .bf16) (xs0 : Vec F S512x1 .f32) (xs1 : Vec F S512x1 .f32) (xs2 : Vec F S512x128 .f32) : Vec F S512x1 .f32 :=
  VS1_1.read (Elt F) (VS1_1.writes (Elt F) VS1_1.junk (kernelRun1_B c i arg3 harg3 arg4 harg4 arg5 harg5 arg6 harg6 arg7 harg7 arg8 harg8 arg9 harg9 hc0 hc1 hc2 x0 x1 x2 xs0 xs1 xs2).2.2.1)

/-- The stores of this case into scratch 2 tile it. -/
theorem scover1_B_2 (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x128 .f32) (harg9 : arg9.IsWhole) (hc0 : ¬cond1_0 i) (hc1 : cond1_1 i) (hc2 : ¬cond1_2 i)
    (x0 : Vec F S1x512x128 .bf16) (x1 : Vec F S1x512x128 .bf16) (x2 : Vec F S1x512x128 .bf16) (xs0 : Vec F S512x1 .f32) (xs1 : Vec F S512x1 .f32) (xs2 : Vec F S512x128 .f32) (y : S512x128.Idx) :
    ∃ pc ∈ (kernelRun1_B c i arg3 harg3 arg4 harg4 arg5 harg5 arg6 harg6 arg7 harg7 arg8 harg8 arg9 harg9 hc0 hc1 hc2 x0 x1 x2 xs0 xs1 xs2).2.2.2.1, y ∈ pc.1.set :=
  View.cover_of_tiledL (kernelRun1_B c i arg3 harg3 arg4 harg4 arg5 harg5 arg6 harg6 arg7 harg7 arg8 harg8 arg9 harg9 hc0 hc1 hc2 x0 x1 x2 xs0 xs1 xs2).2.2.2.1 S512x128.size (by sl_kernel_rfl) y

/-- What this case leaves in scratch 2: its stores read back. -/
def sout1_B_2 (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x128 .f32) (harg9 : arg9.IsWhole) (hc0 : ¬cond1_0 i) (hc1 : cond1_1 i) (hc2 : ¬cond1_2 i)
    (x0 : Vec F S1x512x128 .bf16) (x1 : Vec F S1x512x128 .bf16) (x2 : Vec F S1x512x128 .bf16) (xs0 : Vec F S512x1 .f32) (xs1 : Vec F S512x1 .f32) (xs2 : Vec F S512x128 .f32) : Vec F S512x128 .f32 :=
  VS1_2.read (Elt F) (VS1_2.writes (Elt F) VS1_2.junk (kernelRun1_B c i arg3 harg3 arg4 harg4 arg5 harg5 arg6 harg6 arg7 harg7 arg8 harg8 arg9 harg9 hc0 hc1 hc2 x0 x1 x2 xs0 xs1 xs2).2.2.2.1)

/-- The stores of this case into scratch 0 tile it. -/
theorem scover1_D_0 (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x128 .f32) (harg9 : arg9.IsWhole) (hc0 : ¬cond1_0 i) (hc1 : cond1_1 i) (hc2 : cond1_2 i)
    (x0 : Vec F S1x512x128 .bf16) (x1 : Vec F S1x512x128 .bf16) (x2 : Vec F S1x512x128 .bf16) (xs0 : Vec F S512x1 .f32) (xs1 : Vec F S512x1 .f32) (xs2 : Vec F S512x128 .f32) (y : S512x1.Idx) :
    ∃ pc ∈ (kernelRun1_D c i arg3 harg3 arg4 harg4 arg5 harg5 arg6 harg6 arg7 harg7 arg8 harg8 arg9 harg9 hc0 hc1 hc2 x0 x1 x2 xs0 xs1 xs2).2.1, y ∈ pc.1.set :=
  View.cover_of_tiledL (kernelRun1_D c i arg3 harg3 arg4 harg4 arg5 harg5 arg6 harg6 arg7 harg7 arg8 harg8 arg9 harg9 hc0 hc1 hc2 x0 x1 x2 xs0 xs1 xs2).2.1 S512x1.size (by sl_kernel_rfl) y

/-- What this case leaves in scratch 0: its stores read back. -/
def sout1_D_0 (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x128 .f32) (harg9 : arg9.IsWhole) (hc0 : ¬cond1_0 i) (hc1 : cond1_1 i) (hc2 : cond1_2 i)
    (x0 : Vec F S1x512x128 .bf16) (x1 : Vec F S1x512x128 .bf16) (x2 : Vec F S1x512x128 .bf16) (xs0 : Vec F S512x1 .f32) (xs1 : Vec F S512x1 .f32) (xs2 : Vec F S512x128 .f32) : Vec F S512x1 .f32 :=
  VS1_0.read (Elt F) (VS1_0.writes (Elt F) VS1_0.junk (kernelRun1_D c i arg3 harg3 arg4 harg4 arg5 harg5 arg6 harg6 arg7 harg7 arg8 harg8 arg9 harg9 hc0 hc1 hc2 x0 x1 x2 xs0 xs1 xs2).2.1)

/-- The stores of this case into scratch 1 tile it. -/
theorem scover1_D_1 (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x128 .f32) (harg9 : arg9.IsWhole) (hc0 : ¬cond1_0 i) (hc1 : cond1_1 i) (hc2 : cond1_2 i)
    (x0 : Vec F S1x512x128 .bf16) (x1 : Vec F S1x512x128 .bf16) (x2 : Vec F S1x512x128 .bf16) (xs0 : Vec F S512x1 .f32) (xs1 : Vec F S512x1 .f32) (xs2 : Vec F S512x128 .f32) (y : S512x1.Idx) :
    ∃ pc ∈ (kernelRun1_D c i arg3 harg3 arg4 harg4 arg5 harg5 arg6 harg6 arg7 harg7 arg8 harg8 arg9 harg9 hc0 hc1 hc2 x0 x1 x2 xs0 xs1 xs2).2.2.1, y ∈ pc.1.set :=
  View.cover_of_tiledL (kernelRun1_D c i arg3 harg3 arg4 harg4 arg5 harg5 arg6 harg6 arg7 harg7 arg8 harg8 arg9 harg9 hc0 hc1 hc2 x0 x1 x2 xs0 xs1 xs2).2.2.1 S512x1.size (by sl_kernel_rfl) y

/-- What this case leaves in scratch 1: its stores read back. -/
def sout1_D_1 (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x128 .f32) (harg9 : arg9.IsWhole) (hc0 : ¬cond1_0 i) (hc1 : cond1_1 i) (hc2 : cond1_2 i)
    (x0 : Vec F S1x512x128 .bf16) (x1 : Vec F S1x512x128 .bf16) (x2 : Vec F S1x512x128 .bf16) (xs0 : Vec F S512x1 .f32) (xs1 : Vec F S512x1 .f32) (xs2 : Vec F S512x128 .f32) : Vec F S512x1 .f32 :=
  VS1_1.read (Elt F) (VS1_1.writes (Elt F) VS1_1.junk (kernelRun1_D c i arg3 harg3 arg4 harg4 arg5 harg5 arg6 harg6 arg7 harg7 arg8 harg8 arg9 harg9 hc0 hc1 hc2 x0 x1 x2 xs0 xs1 xs2).2.2.1)

/-- The stores of this case into scratch 2 tile it. -/
theorem scover1_D_2 (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x128 .f32) (harg9 : arg9.IsWhole) (hc0 : ¬cond1_0 i) (hc1 : cond1_1 i) (hc2 : cond1_2 i)
    (x0 : Vec F S1x512x128 .bf16) (x1 : Vec F S1x512x128 .bf16) (x2 : Vec F S1x512x128 .bf16) (xs0 : Vec F S512x1 .f32) (xs1 : Vec F S512x1 .f32) (xs2 : Vec F S512x128 .f32) (y : S512x128.Idx) :
    ∃ pc ∈ (kernelRun1_D c i arg3 harg3 arg4 harg4 arg5 harg5 arg6 harg6 arg7 harg7 arg8 harg8 arg9 harg9 hc0 hc1 hc2 x0 x1 x2 xs0 xs1 xs2).2.2.2.1, y ∈ pc.1.set :=
  View.cover_of_tiledL (kernelRun1_D c i arg3 harg3 arg4 harg4 arg5 harg5 arg6 harg6 arg7 harg7 arg8 harg8 arg9 harg9 hc0 hc1 hc2 x0 x1 x2 xs0 xs1 xs2).2.2.2.1 S512x128.size (by sl_kernel_rfl) y

/-- What this case leaves in scratch 2: its stores read back. -/
def sout1_D_2 (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x128 .f32) (harg9 : arg9.IsWhole) (hc0 : ¬cond1_0 i) (hc1 : cond1_1 i) (hc2 : cond1_2 i)
    (x0 : Vec F S1x512x128 .bf16) (x1 : Vec F S1x512x128 .bf16) (x2 : Vec F S1x512x128 .bf16) (xs0 : Vec F S512x1 .f32) (xs1 : Vec F S512x1 .f32) (xs2 : Vec F S512x128 .f32) : Vec F S512x128 .f32 :=
  VS1_2.read (Elt F) (VS1_2.writes (Elt F) VS1_2.junk (kernelRun1_D c i arg3 harg3 arg4 harg4 arg5 harg5 arg6 harg6 arg7 harg7 arg8 harg8 arg9 harg9 hc0 hc1 hc2 x0 x1 x2 xs0 xs1 xs2).2.2.2.1)

/-- The store of this case into the output block tiles it. -/
theorem cover1_D_3 (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x128 .f32) (harg9 : arg9.IsWhole) (hc0 : ¬cond1_0 i) (hc1 : cond1_1 i) (hc2 : cond1_2 i)
    (x0 : Vec F S1x512x128 .bf16) (x1 : Vec F S1x512x128 .bf16) (x2 : Vec F S1x512x128 .bf16) (xs0 : Vec F S512x1 .f32) (xs1 : Vec F S512x1 .f32) (xs2 : Vec F S512x128 .f32) (y : S1x512x128.Idx) :
    ∃ pc ∈ (kernelRun1_D c i arg3 harg3 arg4 harg4 arg5 harg5 arg6 harg6 arg7 harg7 arg8 harg8 arg9 harg9 hc0 hc1 hc2 x0 x1 x2 xs0 xs1 xs2).1, y ∈ pc.1.set :=
  View.cover_of_tiledL (kernelRun1_D c i arg3 harg3 arg4 harg4 arg5 harg5 arg6 harg6 arg7 harg7 arg8 harg8 arg9 harg9 hc0 hc1 hc2 x0 x1 x2 xs0 xs1 xs2).1 S1x512x128.size (by sl_kernel_rfl) y

/-- What this case leaves in the output block: its store read back. -/
def out1_D_3 (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x128 .f32) (harg9 : arg9.IsWhole) (hc0 : ¬cond1_0 i) (hc1 : cond1_1 i) (hc2 : cond1_2 i)
    (x0 : Vec F S1x512x128 .bf16) (x1 : Vec F S1x512x128 .bf16) (x2 : Vec F S1x512x128 .bf16) (xs0 : Vec F S512x1 .f32) (xs1 : Vec F S512x1 .f32) (xs2 : Vec F S512x128 .f32) : Vec F S1x512x128 .f32 :=
  VO1_3.read (Elt F) (VO1_3.writes (Elt F) VO1_3.junk (kernelRun1_D c i arg3 harg3 arg4 harg4 arg5 harg5 arg6 harg6 arg7 harg7 arg8 harg8 arg9 harg9 hc0 hc1 hc2 x0 x1 x2 xs0 xs1 xs2).1)

/-- The store of this case into the output block tiles it. -/
theorem cover1_E_3 (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x128 .f32) (harg9 : arg9.IsWhole) (hc0 : ¬cond1_0 i) (hc1 : ¬cond1_1 i) (hc2 : cond1_2 i)
    (x0 : Vec F S1x512x128 .bf16) (x1 : Vec F S1x512x128 .bf16) (x2 : Vec F S1x512x128 .bf16) (xs0 : Vec F S512x1 .f32) (xs1 : Vec F S512x1 .f32) (xs2 : Vec F S512x128 .f32) (y : S1x512x128.Idx) :
    ∃ pc ∈ (kernelRun1_E c i arg3 harg3 arg4 harg4 arg5 harg5 arg6 harg6 arg7 harg7 arg8 harg8 arg9 harg9 hc0 hc1 hc2 x0 x1 x2 xs0 xs1 xs2).1, y ∈ pc.1.set :=
  View.cover_of_tiledL (kernelRun1_E c i arg3 harg3 arg4 harg4 arg5 harg5 arg6 harg6 arg7 harg7 arg8 harg8 arg9 harg9 hc0 hc1 hc2 x0 x1 x2 xs0 xs1 xs2).1 S1x512x128.size (by sl_kernel_rfl) y

/-- What this case leaves in the output block: its store read back. -/
def out1_E_3 (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x128 .f32) (harg9 : arg9.IsWhole) (hc0 : ¬cond1_0 i) (hc1 : ¬cond1_1 i) (hc2 : cond1_2 i)
    (x0 : Vec F S1x512x128 .bf16) (x1 : Vec F S1x512x128 .bf16) (x2 : Vec F S1x512x128 .bf16) (xs0 : Vec F S512x1 .f32) (xs1 : Vec F S512x1 .f32) (xs2 : Vec F S512x128 .f32) : Vec F S1x512x128 .f32 :=
  VO1_3.read (Elt F) (VO1_3.writes (Elt F) VO1_3.junk (kernelRun1_E c i arg3 harg3 arg4 harg4 arg5 harg5 arg6 harg6 arg7 harg7 arg8 harg8 arg9 harg9 hc0 hc1 hc2 x0 x1 x2 xs0 xs1 xs2).1)

/-! ## What the buffers hold after each point -/

/-- A placeholder for the output block's buffer at the points where the window is idle: nothing consults it. -/
def idleOut : Vec F S1x512x128 .f32 := VO1_3.read (Elt F) VO1_3.junk

/-- One point: the case its key and query tiles select, run on its blocks and on what the point before left in the
    scratch buffers (`prev`: running maximum, running sum, accumulator). -/
def stepAt (c : Dev nD) (t : Fin cfg1.N) (prev : Vec F S512x1 .f32 × Vec F S512x1 .f32 × Vec F S512x128 .f32) : Vec F S1x512x128 .f32 × Vec F S512x1 .f32 × Vec F S512x1 .f32 × Vec F S512x128 .f32 :=
  if h0 : t.val % 8 = 0 then
    if h1 : t.val % 8 ≤ t.val / 8 % 8 then
      if h2 : t.val % 8 = 7 then (idleOut, prev)
      else (idleOut, (sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr h1) (fun h => h2 ((hcond1_2 t).mp h)) (iblk1 V c 0 t) (iblk1 V c 1 t) (iblk1 V c 2 t), sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr h1) (fun h => h2 ((hcond1_2 t).mp h)) (iblk1 V c 0 t) (iblk1 V c 1 t) (iblk1 V c 2 t), sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr h1) (fun h => h2 ((hcond1_2 t).mp h)) (iblk1 V c 0 t) (iblk1 V c 1 t) (iblk1 V c 2 t)))
    else (idleOut, prev)
  else
    if h1 : t.val % 8 ≤ t.val / 8 % 8 then
      if h2 : t.val % 8 = 7 then
        (out1_D_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) prev.1 prev.2.1 prev.2.2, (sout1_D_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) prev.1 prev.2.1 prev.2.2, sout1_D_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) prev.1 prev.2.1 prev.2.2, sout1_D_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) prev.1 prev.2.1 prev.2.2))
      else (idleOut, (sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (iblk1 V c 0 t) (iblk1 V c 1 t) (iblk1 V c 2 t) prev.1 prev.2.1 prev.2.2, sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (iblk1 V c 0 t) (iblk1 V c 1 t) (iblk1 V c 2 t) prev.1 prev.2.1 prev.2.2, sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (iblk1 V c 0 t) (iblk1 V c 1 t) (iblk1 V c 2 t) prev.1 prev.2.1 prev.2.2))
    else
      if h2 : t.val % 8 = 7 then (out1_E_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) ((hcond1_2 t).mpr h2) (iblk1 V c 0 t) (iblk1 V c 1 t) (iblk1 V c 2 t) prev.1 prev.2.1 prev.2.2, prev)
      else (idleOut, prev)

/-- The accumulation over the points, in grid order. -/
def outsAt1 (c : Dev nD) : (n : ℕ) → n < cfg1.N → Vec F S1x512x128 .f32 × Vec F S512x1 .f32 × Vec F S512x1 .f32 × Vec F S512x128 .f32
  | 0, hn => stepAt V c ⟨0, hn⟩ (VS1_0.read (Elt F) VS1_0.junk, VS1_1.read (Elt F) VS1_1.junk, VS1_2.read (Elt F) VS1_2.junk)
  | n + 1, hn => stepAt V c ⟨n + 1, hn⟩ (outsAt1 c n (Nat.lt_of_succ_lt hn)).2

theorem outsAt1_pos (c : Dev nD) (t : Fin cfg1.N) (hz : t.val ≠ 0) :
    outsAt1 V c t.val t.isLt = stepAt V c t (outsAt1 V c (t.val - 1) (Nat.lt_of_le_of_lt (Nat.sub_le _ _) t.isLt)).2 := by
  obtain ⟨n, hn⟩ := t
  cases n with
  | zero => exact absurd rfl hz
  | succ n => rfl

theorem outsAt1_zero (c : Dev nD) (t : Fin cfg1.N) (hz : t.val = 0) :
    outsAt1 V c t.val t.isLt = stepAt V c t (VS1_0.read (Elt F) VS1_0.junk, VS1_1.read (Elt F) VS1_1.junk, VS1_2.read (Elt F) VS1_2.junk) := by
  obtain ⟨n, hn⟩ := t
  cases n with
  | zero => rfl
  | succ n => exact absurd hz (Nat.succ_ne_zero n)

/-! ## The invariant: the scratch buffers carried from point to point -/

/-- The scoped buffers of the other call, each whole at some contents: what the body never touches. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f))

theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

/-- The class's invariant opened: the other call's buffers, the three scratch buffers at some contents, the generator register. -/
theorem PhiA1_open (c : Dev nD) :
    (Pipeline.ΦA spec1 c : sProp 𝕄) ⊢ iprop(rest1 c ∗ (∃ d, owns (c : Thread nD τ) scM1_0 fullShare d) ∗ (∃ d, owns (c : Thread nD τ) scM1_1 fullShare d) ∗ (∃ d, owns (c : Thread nD τ) scM1_2 fullShare d) ∗ (∃ r, prngReg c r)) := by
  rw [PhiA1_eq]; unfold rest1
  iintro ⟨⟨R0, R1, R2, R3, R4, R5, R6, R7, R8, R9, R10, HS0, HS1, HS2⟩, Hg⟩
  isplitl [R0 R1 R2 R3 R4 R5 R6 R7 R8 R9 R10]
  ·
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    iexact R10
  isplitl [HS0]; · iexact HS0
  isplitl [HS1]; · iexact HS1
  isplitl [HS2]; · iexact HS2
  iexact Hg

/-- and closed again. -/
theorem PhiA1_close (c : Dev nD) :
    iprop(rest1 c ∗ (∃ d, owns (c : Thread nD τ) scM1_0 fullShare d) ∗ (∃ d, owns (c : Thread nD τ) scM1_1 fullShare d) ∗ (∃ d, owns (c : Thread nD τ) scM1_2 fullShare d) ∗ (∃ r, prngReg c r)) ⊢ (Pipeline.ΦA spec1 c : sProp 𝕄) := by
  rw [PhiA1_eq]; unfold rest1
  iintro ⟨⟨R0, R1, R2, R3, R4, R5, R6, R7, R8, R9, R10⟩, HS0, HS1, HS2, Hg⟩
  isplitr [Hg]
  swap; · iexact Hg
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [HS0]; · iexact HS0
  isplitl [HS1]; · iexact HS1
  iexact HS2

/-- The region's invariant before position `n`: before the first point the class's; afterwards the scratch buffers at
    what the point before left in them. -/
def PhiS (c : Dev nD) : (n : ℕ) → n ≤ cfg1.N → sProp 𝕄
  | 0, _ => Pipeline.ΦA spec1 c
  | n + 1, hn => iprop(rest1 c ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(rest1 c ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2) ∗ (∃ r, prngReg c r)) := rfl

theorem PhiS_pos (c : Dev nD) (n : ℕ) (h : n ≤ cfg1.N) (hz : n ≠ 0) :
    PhiS V c n h = iprop(rest1 c ∗ owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2) ∗ (∃ r, prngReg c r)) := by
  cases n with
  | zero => exact absurd rfl hz
  | succ n => rfl

/-- Whatever the position, the invariant holds the scratch buffers at SOME contents. -/
theorem PhiS_any (c : Dev nD) (n : ℕ) (h : n ≤ cfg1.N) :
    PhiS V c n h ⊢ iprop(rest1 c ∗ (∃ d, owns (c : Thread nD τ) scM1_0 fullShare d) ∗ (∃ d, owns (c : Thread nD τ) scM1_1 fullShare d) ∗ (∃ d, owns (c : Thread nD τ) scM1_2 fullShare d) ∗ (∃ r, prngReg c r)) := by
  cases n with
  | zero => exact PhiA1_open c
  | succ n =>
    rw [PhiS_succ]
    iintro ⟨HR, HS0, HS1, HS2, Hg⟩
    isplitl [HR]; · iexact HR
    isplitl [HS0]; · iexists _; iexact HS0
    isplitl [HS1]; · iexists _; iexact HS1
    isplitl [HS2]; · iexists _; iexact HS2
    iexact Hg

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## One point, case by case -/

theorem stepAt_A (c : Dev nD) (t : Fin cfg1.N) (prev : Vec F S512x1 .f32 × Vec F S512x1 .f32 × Vec F S512x128 .f32) (h0 : t.val % 8 = 0) (h1 : t.val % 8 ≤ t.val / 8 % 8) (h2 : ¬t.val % 8 = 7) :
    stepAt V c t prev = (idleOut, (sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr h1) (fun h => h2 ((hcond1_2 t).mp h)) (iblk1 V c 0 t) (iblk1 V c 1 t) (iblk1 V c 2 t), sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr h1) (fun h => h2 ((hcond1_2 t).mp h)) (iblk1 V c 0 t) (iblk1 V c 1 t) (iblk1 V c 2 t), sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr h1) (fun h => h2 ((hcond1_2 t).mp h)) (iblk1 V c 0 t) (iblk1 V c 1 t) (iblk1 V c 2 t))) := by
  unfold stepAt; rw [dif_pos h0, dif_pos h1, dif_neg h2]

theorem stepAt_B (c : Dev nD) (t : Fin cfg1.N) (prev : Vec F S512x1 .f32 × Vec F S512x1 .f32 × Vec F S512x128 .f32) (h0 : ¬t.val % 8 = 0) (h1 : t.val % 8 ≤ t.val / 8 % 8) (h2 : ¬t.val % 8 = 7) :
    stepAt V c t prev = (idleOut, (sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (iblk1 V c 0 t) (iblk1 V c 1 t) (iblk1 V c 2 t) prev.1 prev.2.1 prev.2.2, sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (iblk1 V c 0 t) (iblk1 V c 1 t) (iblk1 V c 2 t) prev.1 prev.2.1 prev.2.2, sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (iblk1 V c 0 t) (iblk1 V c 1 t) (iblk1 V c 2 t) prev.1 prev.2.1 prev.2.2)) := by
  unfold stepAt; rw [dif_neg h0, dif_pos h1, dif_neg h2]

theorem stepAt_C (c : Dev nD) (t : Fin cfg1.N) (prev : Vec F S512x1 .f32 × Vec F S512x1 .f32 × Vec F S512x128 .f32) (h0 : ¬t.val % 8 = 0) (h1 : ¬t.val % 8 ≤ t.val / 8 % 8) (h2 : ¬t.val % 8 = 7) :
    stepAt V c t prev = (idleOut, prev) := by
  unfold stepAt; rw [dif_neg h0, dif_neg h1, dif_neg h2]

theorem stepAt_D (c : Dev nD) (t : Fin cfg1.N) (prev : Vec F S512x1 .f32 × Vec F S512x1 .f32 × Vec F S512x128 .f32) (h0 : ¬t.val % 8 = 0) (h1 : t.val % 8 ≤ t.val / 8 % 8) (h2 : t.val % 8 = 7) :
    stepAt V c t prev = (out1_D_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) prev.1 prev.2.1 prev.2.2, (sout1_D_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) prev.1 prev.2.1 prev.2.2, sout1_D_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) prev.1 prev.2.1 prev.2.2, sout1_D_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) prev.1 prev.2.1 prev.2.2)) := by
  unfold stepAt; rw [dif_neg h0, dif_pos h1, dif_pos h2]

theorem stepAt_E (c : Dev nD) (t : Fin cfg1.N) (prev : Vec F S512x1 .f32 × Vec F S512x1 .f32 × Vec F S512x128 .f32) (h0 : ¬t.val % 8 = 0) (h1 : ¬t.val % 8 ≤ t.val / 8 % 8) (h2 : t.val % 8 = 7) :
    stepAt V c t prev = (out1_E_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) ((hcond1_2 t).mpr h2) (iblk1 V c 0 t) (iblk1 V c 1 t) (iblk1 V c 2 t) prev.1 prev.2.1 prev.2.2, prev) := by
  unfold stepAt; rw [dif_neg h0, dif_neg h1, dif_pos h2]

/-- The accumulation at a point is one step from what the point before left. -/
theorem outsAt1_eq (c : Dev nD) (t : Fin cfg1.N) :
    ∃ prev : Vec F S512x1 .f32 × Vec F S512x1 .f32 × Vec F S512x128 .f32, outsAt1 V c t.val t.isLt = stepAt V c t prev
      ∧ ∀ hz : t.val ≠ 0, (outsAt1 V c (t.val - 1) (by omega)).2 = prev := by
  by_cases hz : t.val = 0
  · exact ⟨_, outsAt1_zero V c t hz, fun h => absurd hz h⟩
  · exact ⟨_, outsAt1_pos V c t hz, fun _ => rfl⟩

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
/-- The body at any point: the input buffers hold their blocks; the point's key and query tiles say which case it is in;
    the invariant hands the body the scratch buffers at what the point before left (at anything where the body resets
    them) and takes them back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [PhiS_castSucc V c t]
  obtain ⟨prev, hO, hprev⟩ := outsAt1_eq V c t
  by_cases h0 : t.val % 8 = 0
  · have h1 : t.val % 8 ≤ t.val / 8 % 8 := by omega
    have h2 : ¬t.val % 8 = 7 := by omega
    rw [Dat.leavesExact_idle (dat1 V c) 3 t (idleAt1_3 t (fun h => h2 ((hcond1_2 t).mp h))) (noFlush1_3 t (fun h => h2 ((hcond1_2 t).mp h)))]
    rw [hO, stepAt_A V c t prev h0 h1 h2]
    unfold sout1_A_0 sout1_A_1 sout1_A_2; (try dsimp only)
    iintro ⟨HΦ, Ho, ⟨%d0, H0⟩, ⟨%d1, H1⟩, ⟨%d2, H2⟩, ⟨%d3, H3⟩⟩
    ihave HΦ' := (PhiS_any V c _ _) $$ HΦ
    icases HΦ' with ⟨HR, HS0, HS1, HS2, Hg⟩
    iapply ((kernelRun1_A c (grid1.coords t) _ _ _ _ _ _ _ _ _ _ _ _ _ _ ((hcond1_0 t).mpr h0) ((hcond1_1 t).mpr h1) (fun h => h2 ((hcond1_2 t).mp h)) (iblk1 V c 0 t) (iblk1 V c 1 t) (iblk1 V c 2 t)).2.2.2.2 _ Set.univ _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    iintro ⟨H0, H1, H2, H3, ⟨%es0, HS0⟩, ⟨%es1, HS1⟩, ⟨%es2, HS2⟩⟩
    isplitl [HR HS0 HS1 HS2 Hg]
    · isplitl [HR]; · iexact HR
      isplitl [HS0]
      · unfold owns; iexists _; isplitr
        swap; · iexact HS0
        ipureintro; exact View.read_writes_of_cover _ _ _ _ _ (scover1_A_0 c _ _ _ _ _ _ _ _ _ _ _ _ _ _ _ _ _ _ _ _ _)
      isplitl [HS1]
      · unfold owns; iexists _; isplitr
        swap; · iexact HS1
        ipureintro; exact View.read_writes_of_cover _ _ _ _ _ (scover1_A_1 c _ _ _ _ _ _ _ _ _ _ _ _ _ _ _ _ _ _ _ _ _)
      isplitl [HS2]
      · unfold owns; iexists _; isplitr
        swap; · iexact HS2
        ipureintro; exact View.read_writes_of_cover _ _ _ _ _ (scover1_A_2 c _ _ _ _ _ _ _ _ _ _ _ _ _ _ _ _ _ _ _ _ _)
      iexact Hg
    isplitl [Ho]; · iexact Ho
    isplitl [H0]; · iexact H0
    isplitl [H1]; · iexact H1
    isplitl [H2]; · iexact H2
    iexists _; iexact H3
  · by_cases h1 : t.val % 8 ≤ t.val / 8 % 8
    · by_cases h2 : t.val % 8 = 7
      · rw [show (dat1 V c).leavesExact 3 t = owns (c : Thread nD τ) (ms1_3 t) fullShare ((dat1 V c).after 3 t) from by
          unfold Dat.leavesExact; rw [liveAt1_3 t ((hcond1_2 t).mpr h2)], after1_3]
        rw [hO, stepAt_D V c t prev h0 h1 h2]
        unfold sout1_D_0 sout1_D_1 sout1_D_2 out1_D_3; (try dsimp only)
        have hz : t.val ≠ 0 := by omega
        rw [PhiS_pos V c _ _ hz, ← hprev hz]
        iintro ⟨⟨HR, HS0, HS1, HS2, Hg⟩, Ho, ⟨%d0, H0⟩, ⟨%d1, H1⟩, ⟨%d2, H2⟩, ⟨%d3, H3⟩⟩
        iapply ((kernelRun1_D c (grid1.coords t) _ _ _ _ _ _ _ _ _ _ _ _ _ _ (fun h => h0 ((hcond1_0 t).mp h)) ((hcond1_1 t).mpr h1) ((hcond1_2 t).mpr h2) (iblk1 V c 0 t) (iblk1 V c 1 t) (iblk1 V c 2 t) _ _ _).2.2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, ⟨%e3, H3⟩, ⟨%es0, HS0⟩, ⟨%es1, HS1⟩, ⟨%es2, HS2⟩⟩
        isplitl [HR HS0 HS1 HS2 Hg]
        · isplitl [HR]; · iexact HR
          isplitl [HS0]
          · unfold owns; iexists _; isplitr
            swap; · iexact HS0
            ipureintro; exact View.read_writes_of_cover _ _ _ _ _ (scover1_D_0 c _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_D_1 c _ _ _ _ _ _ _ _ _ _ _ _ _ _ _ _ _ _ _ _ _ _ _ _)
          isplitl [HS2]
          · unfold owns; iexists _; isplitr
            swap; · iexact HS2
            ipureintro; exact View.read_writes_of_cover _ _ _ _ _ (scover1_D_2 c _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_D_3 c _ _ _ _ _ _ _ _ _ _ _ _ _ _ _ _ _ _ _ _ _ _ _ _)
      · rw [Dat.leavesExact_idle (dat1 V c) 3 t (idleAt1_3 t (fun h => h2 ((hcond1_2 t).mp h))) (noFlush1_3 t (fun h => h2 ((hcond1_2 t).mp h)))]
        rw [hO, stepAt_B V c t prev h0 h1 h2]
        unfold sout1_B_0 sout1_B_1 sout1_B_2; (try dsimp only)
        have hz : t.val ≠ 0 := by omega
        rw [PhiS_pos V c _ _ hz, ← hprev hz]
        iintro ⟨⟨HR, HS0, HS1, HS2, Hg⟩, Ho, ⟨%d0, H0⟩, ⟨%d1, H1⟩, ⟨%d2, H2⟩, ⟨%d3, H3⟩⟩
        iapply ((kernelRun1_B c (grid1.coords t) _ _ _ _ _ _ _ _ _ _ _ _ _ _ (fun h => h0 ((hcond1_0 t).mp h)) ((hcond1_1 t).mpr h1) (fun h => h2 ((hcond1_2 t).mp h)) (iblk1 V c 0 t) (iblk1 V c 1 t) (iblk1 V c 2 t) _ _ _).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [HR HS0 HS1 HS2 Hg]
        · isplitl [HR]; · iexact HR
          isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_B_1 c _ _ _ _ _ _ _ _ _ _ _ _ _ _ _ _ _ _ _ _ _ _ _ _)
          isplitl [HS2]
          · unfold owns; iexists _; isplitr
            swap; · iexact HS2
            ipureintro; exact View.read_writes_of_cover _ _ _ _ _ (scover1_B_2 c _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
    · by_cases h2 : t.val % 8 = 7
      · rw [show (dat1 V c).leavesExact 3 t = owns (c : Thread nD τ) (ms1_3 t) fullShare ((dat1 V c).after 3 t) from by
          unfold Dat.leavesExact; rw [liveAt1_3 t ((hcond1_2 t).mpr h2)], after1_3]
        rw [hO, stepAt_E V c t prev h0 h1 h2]
        unfold out1_E_3; (try dsimp only)
        have hz : t.val ≠ 0 := by omega
        rw [PhiS_pos V c _ _ hz, ← hprev hz]
        iintro ⟨⟨HR, HS0, HS1, HS2, Hg⟩, Ho, ⟨%d0, H0⟩, ⟨%d1, H1⟩, ⟨%d2, H2⟩, ⟨%d3, H3⟩⟩
        iapply ((kernelRun1_E c (grid1.coords t) _ _ _ _ _ _ _ _ _ _ _ _ _ _ (fun h => h0 ((hcond1_0 t).mp h)) (fun h => h1 ((hcond1_1 t).mp h)) ((hcond1_2 t).mpr h2) (iblk1 V c 0 t) (iblk1 V c 1 t) (iblk1 V c 2 t) _ _ _).2.2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, ⟨%e3, H3⟩, HS0, HS1, HS2⟩
        isplitl [HR HS0 HS1 HS2 Hg]
        · isplitl [HR]; · iexact HR
          isplitl [HS0]; · iexact HS0
          isplitl [HS1]; · iexact HS1
          isplitl [HS2]; · iexact HS2
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_E_3 c _ _ _ _ _ _ _ _ _ _ _ _ _ _ _ _ _ _ _ _ _ _ _ _)
      · rw [Dat.leavesExact_idle (dat1 V c) 3 t (idleAt1_3 t (fun h => h2 ((hcond1_2 t).mp h))) (noFlush1_3 t (fun h => h2 ((hcond1_2 t).mp h)))]
        rw [hO, stepAt_C V c t prev h0 h1 h2]
        (try dsimp only)
        have hz : t.val ≠ 0 := by omega
        rw [PhiS_pos V c _ _ hz, ← hprev hz]
        iintro ⟨⟨HR, HS0, HS1, HS2, Hg⟩, Ho, ⟨%d0, H0⟩, ⟨%d1, H1⟩, ⟨%d2, H2⟩, ⟨%d3, H3⟩⟩
        iapply ((kernelRun1_C c (grid1.coords t) _ _ _ _ _ _ _ _ _ _ _ _ _ _ (fun h => h0 ((hcond1_0 t).mp h)) (fun h => h1 ((hcond1_1 t).mp h)) (fun h => h2 ((hcond1_2 t).mp h)) (iblk1 V c 0 t) (iblk1 V c 1 t) (iblk1 V c 2 t) _ _ _).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, HS0, HS1, HS2⟩
        isplitl [HR HS0 HS1 HS2 Hg]
        · isplitl [HR]; · iexact HR
          isplitl [HS0]; · iexact HS0
          isplitl [HS1]; · iexact HS1
          isplitl [HS2]; · iexact HS2
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS V c 0 (Nat.zero_le _) from rfl, PhiS_zero V c 0 _ rfl]
  try exact Idealize.SL.BI.Entails.refl _

/-- At any position the invariant gives the class's back: the scratch buffers' contents are forgotten. -/
theorem Phi_out1 (c : Dev nD) (t : Fin (cfg1.N + 1)) : (dat1 V c).Φ t ⊢ (Pipeline.ΦA spec1 c : sProp 𝕄) := by
  have e : (dat1 V c).Φ t = PhiS V c t.val (Nat.le_of_lt_succ t.isLt) := by dsimp only [dat1]
  rw [e]
  exact (PhiS_any V c _ _).trans (PhiA1_close c)

/-- The same after the last point. -/
theorem hout1 (c : Dev nD) : (dat1 V c).Φ (Fin.last cfg1.N) ⊢ (Pipeline.ΦA spec1 c : sProp 𝕄) :=
  Phi_out1 V c _

end Cert.KernelIdeal.Hand

end
-- ==== Proof.KIRun.lean ====
/- The run of @main: the program as a list of segments, run by the library's theorem for a sequence of host stretches and
   pipelined regions, from the launch to the return — three host conversions, then the projection region, then the attention region. The buffer contents at
   every segment boundary are a fold from the launch memory; each region is a segment over the thread state "every
   unscoped buffer at the boundary's contents, the generator register at some state, nothing owed"; the run's result
   is read off the last boundary's contents: the output array at what the second pipeline's write-backs leave, every
   argument at its launch contents. -/
import proofs.«120868_j4587025072851_2_alg».proof.Proof.Gen.KernelIdeal.Launch
import proofs.«120868_j4587025072851_2_alg».proof.Proof.Gen.KernelIdeal.Skeleton
import proofs.«120868_j4587025072851_2_alg».proof.Proof.Gen.KernelIdeal.Points
import proofs.«120868_j4587025072851_2_alg».proof.Proof.KIRegion0
import proofs.«120868_j4587025072851_2_alg».proof.Proof.KIRegion1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main -/

/-- Core `c`'s buffers at launch. -/
abbrev W0 : Dev nD → Valuation τ sig (Elt F) := fun c b => (s₀ m ρ).mem ((c : Dev nD), b)
/-- After the three host conversions (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents, which are region 1's entry contents: no
    host operation stands between the two regions). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`). -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references (region 1's exit contents). -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## What region 0 is entered with -/

/-- The activations reach region 0 as launched: no conversion writes them. -/
theorem V1_main_arg0 (c : Dev nD) : V1 m ρ c main_arg0 = m ((c : Thread nD τ).loc main_arg0) :=
  (StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem V1_main_arg1 (c : Dev nD) : V1 m ρ c main_arg1 = m ((c : Thread nD τ).loc main_arg1) :=
  (StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem V1_main_arg2 (c : Dev nD) : V1 m ρ c main_arg2 = m ((c : Thread nD τ).loc main_arg2) :=
  (StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem V1_main_arg3 (c : Dev nD) : V1 m ρ c main_arg3 = m ((c : Thread nD τ).loc main_arg3) :=
  (StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl

/-- Each weight matrix reaches region 0 rounded to bf16 from its launch contents. -/
theorem V1_main_v0 (c : Dev nD) :
    (V1 m ρ c main_v0 : (⟨S1024x128, .bf16⟩ : BufTy).Contents (Elt F))
      = truncf .bf16 (m ((c : Thread nD τ).loc main_arg1) : (⟨S1024x128, .f32⟩ : BufTy).Contents (Elt F)) bitsLt_bf16_f32 := by
  dsimp only [V1, W1, W0, hostOps0]; after_results
theorem V1_main_v1 (c : Dev nD) :
    (V1 m ρ c main_v1 : (⟨S1024x128, .bf16⟩ : BufTy).Contents (Elt F))
      = truncf .bf16 (m ((c : Thread nD τ).loc main_arg2) : (⟨S1024x128, .f32⟩ : BufTy).Contents (Elt F)) bitsLt_bf16_f32 := by
  dsimp only [V1, W1, W0, hostOps0]; after_results
theorem V1_main_v2 (c : Dev nD) :
    (V1 m ρ c main_v2 : (⟨S1024x128, .bf16⟩ : BufTy).Contents (Elt F))
      = truncf .bf16 (m ((c : Thread nD τ).loc main_arg3) : (⟨S1024x128, .f32⟩ : BufTy).Contents (Elt F)) bitsLt_bf16_f32 := by
  dsimp only [V1, W1, W0, hostOps0]; after_results

/-! ## What region 1 is entered with: region 0's three results -/

theorem V2_main_v3_0 (c : Dev nD) : V2 m ρ c main_v3_0 = (dat0 (V1 m ρ) c).arrAt 4 cfg0.N := W2_arr m ρ c 4
theorem V2_main_v3_1 (c : Dev nD) : V2 m ρ c main_v3_1 = (dat0 (V1 m ρ) c).arrAt 5 cfg0.N := W2_arr m ρ c 5
theorem V2_main_v3_2 (c : Dev nD) : V2 m ρ c main_v3_2 = (dat0 (V1 m ρ) c).arrAt 6 cfg0.N := W2_arr m ρ c 6

/-! ## The arguments end as launched: no conversion and no region writes one -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = m ((c : Thread nD τ).loc main_arg0) := V1_main_arg0 m ρ c
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = m ((c : Thread nD τ).loc main_arg1) := V1_main_arg1 m ρ c
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = m ((c : Thread nD τ).loc main_arg2) := V1_main_arg2 m ρ c
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = m ((c : Thread nD τ).loc main_arg3) := V1_main_arg3 m ρ c

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No conversion allocates a buffer. -/
theorem hostOps0_fresh : (hostOps0 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W3`, the
    generator register at some state. -/
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- Region 0 over the thread state: entered from every unscoped buffer at `W1`, left at `W2`. Its arrays split out
    of the unscoped buffers and put back at the exit contents; the generator register into the invariant and out;
    nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3` (what the launch
    reads at the end). Its invariant starts from and ends in the scoped rest beside the generator register. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIClass.entails_trans ?_ (hin1 (V2 m ρ) c); unfold Pipeline.ΦA
    iintro ⟨Hp, -, Hr⟩
    isplitl [Hr]; · iexact Hr
    iexact Hp
  hout c := by
    rw [Pipeline.ownSems0_none]
    refine BIClass.entails_trans (hout1 (V2 m ρ) c) ?_; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's three segments in order: the host conversions from the launch contents, then a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
/-- @main is the run of the segments: the program as a chain of its items, then the segments' run against that chain
    by the kernel's definitional check. -/
theorem main_run (c : Dev nD) : main (F := F) c = Pipeline.Seg.run (segs m ρ) := (main_chain c).trans (by chain_rfl)

set_option backward.isDefEq.respectTransparency.types false in
/-- The run: from any memory with zero counters, every weakly fair execution of @main on the TensorCores terminates,
    nothing faulting, and every final state has the output array at what the second pipeline's write-backs leave and
    the argument arrays as launched. -/
theorem run_all : θ_run defs (onTc (τ := τ) (main (F := F))) ⟨m, fun _ => 0, ρ⟩ (fun r => ∀ c : Dev nD,
      r.2.mem ((c.tc : Thread nD τ).loc main_v4) = (dat1 (V2 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v4 (by decide))).trans (W3_arr m ρ c 3),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c)⟩)

end Cert.KernelIdeal.Hand

end
-- ==== Proof.KIR1Pieces.lean ====
/-
  Region 1: what each case of the body leaves, as values. Every store of the body covers its buffer whole, so what a
  case leaves in a buffer is the payload of its last store there, and a load after a store reads that store's payload.
  With m, l, a the contents of the three scratch buffers on entry, q, k, v the three input blocks and (qi, ki) the
  query and key tile: folding a tile in leaves the new running maximum, the new running sum and the new accumulator
  as the body computes them from (q, k, m), (q, k, m, l) and (v, q, k, m, a); a reset first replaces m, l, a by
  −∞, 0, 0; the final step leaves accumulator / sum in the output block.
-/
import proofs.«120868_j4587025072851_2_alg».proof.Proof.KIRegion1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

/-! ## Folding a tile in (no reset, no final step) -/

theorem sout1_B_0_eq (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x128 .f32) (harg9 : arg9.IsWhole) (hc0 : ¬cond1_0 i) (hc1 : cond1_1 i) (hc2 : ¬cond1_2 i)
    (x0 x1 x2 : Vec F S1x512x128 .bf16) (xs0 xs1 : Vec F S512x1 .f32) (xs2 : Vec F S512x128 .f32) :
    sout1_B_0 c i arg3 harg3 arg4 harg4 arg5 harg5 arg6 harg6 arg7 harg7 arg8 harg8 arg9 harg9 hc0 hc1 hc2 x0 x1 x2 xs0 xs1 xs2 = k1_pay5 (k1_pay9 (BitVec.ofNat 32 (i 1).val) (BitVec.ofNat 32 (i 2).val) x0 x1 xs0) := by
  unfold sout1_B_0
  rw [View.read_writes_eq_canon _ _ _ (scover1_B_0 c i arg3 harg3 arg4 harg4 arg5 harg5 arg6 harg6 arg7 harg7 arg8 harg8 arg9 harg9 hc0 hc1 hc2 x0 x1 x2 xs0 xs1 xs2)]
  unfold kernelRun1_B
  dsimp only
  sl_unfold_words
  simp only [View.canon_unit_zero (S := S512x1) hz2, View.canon_unit_zero (S := S512x128) hz2, View.canon_unit_zero (S := S1x512x128) hz3,
    View.canon_cons_unit_zero (S := S512x1) hz2, View.canon_cons_unit_zero (S := S512x128) hz2, View.canon_cons_unit_zero (S := S1x512x128) hz3,
    View.readCov_unit_zero (S := S512x1) _ hz2, View.readCov_unit_zero (S := S512x128) _ hz2, View.readCov_unit_zero (S := S1x512x128) _ hz3, View.readAt_eq_ld,
    harg3.read_unread, harg4.read_unread, harg5.read_unread, harg6.read_unread, harg7.read_unread, harg8.read_unread, harg9.read_unread,
    View.ld_unit_zero (S := S1x512x128) hz3, View.ld_unit_zero (S := S512x1) hz2, View.ld_unit_zero (S := S512x128) hz2]

theorem sout1_B_1_eq (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x128 .f32) (harg9 : arg9.IsWhole) (hc0 : ¬cond1_0 i) (hc1 : cond1_1 i) (hc2 : ¬cond1_2 i)
    (x0 x1 x2 : Vec F S1x512x128 .bf16) (xs0 xs1 : Vec F S512x1 .f32) (xs2 : Vec F S512x128 .f32) :
    sout1_B_1 c i arg3 harg3 arg4 harg4 arg5 harg5 arg6 harg6 arg7 harg7 arg8 harg8 arg9 harg9 hc0 hc1 hc2 x0 x1 x2 xs0 xs1 xs2 = k1_pay12 (BitVec.ofNat 32 (i 1).val) (BitVec.ofNat 32 (i 2).val) x0 x1 xs0 xs1 := by
  unfold sout1_B_1
  rw [View.read_writes_eq_canon _ _ _ (scover1_B_1 c i arg3 harg3 arg4 harg4 arg5 harg5 arg6 harg6 arg7 harg7 arg8 harg8 arg9 harg9 hc0 hc1 hc2 x0 x1 x2 xs0 xs1 xs2)]
  unfold kernelRun1_B
  dsimp only
  sl_unfold_words
  simp only [View.canon_unit_zero (S := S512x1) hz2, View.canon_unit_zero (S := S512x128) hz2, View.canon_unit_zero (S := S1x512x128) hz3,
    View.canon_cons_unit_zero (S := S512x1) hz2, View.canon_cons_unit_zero (S := S512x128) hz2, View.canon_cons_unit_zero (S := S1x512x128) hz3,
    View.readCov_unit_zero (S := S512x1) _ hz2, View.readCov_unit_zero (S := S512x128) _ hz2, View.readCov_unit_zero (S := S1x512x128) _ hz3, View.readAt_eq_ld,
    harg3.read_unread, harg4.read_unread, harg5.read_unread, harg6.read_unread, harg7.read_unread, harg8.read_unread, harg9.read_unread,
    View.ld_unit_zero (S := S1x512x128) hz3, View.ld_unit_zero (S := S512x1) hz2, View.ld_unit_zero (S := S512x128) hz2]

theorem sout1_B_2_eq (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x128 .f32) (harg9 : arg9.IsWhole) (hc0 : ¬cond1_0 i) (hc1 : cond1_1 i) (hc2 : ¬cond1_2 i)
    (x0 x1 x2 : Vec F S1x512x128 .bf16) (xs0 xs1 : Vec F S512x1 .f32) (xs2 : Vec F S512x128 .f32) :
    sout1_B_2 c i arg3 harg3 arg4 harg4 arg5 harg5 arg6 harg6 arg7 harg7 arg8 harg8 arg9 harg9 hc0 hc1 hc2 x0 x1 x2 xs0 xs1 xs2 = k1_pay4 (k1_pay7 x2) (k1_pay10 (BitVec.ofNat 32 (i 1).val) (BitVec.ofNat 32 (i 2).val) x0 x1 xs0) (k1_pay11 (BitVec.ofNat 32 (i 1).val) (BitVec.ofNat 32 (i 2).val) x0 x1 xs0) xs2 := by
  unfold sout1_B_2
  rw [View.read_writes_eq_canon _ _ _ (scover1_B_2 c i arg3 harg3 arg4 harg4 arg5 harg5 arg6 harg6 arg7 harg7 arg8 harg8 arg9 harg9 hc0 hc1 hc2 x0 x1 x2 xs0 xs1 xs2)]
  unfold kernelRun1_B
  dsimp only
  sl_unfold_words
  simp only [View.canon_unit_zero (S := S512x1) hz2, View.canon_unit_zero (S := S512x128) hz2, View.canon_unit_zero (S := S1x512x128) hz3,
    View.canon_cons_unit_zero (S := S512x1) hz2, View.canon_cons_unit_zero (S := S512x128) hz2, View.canon_cons_unit_zero (S := S1x512x128) hz3,
    View.readCov_unit_zero (S := S512x1) _ hz2, View.readCov_unit_zero (S := S512x128) _ hz2, View.readCov_unit_zero (S := S1x512x128) _ hz3, View.readAt_eq_ld,
    harg3.read_unread, harg4.read_unread, harg5.read_unread, harg6.read_unread, harg7.read_unread, harg8.read_unread, harg9.read_unread,
    View.ld_unit_zero (S := S1x512x128) hz3, View.ld_unit_zero (S := S512x1) hz2, View.ld_unit_zero (S := S512x128) hz2]

/-! ## Reset, then fold the first tile in -/

theorem sout1_A_0_eq (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x128 .f32) (harg9 : arg9.IsWhole) (hc0 : cond1_0 i) (hc1 : cond1_1 i) (hc2 : ¬cond1_2 i)
    (x0 x1 x2 : Vec F S1x512x128 .bf16) :
    sout1_A_0 c i arg3 harg3 arg4 harg4 arg5 harg5 arg6 harg6 arg7 harg7 arg8 harg8 arg9 harg9 hc0 hc1 hc2 x0 x1 x2 = k1_pay5 (k1_pay9 (BitVec.ofNat 32 (i 1).val) (BitVec.ofNat 32 (i 2).val) x0 x1 k1_pay1) := by
  unfold sout1_A_0
  rw [View.read_writes_eq_canon _ _ _ (scover1_A_0 c i arg3 harg3 arg4 harg4 arg5 harg5 arg6 harg6 arg7 harg7 arg8 harg8 arg9 harg9 hc0 hc1 hc2 x0 x1 x2)]
  unfold kernelRun1_A
  dsimp only
  sl_unfold_words
  simp only [View.canon_unit_zero (S := S512x1) hz2, View.canon_unit_zero (S := S512x128) hz2, View.canon_unit_zero (S := S1x512x128) hz3,
    View.canon_cons_unit_zero (S := S512x1) hz2, View.canon_cons_unit_zero (S := S512x128) hz2, View.canon_cons_unit_zero (S := S1x512x128) hz3,
    View.readCov_unit_zero (S := S512x1) _ hz2, View.readCov_unit_zero (S := S512x128) _ hz2, View.readCov_unit_zero (S := S1x512x128) _ hz3, View.readAt_eq_ld,
    harg3.read_unread, harg4.read_unread, harg5.read_unread, harg6.read_unread, harg7.read_unread, harg8.read_unread, harg9.read_unread,
    View.ld_unit_zero (S := S1x512x128) hz3, View.ld_unit_zero (S := S512x1) hz2, View.ld_unit_zero (S := S512x128) hz2]

theorem sout1_A_1_eq (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x128 .f32) (harg9 : arg9.IsWhole) (hc0 : cond1_0 i) (hc1 : cond1_1 i) (hc2 : ¬cond1_2 i)
    (x0 x1 x2 : Vec F S1x512x128 .bf16) :
    sout1_A_1 c i arg3 harg3 arg4 harg4 arg5 harg5 arg6 harg6 arg7 harg7 arg8 harg8 arg9 harg9 hc0 hc1 hc2 x0 x1 x2 = k1_pay12 (BitVec.ofNat 32 (i 1).val) (BitVec.ofNat 32 (i 2).val) x0 x1 k1_pay1 k1_pay2 := by
  unfold sout1_A_1
  rw [View.read_writes_eq_canon _ _ _ (scover1_A_1 c i arg3 harg3 arg4 harg4 arg5 harg5 arg6 harg6 arg7 harg7 arg8 harg8 arg9 harg9 hc0 hc1 hc2 x0 x1 x2)]
  unfold kernelRun1_A
  dsimp only
  sl_unfold_words
  simp only [View.canon_unit_zero (S := S512x1) hz2, View.canon_unit_zero (S := S512x128) hz2, View.canon_unit_zero (S := S1x512x128) hz3,
    View.canon_cons_unit_zero (S := S512x1) hz2, View.canon_cons_unit_zero (S := S512x128) hz2, View.canon_cons_unit_zero (S := S1x512x128) hz3,
    View.readCov_unit_zero (S := S512x1) _ hz2, View.readCov_unit_zero (S := S512x128) _ hz2, View.readCov_unit_zero (S := S1x512x128) _ hz3, View.readAt_eq_ld,
    harg3.read_unread, harg4.read_unread, harg5.read_unread, harg6.read_unread, harg7.read_unread, harg8.read_unread, harg9.read_unread,
    View.ld_unit_zero (S := S1x512x128) hz3, View.ld_unit_zero (S := S512x1) hz2, View.ld_unit_zero (S := S512x128) hz2]

theorem sout1_A_2_eq (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x128 .f32) (harg9 : arg9.IsWhole) (hc0 : cond1_0 i) (hc1 : cond1_1 i) (hc2 : ¬cond1_2 i)
    (x0 x1 x2 : Vec F S1x512x128 .bf16) :
    sout1_A_2 c i arg3 harg3 arg4 harg4 arg5 harg5 arg6 harg6 arg7 harg7 arg8 harg8 arg9 harg9 hc0 hc1 hc2 x0 x1 x2 = k1_pay4 (k1_pay7 x2) (k1_pay10 (BitVec.ofNat 32 (i 1).val) (BitVec.ofNat 32 (i 2).val) x0 x1 k1_pay1) (k1_pay11 (BitVec.ofNat 32 (i 1).val) (BitVec.ofNat 32 (i 2).val) x0 x1 k1_pay1) k1_pay3 := by
  unfold sout1_A_2
  rw [View.read_writes_eq_canon _ _ _ (scover1_A_2 c i arg3 harg3 arg4 harg4 arg5 harg5 arg6 harg6 arg7 harg7 arg8 harg8 arg9 harg9 hc0 hc1 hc2 x0 x1 x2)]
  unfold kernelRun1_A
  dsimp only
  sl_unfold_words
  simp only [View.canon_unit_zero (S := S512x1) hz2, View.canon_unit_zero (S := S512x128) hz2, View.canon_unit_zero (S := S1x512x128) hz3,
    View.canon_cons_unit_zero (S := S512x1) hz2, View.canon_cons_unit_zero (S := S512x128) hz2, View.canon_cons_unit_zero (S := S1x512x128) hz3,
    View.readCov_unit_zero (S := S512x1) _ hz2, View.readCov_unit_zero (S := S512x128) _ hz2, View.readCov_unit_zero (S := S1x512x128) _ hz3, View.readAt_eq_ld,
    harg3.read_unread, harg4.read_unread, harg5.read_unread, harg6.read_unread, harg7.read_unread, harg8.read_unread, harg9.read_unread,
    View.ld_unit_zero (S := S1x512x128) hz3, View.ld_unit_zero (S := S512x1) hz2, View.ld_unit_zero (S := S512x128) hz2]

/-! ## Fold the last tile in, then the final step -/

theorem sout1_D_0_eq (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x128 .f32) (harg9 : arg9.IsWhole) (hc0 : ¬cond1_0 i) (hc1 : cond1_1 i) (hc2 : cond1_2 i)
    (x0 x1 x2 : Vec F S1x512x128 .bf16) (xs0 xs1 : Vec F S512x1 .f32) (xs2 : Vec F S512x128 .f32) :
    sout1_D_0 c i arg3 harg3 arg4 harg4 arg5 harg5 arg6 harg6 arg7 harg7 arg8 harg8 arg9 harg9 hc0 hc1 hc2 x0 x1 x2 xs0 xs1 xs2 = k1_pay5 (k1_pay9 (BitVec.ofNat 32 (i 1).val) (BitVec.ofNat 32 (i 2).val) x0 x1 xs0) := by
  unfold sout1_D_0
  rw [View.read_writes_eq_canon _ _ _ (scover1_D_0 c i arg3 harg3 arg4 harg4 arg5 harg5 arg6 harg6 arg7 harg7 arg8 harg8 arg9 harg9 hc0 hc1 hc2 x0 x1 x2 xs0 xs1 xs2)]
  unfold kernelRun1_D
  dsimp only
  sl_unfold_words
  simp only [View.canon_unit_zero (S := S512x1) hz2, View.canon_unit_zero (S := S512x128) hz2, View.canon_unit_zero (S := S1x512x128) hz3,
    View.canon_cons_unit_zero (S := S512x1) hz2, View.canon_cons_unit_zero (S := S512x128) hz2, View.canon_cons_unit_zero (S := S1x512x128) hz3,
    View.readCov_unit_zero (S := S512x1) _ hz2, View.readCov_unit_zero (S := S512x128) _ hz2, View.readCov_unit_zero (S := S1x512x128) _ hz3, View.readAt_eq_ld,
    harg3.read_unread, harg4.read_unread, harg5.read_unread, harg6.read_unread, harg7.read_unread, harg8.read_unread, harg9.read_unread,
    View.ld_unit_zero (S := S1x512x128) hz3, View.ld_unit_zero (S := S512x1) hz2, View.ld_unit_zero (S := S512x128) hz2]

theorem sout1_D_1_eq (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x128 .f32) (harg9 : arg9.IsWhole) (hc0 : ¬cond1_0 i) (hc1 : cond1_1 i) (hc2 : cond1_2 i)
    (x0 x1 x2 : Vec F S1x512x128 .bf16) (xs0 xs1 : Vec F S512x1 .f32) (xs2 : Vec F S512x128 .f32) :
    sout1_D_1 c i arg3 harg3 arg4 harg4 arg5 harg5 arg6 harg6 arg7 harg7 arg8 harg8 arg9 harg9 hc0 hc1 hc2 x0 x1 x2 xs0 xs1 xs2 = k1_pay12 (BitVec.ofNat 32 (i 1).val) (BitVec.ofNat 32 (i 2).val) x0 x1 xs0 xs1 := by
  unfold sout1_D_1
  rw [View.read_writes_eq_canon _ _ _ (scover1_D_1 c i arg3 harg3 arg4 harg4 arg5 harg5 arg6 harg6 arg7 harg7 arg8 harg8 arg9 harg9 hc0 hc1 hc2 x0 x1 x2 xs0 xs1 xs2)]
  unfold kernelRun1_D
  dsimp only
  sl_unfold_words
  simp only [View.canon_unit_zero (S := S512x1) hz2, View.canon_unit_zero (S := S512x128) hz2, View.canon_unit_zero (S := S1x512x128) hz3,
    View.canon_cons_unit_zero (S := S512x1) hz2, View.canon_cons_unit_zero (S := S512x128) hz2, View.canon_cons_unit_zero (S := S1x512x128) hz3,
    View.readCov_unit_zero (S := S512x1) _ hz2, View.readCov_unit_zero (S := S512x128) _ hz2, View.readCov_unit_zero (S := S1x512x128) _ hz3, View.readAt_eq_ld,
    harg3.read_unread, harg4.read_unread, harg5.read_unread, harg6.read_unread, harg7.read_unread, harg8.read_unread, harg9.read_unread,
    View.ld_unit_zero (S := S1x512x128) hz3, View.ld_unit_zero (S := S512x1) hz2, View.ld_unit_zero (S := S512x128) hz2]

theorem sout1_D_2_eq (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x128 .f32) (harg9 : arg9.IsWhole) (hc0 : ¬cond1_0 i) (hc1 : cond1_1 i) (hc2 : cond1_2 i)
    (x0 x1 x2 : Vec F S1x512x128 .bf16) (xs0 xs1 : Vec F S512x1 .f32) (xs2 : Vec F S512x128 .f32) :
    sout1_D_2 c i arg3 harg3 arg4 harg4 arg5 harg5 arg6 harg6 arg7 harg7 arg8 harg8 arg9 harg9 hc0 hc1 hc2 x0 x1 x2 xs0 xs1 xs2 = k1_pay4 (k1_pay7 x2) (k1_pay10 (BitVec.ofNat 32 (i 1).val) (BitVec.ofNat 32 (i 2).val) x0 x1 xs0) (k1_pay11 (BitVec.ofNat 32 (i 1).val) (BitVec.ofNat 32 (i 2).val) x0 x1 xs0) xs2 := by
  unfold sout1_D_2
  rw [View.read_writes_eq_canon _ _ _ (scover1_D_2 c i arg3 harg3 arg4 harg4 arg5 harg5 arg6 harg6 arg7 harg7 arg8 harg8 arg9 harg9 hc0 hc1 hc2 x0 x1 x2 xs0 xs1 xs2)]
  unfold kernelRun1_D
  dsimp only
  sl_unfold_words
  simp only [View.canon_unit_zero (S := S512x1) hz2, View.canon_unit_zero (S := S512x128) hz2, View.canon_unit_zero (S := S1x512x128) hz3,
    View.canon_cons_unit_zero (S := S512x1) hz2, View.canon_cons_unit_zero (S := S512x128) hz2, View.canon_cons_unit_zero (S := S1x512x128) hz3,
    View.readCov_unit_zero (S := S512x1) _ hz2, View.readCov_unit_zero (S := S512x128) _ hz2, View.readCov_unit_zero (S := S1x512x128) _ hz3, View.readAt_eq_ld,
    harg3.read_unread, harg4.read_unread, harg5.read_unread, harg6.read_unread, harg7.read_unread, harg8.read_unread, harg9.read_unread,
    View.ld_unit_zero (S := S1x512x128) hz3, View.ld_unit_zero (S := S512x1) hz2, View.ld_unit_zero (S := S512x128) hz2]

theorem out1_D_3_eq (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x128 .f32) (harg9 : arg9.IsWhole) (hc0 : ¬cond1_0 i) (hc1 : cond1_1 i) (hc2 : cond1_2 i)
    (x0 x1 x2 : Vec F S1x512x128 .bf16) (xs0 xs1 : Vec F S512x1 .f32) (xs2 : Vec F S512x128 .f32) :
    out1_D_3 c i arg3 harg3 arg4 harg4 arg5 harg5 arg6 harg6 arg7 harg7 arg8 harg8 arg9 harg9 hc0 hc1 hc2 x0 x1 x2 xs0 xs1 xs2 = k1_pay6 (k1_pay4 (k1_pay7 x2) (k1_pay10 (BitVec.ofNat 32 (i 1).val) (BitVec.ofNat 32 (i 2).val) x0 x1 xs0) (k1_pay11 (BitVec.ofNat 32 (i 1).val) (BitVec.ofNat 32 (i 2).val) x0 x1 xs0) xs2) (k1_pay12 (BitVec.ofNat 32 (i 1).val) (BitVec.ofNat 32 (i 2).val) x0 x1 xs0 xs1) := by
  unfold out1_D_3
  rw [View.read_writes_eq_canon _ _ _ (cover1_D_3 c i arg3 harg3 arg4 harg4 arg5 harg5 arg6 harg6 arg7 harg7 arg8 harg8 arg9 harg9 hc0 hc1 hc2 x0 x1 x2 xs0 xs1 xs2)]
  unfold kernelRun1_D
  dsimp only
  sl_unfold_words
  simp only [View.canon_unit_zero (S := S512x1) hz2, View.canon_unit_zero (S := S512x128) hz2, View.canon_unit_zero (S := S1x512x128) hz3,
    View.canon_cons_unit_zero (S := S512x1) hz2, View.canon_cons_unit_zero (S := S512x128) hz2, View.canon_cons_unit_zero (S := S1x512x128) hz3,
    View.readCov_unit_zero (S := S512x1) _ hz2, View.readCov_unit_zero (S := S512x128) _ hz2, View.readCov_unit_zero (S := S1x512x128) _ hz3, View.readAt_eq_ld,
    harg3.read_unread, harg4.read_unread, harg5.read_unread, harg6.read_unread, harg7.read_unread, harg8.read_unread, harg9.read_unread,
    View.ld_unit_zero (S := S1x512x128) hz3, View.ld_unit_zero (S := S512x1) hz2, View.ld_unit_zero (S := S512x128) hz2]

/-! ## The final step alone -/

theorem out1_E_3_eq (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x128 .f32) (harg9 : arg9.IsWhole) (hc0 : ¬cond1_0 i) (hc1 : ¬cond1_1 i) (hc2 : cond1_2 i)
    (x0 x1 x2 : Vec F S1x512x128 .bf16) (xs0 xs1 : Vec F S512x1 .f32) (xs2 : Vec F S512x128 .f32) :
    out1_E_3 c i arg3 harg3 arg4 harg4 arg5 harg5 arg6 harg6 arg7 harg7 arg8 harg8 arg9 harg9 hc0 hc1 hc2 x0 x1 x2 xs0 xs1 xs2 = k1_pay6 xs2 xs1 := by
  unfold out1_E_3
  rw [View.read_writes_eq_canon _ _ _ (cover1_E_3 c i arg3 harg3 arg4 harg4 arg5 harg5 arg6 harg6 arg7 harg7 arg8 harg8 arg9 harg9 hc0 hc1 hc2 x0 x1 x2 xs0 xs1 xs2)]
  unfold kernelRun1_E
  dsimp only
  sl_unfold_words
  simp only [View.canon_unit_zero (S := S512x1) hz2, View.canon_unit_zero (S := S512x128) hz2, View.canon_unit_zero (S := S1x512x128) hz3,
    View.canon_cons_unit_zero (S := S512x1) hz2, View.canon_cons_unit_zero (S := S512x128) hz2, View.canon_cons_unit_zero (S := S1x512x128) hz3,
    View.readCov_unit_zero (S := S512x1) _ hz2, View.readCov_unit_zero (S := S512x128) _ hz2, View.readCov_unit_zero (S := S1x512x128) _ hz3, View.readAt_eq_ld,
    harg3.read_unread, harg4.read_unread, harg5.read_unread, harg6.read_unread, harg7.read_unread, harg8.read_unread, harg9.read_unread,
    View.ld_unit_zero (S := S1x512x128) hz3, View.ld_unit_zero (S := S512x1) hz2, View.ld_unit_zero (S := S512x128) hz2]

end Cert.KernelIdeal.Hand

end
-- ==== Proof.LibOnlineSoftmax.lean ====
import Idealize.ShloMosaic.PureOps.Ideal

/-!
# The online softmax recurrence equals the two-pass softmax

A softmax-weighted average over a long row of scores can be computed in one sweep over
tiles of the row, carrying three quantities: the running maximum `m` of the scores seen so
far, the running normaliser `l = ∑ exp (score - m)`, and the running weighted sum
`acc = ∑ exp (score - m) · value`. When a new tile raises the maximum from `m` to `m'`,
the carried sums are rescaled by `exp (m - m')`, because
`exp (x - m) · exp (m - m') = exp (x - m')`. After the last tile, `acc / l` is the
softmax-weighted average that the two-pass formula (first the global maximum `M`, then
`∑ exp (score - M) / Z · value` with `Z = ∑ exp (score - M)`) computes.

Everything is stated on the extended reals: a score may be `⊥` (a masked position, weight
`exp ⊥ = 0`) but never `⊤`; the values are finite. Tiles that are entirely masked change
nothing, so the recurrence may stop before them.
-/

noncomputable section

namespace Cert.OnlineSoftmax

open Idealize.ShloMosaic
open scoped BigOperators

variable {C H : Type} [Fintype C]

/-- The state carried by the recurrence: running maximum, running normaliser, running
    weighted sums (one per output column). -/
structure St (H : Type) where
  m : EReal
  l : EReal
  acc : H → EReal

/-- The state before any tile: maximum `-∞`, empty sums. -/
def St.init : St H := ⟨⊥, 0, fun _ => 0⟩

/-- One tile: scores `s` over the tile's columns, value rows `v`. The new maximum is the old
    one joined with the tile's; the old sums are rescaled by `exp (m - m')` and the tile's
    terms, taken relative to the new maximum, are added. -/
def step (st : St H) (s : C → EReal) (v : C → H → EReal) : St H :=
  let m' := max st.m (Finset.univ.sup s)
  let a := Ideal.exp (st.m - m')
  ⟨m', a * st.l + ∑ c, Ideal.exp (s c - m'),
    fun h => a * st.acc h + ∑ c, Ideal.exp (s c - m') * v c h⟩

/-- The recurrence over the first `n` tiles. -/
def run (s : ℕ → C → EReal) (v : ℕ → C → H → EReal) : ℕ → St H
  | 0 => St.init
  | n + 1 => step (run s v n) (s n) (v n)

/-- The maximum of all scores in the first `N` tiles. -/
def gmax (s : ℕ → C → EReal) (N : ℕ) : EReal :=
  (Finset.range N).sup (fun t => Finset.univ.sup (s t))

/-- The unnormalised softmax weight of position `(t, c)`, relative to the maximum over the
    first `N` tiles. -/
def wt (s : ℕ → C → EReal) (N : ℕ) (t : ℕ) (c : C) : EReal :=
  Ideal.exp (s t c - gmax s N)

/-- The softmax normaliser over the first `N` tiles. -/
def Zsum (s : ℕ → C → EReal) (N : ℕ) : EReal :=
  ∑ t ∈ Finset.range N, ∑ c, wt s N t c

variable {s : ℕ → C → EReal} {v : ℕ → C → H → EReal} {N T : ℕ}

/-- The running maximum after `n` tiles is the maximum of their scores. -/
theorem run_m (s : ℕ → C → EReal) (v : ℕ → C → H → EReal) (n : ℕ) :
    (run s v n).m = gmax s n := by
  induction n with
  | zero => simp [run, St.init, gmax]
  | succ n ih =>
    show max (run s v n).m (Finset.univ.sup (s n)) = _
    rw [ih, gmax, gmax, Finset.range_add_one, Finset.sup_insert, max_comm]

/-- With no score `+∞` and a finite score in the first tile, the maximum is a real number. -/
theorem gmax_ne_top (hs : ∀ t c, s t c ≠ ⊤) (n : ℕ) : gmax s n ≠ ⊤ := by
  refine ne_of_lt ?_
  rw [gmax, Finset.sup_lt_iff bot_lt_top]
  intro t _
  rw [Finset.sup_lt_iff bot_lt_top]
  intro c _
  exact lt_top_iff_ne_top.2 (hs t c)

/-- A finite score in the first tile keeps the maximum above `-∞`. -/
theorem gmax_ne_bot (h0 : ∃ c, s 0 c ≠ ⊥) {n : ℕ} (hn : 0 < n) : gmax s n ≠ ⊥ := by
  obtain ⟨c, hc⟩ := h0
  intro hbot
  have h1 : s 0 c ≤ Finset.univ.sup (s 0) := Finset.le_sup (f := s 0) (Finset.mem_univ c)
  have h2 : Finset.univ.sup (s 0) ≤ gmax s n :=
    Finset.le_sup (f := fun t => Finset.univ.sup (s t)) (Finset.mem_range.2 hn)
  exact hc (le_bot_iff.1 (hbot ▸ h1.trans h2))

/-- Tiles from `T` on that are entirely masked do not change the maximum. -/
theorem gmax_mask (hTN : T ≤ N) (hmask : ∀ t, T ≤ t → ∀ c, s t c = ⊥) :
    gmax s N = gmax s T := by
  refine le_antisymm (Finset.sup_le fun t _ => ?_) (Finset.sup_mono (Finset.range_subset_range.2 hTN))
  by_cases ht : t < T
  · exact Finset.le_sup (f := fun t => Finset.univ.sup (s t)) (Finset.mem_range.2 ht)
  · have : Finset.univ.sup (s t) = ⊥ := by
      refine le_bot_iff.1 (Finset.sup_le fun c _ => ?_)
      rw [hmask t (not_lt.1 ht) c]
    rw [this]
    exact bot_le

/-- The running maximum when the recurrence stops is the global maximum `M`. -/
theorem run_m_eq (hTN : T ≤ N) (hmask : ∀ t, T ≤ t → ∀ c, s t c = ⊥) :
    (run s v T).m = gmax s N := by
  rw [run_m, gmax_mask hTN hmask]

/-! ### Real-valued bookkeeping

Under the hypotheses every quantity of the recurrence is a real number; the algebra is done
in `ℝ` and read back into the extended reals. -/

/-- A finite sum of real numbers, read in the extended reals, is the sum of the readings. -/
theorem coe_sum {ι : Type} (S : Finset ι) (f : ι → ℝ) :
    ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- `exp (x - m)` as a real number, for a real shift `m`: `0` at `x = -∞`. -/
def expR (x : EReal) (m : ℝ) : ℝ := (Ideal.exp (x - (m : EReal))).toReal

/-- For `x < +∞` and real `m`, `exp (x - m)` is the real number `expR x m`. -/
theorem exp_sub_coe {x : EReal} (hx : x ≠ ⊤) (m : ℝ) :
    Ideal.exp (x - (m : EReal)) = ((expR x m : ℝ) : EReal) := by
  induction x with
  | bot => simp [expR, EReal.bot_sub]
  | coe r => rw [expR, ← EReal.coe_sub, Ideal.exp_coe, EReal.toReal_coe]
  | top => exact absurd rfl hx

/-- A masked position has weight `0`. -/
theorem expR_bot (m : ℝ) : expR ⊥ m = 0 := by simp [expR, EReal.bot_sub]

/-- A position attaining the shift has weight `exp 0 = 1`. -/
theorem expR_self (m : ℝ) : expR (m : EReal) m = 1 := by
  rw [expR, ← EReal.coe_sub, sub_self, Ideal.exp_coe, Real.exp_zero, EReal.toReal_coe]

/-- Weights are nonnegative. -/
theorem expR_nonneg {x : EReal} (hx : x ≠ ⊤) (m : ℝ) : 0 ≤ expR x m := by
  induction x with
  | bot => rw [expR_bot]
  | coe r =>
    rw [expR, ← EReal.coe_sub, Ideal.exp_coe, EReal.toReal_coe]
    exact (Real.exp_pos _).le
  | top => exact absurd rfl hx

/-- Changing the shift from `m` to `m'` rescales a weight by `exp (m - m')`:
    `exp (m - m') · exp (x - m) = exp (x - m')`. -/
theorem exp_mul_expR {x : EReal} (hx : x ≠ ⊤) (m m' : ℝ) :
    Real.exp (m - m') * expR x m = expR x m' := by
  induction x with
  | bot => rw [expR_bot, expR_bot, mul_zero]
  | coe r =>
    simp only [expR, ← EReal.coe_sub, Ideal.exp_coe, EReal.toReal_coe]
    rw [← Real.exp_add]
    congr 1
    ring
  | top => exact absurd rfl hx

/-- One step from a state whose sums are real numbers `L`, `A h`, whose rescaling factor is
    the real `a` and whose new maximum is the real `m'`: the new sums are real, given by the
    same formula in `ℝ`. -/
theorem step_coe (st : St H) {a L m' : ℝ} {A : H → ℝ} (sc : C → EReal) (vc : C → H → EReal)
    (hsc : ∀ c, sc c ≠ ⊤) (hvc : ∀ c h, vc c h ≠ ⊤ ∧ vc c h ≠ ⊥)
    (hm' : max st.m (Finset.univ.sup sc) = (m' : EReal))
    (ha : Ideal.exp (st.m - (m' : EReal)) = (a : EReal))
    (hl : st.l = (L : EReal)) (hacc : ∀ h, st.acc h = (A h : EReal)) :
    (step st sc vc).l = ((a * L + ∑ c, expR (sc c) m' : ℝ) : EReal) ∧
    ∀ h, (step st sc vc).acc h
      = ((a * A h + ∑ c, expR (sc c) m' * (vc c h).toReal : ℝ) : EReal) := by
  constructor
  · show Ideal.exp (st.m - max st.m (Finset.univ.sup sc)) * st.l
      + ∑ c, Ideal.exp (sc c - max st.m (Finset.univ.sup sc)) = _
    rw [hm', ha, hl, EReal.coe_add, EReal.coe_mul, coe_sum]
    congr 1
    exact Finset.sum_congr rfl fun c _ => exp_sub_coe (hsc c) m'
  · intro h
    show Ideal.exp (st.m - max st.m (Finset.univ.sup sc)) * st.acc h
      + ∑ c, Ideal.exp (sc c - max st.m (Finset.univ.sup sc)) * vc c h = _
    rw [hm', ha, hacc, EReal.coe_add, EReal.coe_mul, coe_sum]
    congr 1
    refine Finset.sum_congr rfl fun c _ => ?_
    rw [EReal.coe_mul, exp_sub_coe (hsc c) m', EReal.coe_toReal (hvc c h).1 (hvc c h).2]

/-- **The invariant.** After `n ≥ 1` tiles the normaliser and the weighted sums are the real
    sums over the tiles seen so far, taken relative to the maximum seen so far. -/
theorem run_invariant (hs : ∀ t c, s t c ≠ ⊤) (h0 : ∃ c, s 0 c ≠ ⊥)
    (hv : ∀ t c h, v t c h ≠ ⊤ ∧ v t c h ≠ ⊥) {n : ℕ} (hn : 0 < n) :
    (run s v n).l
      = ((∑ t ∈ Finset.range n, ∑ c, expR (s t c) (gmax s n).toReal : ℝ) : EReal) ∧
    ∀ h, (run s v n).acc h
      = ((∑ t ∈ Finset.range n, ∑ c, expR (s t c) (gmax s n).toReal * (v t c h).toReal : ℝ)
          : EReal) := by
  induction n, hn using Nat.le_induction with
  | base =>
    -- the first tile: the carried sums are empty and their factor is `exp (-∞) = 0`
    have hm' : max (St.init (H := H)).m (Finset.univ.sup (s 0))
        = (((gmax s 1).toReal : ℝ) : EReal) := by
      rw [EReal.coe_toReal (gmax_ne_top hs 1) (gmax_ne_bot h0 one_pos)]
      exact run_m s v 1
    obtain ⟨h1, h2⟩ := step_coe (St.init (H := H)) (a := 0) (L := 0) (A := fun _ => 0)
      (s 0) (v 0) (hs 0) (hv 0) hm' (by simp [St.init, EReal.bot_sub]) rfl (fun _ => rfl)
    refine ⟨?_, fun h => ?_⟩
    · rw [show run s v (0 + 1) = step St.init (s 0) (v 0) from rfl, h1]
      simp
    · rw [show run s v (0 + 1) = step St.init (s 0) (v 0) from rfl, h2]
      simp
  | succ n hn ih =>
    have hm : (run s v n).m = (((gmax s n).toReal : ℝ) : EReal) := by
      rw [run_m, EReal.coe_toReal (gmax_ne_top hs n) (gmax_ne_bot h0 hn)]
    have hm' : max (run s v n).m (Finset.univ.sup (s n))
        = (((gmax s (n + 1)).toReal : ℝ) : EReal) := by
      rw [EReal.coe_toReal (gmax_ne_top hs (n + 1)) (gmax_ne_bot h0 n.succ_pos)]
      exact run_m s v (n + 1)
    have ha : Ideal.exp ((run s v n).m - (((gmax s (n + 1)).toReal : ℝ) : EReal))
        = ((Real.exp ((gmax s n).toReal - (gmax s (n + 1)).toReal) : ℝ) : EReal) := by
      rw [hm, ← EReal.coe_sub, Ideal.exp_coe]
    obtain ⟨h1, h2⟩ := step_coe (run s v n) (s n) (v n) (hs n) (hv n) hm' ha ih.1 ih.2
    refine ⟨?_, fun h => ?_⟩
    · rw [show run s v (n + 1) = step (run s v n) (s n) (v n) from rfl, h1]
      refine congrArg Real.toEReal ?_
      rw [Finset.sum_range_succ, Finset.mul_sum]
      congr 1
      refine Finset.sum_congr rfl fun t _ => ?_
      rw [Finset.mul_sum]
      exact Finset.sum_congr rfl fun c _ => exp_mul_expR (hs t c) _ _
    · rw [show run s v (n + 1) = step (run s v n) (s n) (v n) from rfl, h2]
      refine congrArg Real.toEReal ?_
      rw [Finset.sum_range_succ, Finset.mul_sum]
      congr 1
      refine Finset.sum_congr rfl fun t _ => ?_
      rw [Finset.mul_sum]
      refine Finset.sum_congr rfl fun c _ => ?_
      rw [← mul_assoc, exp_mul_expR (hs t c)]

/-! ### The two-pass side in real numbers -/

/-- A softmax weight is the real number `expR`. -/
theorem wt_eq_coe (hN : 0 < N) (hs : ∀ t c, s t c ≠ ⊤) (h0 : ∃ c, s 0 c ≠ ⊥) (t : ℕ) (c : C) :
    wt s N t c = ((expR (s t c) (gmax s N).toReal : ℝ) : EReal) := by
  rw [wt, ← exp_sub_coe (hs t c), EReal.coe_toReal (gmax_ne_top hs N) (gmax_ne_bot h0 hN)]

/-- The normaliser as a real sum. -/
theorem Zsum_eq_coe (hN : 0 < N) (hs : ∀ t c, s t c ≠ ⊤) (h0 : ∃ c, s 0 c ≠ ⊥) :
    Zsum s N = ((∑ t ∈ Finset.range N, ∑ c, expR (s t c) (gmax s N).toReal : ℝ) : EReal) := by
  rw [Zsum, coe_sum]
  refine Finset.sum_congr rfl fun t _ => ?_
  rw [coe_sum]
  exact Finset.sum_congr rfl fun c _ => wt_eq_coe hN hs h0 t c

/-- The unnormalised weighted sum as a real sum. -/
theorem wsum_eq_coe (hN : 0 < N) (hs : ∀ t c, s t c ≠ ⊤) (h0 : ∃ c, s 0 c ≠ ⊥)
    (hv : ∀ t c h, v t c h ≠ ⊤ ∧ v t c h ≠ ⊥) (h : H) :
    ∑ t ∈ Finset.range N, ∑ c, wt s N t c * v t c h
      = ((∑ t ∈ Finset.range N, ∑ c, expR (s t c) (gmax s N).toReal * (v t c h).toReal : ℝ)
          : EReal) := by
  rw [coe_sum]
  refine Finset.sum_congr rfl fun t _ => ?_
  rw [coe_sum]
  refine Finset.sum_congr rfl fun c _ => ?_
  rw [EReal.coe_mul, wt_eq_coe hN hs h0 t c, EReal.coe_toReal (hv t c h).1 (hv t c h).2]

/-- Entirely masked tiles contribute nothing to a weighted sum. -/
theorem sum_mask (hTN : T ≤ N) (hmask : ∀ t, T ≤ t → ∀ c, s t c = ⊥) (m : ℝ) (g : ℕ → C → ℝ) :
    ∑ t ∈ Finset.range N, ∑ c, expR (s t c) m * g t c
      = ∑ t ∈ Finset.range T, ∑ c, expR (s t c) m * g t c := by
  refine (Finset.sum_subset (Finset.range_subset_range.2 hTN) fun t _ ht => ?_).symm
  refine Finset.sum_eq_zero fun c _ => ?_
  rw [hmask t (not_lt.1 fun hlt => ht (Finset.mem_range.2 hlt)) c, expR_bot, zero_mul]

/-- The running normaliser when the recurrence stops is the two-pass normaliser `Z`. -/
theorem run_l_eq (hT : 0 < T) (hTN : T ≤ N) (hs : ∀ t c, s t c ≠ ⊤)
    (hmask : ∀ t, T ≤ t → ∀ c, s t c = ⊥) (h0 : ∃ c, s 0 c ≠ ⊥)
    (hv : ∀ t c h, v t c h ≠ ⊤ ∧ v t c h ≠ ⊥) :
    (run s v T).l = Zsum s N := by
  rw [(run_invariant hs h0 hv hT).1, Zsum_eq_coe (hT.trans_le hTN) hs h0, gmax_mask hTN hmask]
  refine congrArg Real.toEReal ?_
  simpa using (sum_mask hTN hmask (gmax s T).toReal fun _ _ => 1).symm

/-- The running weighted sum when the recurrence stops is the two-pass unnormalised sum. -/
theorem run_acc_eq (hT : 0 < T) (hTN : T ≤ N) (hs : ∀ t c, s t c ≠ ⊤)
    (hmask : ∀ t, T ≤ t → ∀ c, s t c = ⊥) (h0 : ∃ c, s 0 c ≠ ⊥)
    (hv : ∀ t c h, v t c h ≠ ⊤ ∧ v t c h ≠ ⊥) (h : H) :
    (run s v T).acc h = ∑ t ∈ Finset.range N, ∑ c, wt s N t c * v t c h := by
  rw [(run_invariant hs h0 hv hT).2 h, wsum_eq_coe (hT.trans_le hTN) hs h0 hv h,
    gmax_mask hTN hmask]
  exact congrArg Real.toEReal
    (sum_mask hTN hmask (gmax s T).toReal fun t c => (v t c h).toReal).symm

/-- The normaliser is a real number, at least `1`: a position attaining the maximum
    contributes `exp 0 = 1` and every other term is nonnegative. -/
theorem Zsum_real (hN : 0 < N) (hs : ∀ t c, s t c ≠ ⊤) (h0 : ∃ c, s 0 c ≠ ⊥) :
    ∃ z : ℝ, Zsum s N = (z : EReal) ∧ 1 ≤ z := by
  refine ⟨_, Zsum_eq_coe hN hs h0, ?_⟩
  -- a position `(t₀, c₀)` attaining the maximum
  obtain ⟨c, _⟩ := h0
  obtain ⟨t₀, ht₀, e₁⟩ := Finset.exists_mem_eq_sup (Finset.range N)
    ⟨0, Finset.mem_range.2 hN⟩ (fun t => Finset.univ.sup (s t))
  obtain ⟨c₀, _, e₂⟩ := Finset.exists_mem_eq_sup (Finset.univ : Finset C)
    ⟨c, Finset.mem_univ c⟩ (s t₀)
  have hmax : s t₀ c₀ = (((gmax s N).toReal : ℝ) : EReal) := by
    rw [EReal.coe_toReal (gmax_ne_top hs N) (gmax_ne_bot ⟨c, ‹_›⟩ hN), gmax, e₁, e₂]
  have h1 : expR (s t₀ c₀) (gmax s N).toReal = 1 := by rw [hmax, expR_self]
  calc (1 : ℝ) = expR (s t₀ c₀) (gmax s N).toReal := h1.symm
    _ ≤ ∑ c, expR (s t₀ c) (gmax s N).toReal :=
        Finset.single_le_sum (f := fun c => expR (s t₀ c) (gmax s N).toReal)
          (fun c _ => expR_nonneg (hs t₀ c) _) (Finset.mem_univ c₀)
    _ ≤ ∑ t ∈ Finset.range N, ∑ c, expR (s t c) (gmax s N).toReal :=
        Finset.single_le_sum (f := fun t => ∑ c, expR (s t c) (gmax s N).toReal)
          (fun t _ => Finset.sum_nonneg fun c _ => expR_nonneg (hs t c) _) ht₀

/-- The normaliser is not `+∞`. -/
theorem Zsum_ne_top (hN : 0 < N) (hs : ∀ t c, s t c ≠ ⊤) (h0 : ∃ c, s 0 c ≠ ⊥) :
    Zsum s N ≠ ⊤ := by
  obtain ⟨z, hz, _⟩ := Zsum_real hN hs h0
  rw [hz]
  exact EReal.coe_ne_top z

/-- The normaliser is not `-∞`. -/
theorem Zsum_ne_bot (hN : 0 < N) (hs : ∀ t c, s t c ≠ ⊤) (h0 : ∃ c, s 0 c ≠ ⊥) :
    Zsum s N ≠ ⊥ := by
  obtain ⟨z, hz, _⟩ := Zsum_real hN hs h0
  rw [hz]
  exact EReal.coe_ne_bot z

/-- The normaliser is at least `1`, in the extended reals. -/
theorem one_le_Zsum (hN : 0 < N) (hs : ∀ t c, s t c ≠ ⊤) (h0 : ∃ c, s 0 c ≠ ⊥) :
    (1 : EReal) ≤ Zsum s N := by
  obtain ⟨z, hz, h1⟩ := Zsum_real hN hs h0
  rw [hz, ← EReal.coe_one]
  exact EReal.coe_le_coe_iff.2 h1

/-- **Online softmax = two-pass softmax.** The weighted average `∑ (e / Z) · v` of the
    two-pass softmax over `N` tiles equals `acc / l` of the recurrence stopped after `T ≤ N`
    tiles, when the tiles from `T` on are entirely masked, no score is `+∞`, the first tile has
    a finite score and the values are finite. -/
theorem run_eq_twoPass (hT : 0 < T) (hTN : T ≤ N) (hs : ∀ t c, s t c ≠ ⊤)
    (hmask : ∀ t, T ≤ t → ∀ c, s t c = ⊥) (h0 : ∃ c, s 0 c ≠ ⊥)
    (hv : ∀ t c h, v t c h ≠ ⊤ ∧ v t c h ≠ ⊥) (h : H) :
    ∑ t ∈ Finset.range N, ∑ c, Ideal.div (wt s N t c) (Zsum s N) * v t c h
      = Ideal.div ((run s v T).acc h) ((run s v T).l) := by
  have hN : 0 < N := hT.trans_le hTN
  obtain ⟨z, hz, hz1⟩ := Zsum_real hN hs h0
  have hz0 : z ≠ 0 := (lt_of_lt_of_le one_pos hz1).ne'
  rw [run_acc_eq hT hTN hs hmask h0 hv h, run_l_eq hT hTN hs hmask h0 hv,
    wsum_eq_coe hN hs h0 hv h, hz, Ideal.div_coe hz0, ← EReal.coe_mul, Finset.sum_mul, coe_sum]
  refine Finset.sum_congr rfl fun t _ => ?_
  rw [Finset.sum_mul, coe_sum]
  refine Finset.sum_congr rfl fun c _ => ?_
  rw [Ideal.div_coe hz0, wt_eq_coe hN hs h0 t c, ← EReal.coe_mul,
    ← EReal.coe_toReal (hv t c h).1 (hv t c h).2, ← EReal.coe_mul, EReal.toReal_coe,
    mul_right_comm]

end Cert.OnlineSoftmax
-- ==== Proof.KIPayloads.lean ====
/-
  The attention kernel's arithmetic, read one row at a time. For a tile of 512 query rows against 512 key rows the
  kernel forms the scaled scores q·kᵀ·c, masks the positions whose key index exceeds the query index with −∞,
  joins the row's maximum with the running maximum, rescales the running normaliser and the running weighted sums by
  exp(m − m'), and adds the tile's exp(s − m') and exp(s − m')·v. Read at row `r` this is one step of the online
  softmax recurrence on that row's state; the reset values are the recurrence's initial state, and the last store
  divides the weighted sums by the normaliser.
-/
import proofs.«120868_j4587025072851_2_alg».proof.Proof.Gen.KernelIdeal.Skeleton
import proofs.«120868_j4587025072851_2_alg».proof.Proof.Spec
import proofs.«120868_j4587025072851_2_alg».proof.Proof.LibOnlineSoftmax
import Idealize.ShloMosaic.Lib.ValueIdx
import Idealize.ShloMosaic.Lib.ValueLayout
import Idealize.ShloMosaic.Lib.Pipeline.Value
import Idealize.ShloMosaic.Lib.Affine
import Idealize.ShloMosaic.PureOps.Ideal.Laws
import Idealize.ShloMosaic.PureOps.IdealRules

noncomputable section

namespace Cert.KernelIdeal.HandValue

open Cert.KernelIdeal Cert.KernelIdeal.Gen Idealize.ShloMosaic Idealize.SL.Sem
open Idealize.ShloMosaic.ValueIdx

/-- The masked, scaled score of query row `r` of query tile `qi` against key row `c` of key tile `ki`. -/
def sTile (qi ki : ℕ) (xq xk : Vec Ideal S1x512x128 .bf16) (r : Fin 512) (c : Fin 512) : EReal :=
  if ki * 512 + c.val ≤ qi * 512 + r.val then (∑ h : Fin 128, xq (ix3 0 r h) * xk (ix3 0 c h)) * Cert.Attn.scale else ⊥

/-! ## Layout: the column forms -/

/-- A vector of `a` entries cast to one column reads, at (i, 0), entry `i`. -/
theorem shapeCast_a_a1_apply {a : ℕ} {α : Type} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- One column broadcast over `b` columns reads, at (i, j), the column's entry `i`. -/
theorem broadcastTo_a1_ab_apply {a b : ℕ} {α : Type} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

/-! ## The constants -/

/-- The word 0xFF800000 is −∞. -/
theorem neg_inf : Ideal.ofBits .f32 0xFF800000#32 = (⊥ : EReal) := by simp [Ideal.ofBits, Ideal.ieee]
/-- The word 0 is 0. -/
theorem zero_word : Ideal.ofBits .f32 0x00000000#32 = (0 : EReal) := by simp [Ideal.ofBits, Ideal.ieee]
/-- The mask's fill is −∞. -/
theorem neg_big : Named.named (F := Ideal) κ "neg_big" (φ := .f32) 0xFF333332#32 = (⊥ : EReal) :=
  IdealRules.named_const.ideal_named_scalar _ _ _ _ rfl

/-! ## The causal mask of a tile: key index at most query index -/

/-- An index below 4096 read as a signed 32-bit word is itself. -/
theorem toInt_small (n : ℕ) (hn : n < 4096) : (BitVec.ofNat 32 n).toInt = (n : Int) := by
  rw [BitVec.toInt_eq_toNat_cond, BitVec.toNat_ofNat, Nat.mod_eq_of_lt (by omega)]
  rw [if_pos (by omega)]

/-- Tile `t` times 512 plus the offset `x`, computed on 32-bit words, is the word of that number. -/
theorem tile_coord (t x : ℕ) :
    IntOp.addi (Scalar.muli (BitVec.ofNat 32 t) 512#32) (BitVec.ofNat 32 x) = BitVec.ofNat 32 (t * 512 + x) := by
  unfold IntOp.addi Scalar.muli IntOp.muli
  rw [BitVec.ofNat_add, BitVec.ofNat_mul]

/-- The mask's bit at row `r`, column `c` of the tile (qi, ki). -/
theorem causal_bit (qi ki : ℕ) (hq : qi < 8) (hk : ki < 8) (r c : Fin 512) :
    IntOp.cmpi .sle (IntOp.addi (Scalar.muli (BitVec.ofNat 32 ki) 512#32) (BitVec.ofNat 32 c.val))
        (IntOp.addi (Scalar.muli (BitVec.ofNat 32 qi) 512#32) (BitVec.ofNat 32 r.val))
      = if ki * 512 + c.val ≤ qi * 512 + r.val then 1#1 else 0#1 := by
  have hc := c.isLt
  have hr := r.isLt
  rw [tile_coord, tile_coord]
  have hx := toInt_small (ki * 512 + c.val) (by omega)
  have hy := toInt_small (qi * 512 + r.val) (by omega)
  by_cases hle : ki * 512 + c.val ≤ qi * 512 + r.val
  · rw [if_pos hle, (IntOp.cmpi_sle).mpr (by rw [hx, hy]; exact_mod_cast hle)]
  · have h0 : IntOp.cmpi .sle (BitVec.ofNat 32 (ki * 512 + c.val)) (BitVec.ofNat 32 (qi * 512 + r.val)) = 0#1 :=
      eq_zero_of_ne_one fun h1 => hle (by
        have := (IntOp.cmpi_sle).mp h1; rw [hx, hy] at this; exact_mod_cast this)
    rw [if_neg hle, h0]

/-! ## The two products -/

/-- The left operand of q·kᵀ at output (i₀, i₁) and contraction coordinate `q` is read at row i₀ … -/
theorem qk_lhs0 (i : S512x512.Idx) (q : dot_S512x128_S128x512_S512x512_1_0_0_1_n_n.contr.Idx) :
    (dot_S512x128_S128x512_S512x512_1_0_0_1_n_n.lhsIdx i q 0).val = (i 0).val := by
  unfold DotDims.lhsIdx
  rw [dif_neg (show ¬(0 : Fin S512x128.rank) ∈ dot_S512x128_S128x512_S512x512_1_0_0_1_n_n.lhsBatch by decide),
    dif_pos (show (0 : Fin S512x128.rank) ∈ dot_S512x128_S128x512_S512x512_1_0_0_1_n_n.lhsNonContracting by decide)]
  rfl
/-- … and column `q`; -/
theorem qk_lhs1 (i : S512x512.Idx) (q : dot_S512x128_S128x512_S512x512_1_0_0_1_n_n.contr.Idx) :
    (dot_S512x128_S128x512_S512x512_1_0_0_1_n_n.lhsIdx i q 1).val = (q ⟨0, by decide⟩).val :=
  dot_S512x128_S128x512_S512x512_1_0_0_1_n_n.lhsIdx_val_of_single rfl i q
/-- the right operand at row `q` … -/
theorem qk_rhs0 (i : S512x512.Idx) (q : dot_S512x128_S128x512_S512x512_1_0_0_1_n_n.contr.Idx) :
    (dot_S512x128_S128x512_S512x512_1_0_0_1_n_n.rhsIdx i q 0).val = (q ⟨0, by decide⟩).val :=
  dot_S512x128_S128x512_S512x512_1_0_0_1_n_n.rhsIdx_val_of_single rfl i q
/-- … and column i₁. -/
theorem qk_rhs1 (i : S512x512.Idx) (q : dot_S512x128_S128x512_S512x512_1_0_0_1_n_n.contr.Idx) :
    (dot_S512x128_S128x512_S512x512_1_0_0_1_n_n.rhsIdx i q 1).val = (i 1).val := by
  unfold DotDims.rhsIdx
  rw [dif_neg (show ¬(1 : Fin S128x512.rank) ∈ dot_S512x128_S128x512_S512x512_1_0_0_1_n_n.rhsBatch by decide),
    dif_pos (show (1 : Fin S128x512.rank) ∈ dot_S512x128_S128x512_S512x512_1_0_0_1_n_n.rhsNonContracting by decide)]
  rfl

/-- q·kᵀ of a tile, read at (r, c): the sum over the head dimension. -/
theorem qk_at (xq xk : FVec Ideal S1x512x128 .bf16) (r c : Fin 512) :
    matmul (F := Ideal) dot_S512x128_S128x512_S512x512_1_0_0_1_n_n none
        (shapeCast S512x128 xq shapeCasts_S1x512x128_S512x128)
        (transpose S128x512 [1, 0] (shapeCast S512x128 xk shapeCasts_S1x512x128_S512x128) transposes_S512x128_p1_0_S128x512)
        (constant S512x512 .f32 0x00000000#32) (ix2 r c)
      = ∑ h : Fin 128, xq (ix3 0 r h) * xk (ix3 0 c h) := by
  refine (Ideal.matmul_constant_zero_apply dot_S512x128_S128x512_S512x512_1_0_0_1_n_n none _ _ (ix2 r c)).trans ?_
  rw [← Equiv.sum_comp (contrEquiv1 dot_S512x128_S128x512_S512x512_1_0_0_1_n_n 128 rfl rfl).symm]
  refine Finset.sum_congr rfl fun h _ => ?_
  have hk := contrEquiv1_symm_val dot_S512x128_S128x512_S512x512_1_0_0_1_n_n 128 rfl rfl h
  have el : dot_S512x128_S128x512_S512x512_1_0_0_1_n_n.lhsIdx (ix2 r c)
      ((contrEquiv1 dot_S512x128_S128x512_S512x512_1_0_0_1_n_n 128 rfl rfl).symm h) = ix2 r h :=
    funext fun a => Fin.ext (by
      match a with
      | ⟨0, _⟩ => exact qk_lhs0 _ _
      | ⟨1, _⟩ => exact (qk_lhs1 _ _).trans hk)
  have er : dot_S512x128_S128x512_S512x512_1_0_0_1_n_n.rhsIdx (ix2 r c)
      ((contrEquiv1 dot_S512x128_S128x512_S512x512_1_0_0_1_n_n 128 rfl rfl).symm h) = ix2 h c :=
    funext fun a => Fin.ext (by
      match a with
      | ⟨0, _⟩ => exact (qk_rhs0 _ _).trans hk
      | ⟨1, _⟩ => exact qk_rhs1 _ _)
  rw [el, er, shapeCast_1ab_ab_apply, transpose_ix2_apply, shapeCast_1ab_ab_apply]

/-- The left operand of p·v at output (i₀, i₁) and contraction coordinate `q` is read at row i₀ … -/
theorem pv_lhs0 (i : S512x128.Idx) (q : dot_S512x512_S512x128_S512x128_1_0_0_1_n_n.contr.Idx) :
    (dot_S512x512_S512x128_S512x128_1_0_0_1_n_n.lhsIdx i q 0).val = (i 0).val := by
  unfold DotDims.lhsIdx
  rw [dif_neg (show ¬(0 : Fin S512x512.rank) ∈ dot_S512x512_S512x128_S512x128_1_0_0_1_n_n.lhsBatch by decide),
    dif_pos (show (0 : Fin S512x512.rank) ∈ dot_S512x512_S512x128_S512x128_1_0_0_1_n_n.lhsNonContracting by decide)]
  rfl
/-- … and column `q`; -/
theorem pv_lhs1 (i : S512x128.Idx) (q : dot_S512x512_S512x128_S512x128_1_0_0_1_n_n.contr.Idx) :
    (dot_S512x512_S512x128_S512x128_1_0_0_1_n_n.lhsIdx i q 1).val = (q ⟨0, by decide⟩).val :=
  dot_S512x512_S512x128_S512x128_1_0_0_1_n_n.lhsIdx_val_of_single rfl i q
/-- the right operand at row `q` … -/
theorem pv_rhs0 (i : S512x128.Idx) (q : dot_S512x512_S512x128_S512x128_1_0_0_1_n_n.contr.Idx) :
    (dot_S512x512_S512x128_S512x128_1_0_0_1_n_n.rhsIdx i q 0).val = (q ⟨0, by decide⟩).val :=
  dot_S512x512_S512x128_S512x128_1_0_0_1_n_n.rhsIdx_val_of_single rfl i q
/-- … and column i₁. -/
theorem pv_rhs1 (i : S512x128.Idx) (q : dot_S512x512_S512x128_S512x128_1_0_0_1_n_n.contr.Idx) :
    (dot_S512x512_S512x128_S512x128_1_0_0_1_n_n.rhsIdx i q 1).val = (i 1).val := by
  unfold DotDims.rhsIdx
  rw [dif_neg (show ¬(1 : Fin S512x128.rank) ∈ dot_S512x512_S512x128_S512x128_1_0_0_1_n_n.rhsBatch by decide),
    dif_pos (show (1 : Fin S512x128.rank) ∈ dot_S512x512_S512x128_S512x128_1_0_0_1_n_n.rhsNonContracting by decide)]
  rfl

/-- p·v of a tile, read at (r, h): the sum over the tile's key rows. -/
theorem pv_at (P : FVec Ideal S512x512 .f32) (xv : FVec Ideal S1x512x128 .bf16) (r : Fin 512) (h : Fin 128) :
    matmul (F := Ideal) dot_S512x512_S512x128_S512x128_1_0_0_1_n_n none (truncf .bf16 P bitsLt_bf16_f32)
        (shapeCast S512x128 xv shapeCasts_S1x512x128_S512x128) (constant S512x128 .f32 0x00000000#32) (ix2 r h)
      = ∑ c : Fin 512, P (ix2 r c) * xv (ix3 0 c h) := by
  refine (Ideal.matmul_constant_zero_apply dot_S512x512_S512x128_S512x128_1_0_0_1_n_n none _ _ (ix2 r h)).trans ?_
  rw [← Equiv.sum_comp (contrEquiv1 dot_S512x512_S512x128_S512x128_1_0_0_1_n_n 512 rfl rfl).symm]
  refine Finset.sum_congr rfl fun c _ => ?_
  have hk := contrEquiv1_symm_val dot_S512x512_S512x128_S512x128_1_0_0_1_n_n 512 rfl rfl c
  have el : dot_S512x512_S512x128_S512x128_1_0_0_1_n_n.lhsIdx (ix2 r h)
      ((contrEquiv1 dot_S512x512_S512x128_S512x128_1_0_0_1_n_n 512 rfl rfl).symm c) = ix2 r c :=
    funext fun a => Fin.ext (by
      match a with
      | ⟨0, _⟩ => exact pv_lhs0 _ _
      | ⟨1, _⟩ => exact (pv_lhs1 _ _).trans hk)
  have er : dot_S512x512_S512x128_S512x128_1_0_0_1_n_n.rhsIdx (ix2 r h)
      ((contrEquiv1 dot_S512x512_S512x128_S512x128_1_0_0_1_n_n 512 rfl rfl).symm c) = ix2 c h :=
    funext fun a => Fin.ext (by
      match a with
      | ⟨0, _⟩ => exact (pv_rhs0 _ _).trans hk
      | ⟨1, _⟩ => exact pv_rhs1 _ _)
  rw [el, er, shapeCast_1ab_ab_apply]
  rfl

/-! ## The two reductions along a row -/

/-- The reduced index `r` with the column `k` put back is (r, k). -/
theorem lift_col (hr : S512x512.Reduces [1] S512) (r : Fin 512) (k : Fin (S512x512.size 1)) :
    hr.lift (ix1 r) k = ix2 r (⟨k.val, k.isLt⟩ : Fin 512) := by
  funext c; apply Fin.ext
  fin_cases c <;> rfl

/-- From −∞ the maximum over the columns, at row `r`, is the row's supremum. -/
theorem rowmax_at (S : FVec Ideal S512x512 .f32) (r : Fin 512) :
    multiReduction (F := Ideal) .maximumf [1] S512 S 0xFF800000#32 reduces_S512x512_S512 (.inl rfl) rfl (ix1 r)
      = Finset.univ.sup fun c : Fin 512 => S (ix2 r c) := by
  refine (Ideal.multiReduction_maximumf_single S 0xFF800000#32 reduces_S512x512_S512 (.inl rfl) rfl (ix1 r)).trans ?_
  have hf : (S ∘ reduces_S512x512_S512.lift (ix1 r)) = fun c : Fin 512 => S (ix2 r c) :=
    funext fun k => congrArg S (lift_col reduces_S512x512_S512 r k)
  have e : (Finset.univ : Finset (Fin 512)).fold max (Ideal.ofBits .f32 0xFF800000#32) (fun c => S (ix2 r c))
      = Finset.univ.sup fun c : Fin 512 => S (ix2 r c) := by
    rw [neg_inf]; rfl
  refine Eq.trans ?_ e
  exact congrArg (fun f => Finset.fold max (Ideal.ofBits .f32 0xFF800000#32) f (Finset.univ : Finset (Fin 512))) hf

/-- From 0 the sum over the columns, at row `r`, is the row's sum. -/
theorem rowsum_at (S : FVec Ideal S512x512 .f32) (r : Fin 512) :
    multiReduction (F := Ideal) .add [1] S512 S 0x00000000#32 reduces_S512x512_S512 (.inl rfl) rfl (ix1 r)
      = ∑ c : Fin 512, S (ix2 r c) := by
  refine (Ideal.multiReduction_add_single S 0x00000000#32 reduces_S512x512_S512 (.inl rfl) rfl (ix1 r)).trans ?_
  exact Finset.sum_congr rfl fun k _ => congrArg S (lift_col reduces_S512x512_S512 r k)

/-! ## The payloads, one row at a time -/

/-- The masked, scaled scores of the tile. -/
theorem pay8_at (qi ki : ℕ) (hq : qi < 8) (hk : ki < 8) (xq xk : Vec Ideal S1x512x128 .bf16) (r c : Fin 512) :
    k1_pay8 (F := Ideal) (BitVec.ofNat 32 qi) (BitVec.ofNat 32 ki) xq xk (ix2 r c) = sTile qi ki xq xk r c := by
  unfold k1_pay8
  show Scalar.select
      (IntOp.cmpi .sle
        (IntOp.addi (Scalar.muli (BitVec.ofNat 32 ki) 512#32) (iota .tc S512x512 32 [1] iota_S512x512_d1_w32 (ix2 r c)))
        (IntOp.addi (Scalar.muli (BitVec.ofNat 32 qi) 512#32) (iota .tc S512x512 32 [0] iota_S512x512_d0_w32 (ix2 r c))))
      (FloatOps.mulf
        (matmul (F := Ideal) dot_S512x128_S128x512_S512x512_1_0_0_1_n_n none
          (shapeCast S512x128 (xq : FVec Ideal S1x512x128 .bf16) shapeCasts_S1x512x128_S512x128)
          (transpose S128x512 [1, 0] (shapeCast S512x128 (xk : FVec Ideal S1x512x128 .bf16) shapeCasts_S1x512x128_S512x128)
            transposes_S512x128_p1_0_S128x512)
          (constant S512x512 .f32 0x00000000#32) (ix2 r c))
        (Scalar.ofBits (F := Ideal) .f32 0x3DB504F3#32))
      (Named.named (F := Ideal) κ "neg_big" (φ := .f32) 0xFF333332#32) = _
  rw [iota_single_apply, iota_single_apply, qk_at, neg_big]
  show Scalar.select (IntOp.cmpi .sle
        (IntOp.addi (Scalar.muli (BitVec.ofNat 32 ki) 512#32) (BitVec.ofNat 32 c.val))
        (IntOp.addi (Scalar.muli (BitVec.ofNat 32 qi) 512#32) (BitVec.ofNat 32 r.val))) _ _ = _
  rw [causal_bit qi ki hq hk r c]
  unfold sTile
  by_cases hle : ki * 512 + c.val ≤ qi * 512 + r.val
  · rw [if_pos hle, if_pos hle, select_one]; rfl
  · rw [if_neg hle, if_neg hle, select_zero]

/-- The new running maximum of row `r`. -/
theorem pay9_at (qi ki : ℕ) (hq : qi < 8) (hk : ki < 8) (xq xk : Vec Ideal S1x512x128 .bf16) (m0 : Vec Ideal S512x1 .f32)
    (r : Fin 512) :
    k1_pay9 (F := Ideal) (BitVec.ofNat 32 qi) (BitVec.ofNat 32 ki) xq xk m0 (ix2 r 0)
      = max (m0 (ix2 r 0)) (Finset.univ.sup (sTile qi ki xq xk r)) := by
  unfold k1_pay9
  show FloatOps.maximumf (m0 (ix2 r 0))
      (shapeCast S512x1 (multiReduction (F := Ideal) .maximumf [1] S512
        (k1_pay8 (F := Ideal) (BitVec.ofNat 32 qi) (BitVec.ofNat 32 ki) xq xk) 0xFF800000#32 reduces_S512x512_S512 (.inl rfl) rfl)
        shapeCasts_S512_S512x1 (ix2 r 0)) = _
  rw [shapeCast_a_a1_apply, rowmax_at, Ideal.maximumf_def]
  exact congrArg (fun f => max (m0 (ix2 r 0)) (Finset.univ.sup f)) (funext fun c => pay8_at qi ki hq hk xq xk r c)

/-- The rescaling factor of row `r`. -/
theorem pay10_at (qi ki : ℕ) (hq : qi < 8) (hk : ki < 8) (xq xk : Vec Ideal S1x512x128 .bf16) (m0 : Vec Ideal S512x1 .f32)
    (r : Fin 512) :
    k1_pay10 (F := Ideal) (BitVec.ofNat 32 qi) (BitVec.ofNat 32 ki) xq xk m0 (ix2 r 0)
      = Ideal.exp (m0 (ix2 r 0) - max (m0 (ix2 r 0)) (Finset.univ.sup (sTile qi ki xq xk r))) := by
  unfold k1_pay10
  show FloatOps.exp (FloatOps.subf (m0 (ix2 r 0))
      (k1_pay9 (F := Ideal) (BitVec.ofNat 32 qi) (BitVec.ofNat 32 ki) xq xk m0 (ix2 r 0))) = _
  rw [pay9_at qi ki hq hk, Ideal.exp_def, Ideal.subf_def]

/-- The tile's exponentials, relative to the new maximum. -/
theorem pay11_at (qi ki : ℕ) (hq : qi < 8) (hk : ki < 8) (xq xk : Vec Ideal S1x512x128 .bf16) (m0 : Vec Ideal S512x1 .f32)
    (r c : Fin 512) :
    k1_pay11 (F := Ideal) (BitVec.ofNat 32 qi) (BitVec.ofNat 32 ki) xq xk m0 (ix2 r c)
      = Ideal.exp (sTile qi ki xq xk r c - max (m0 (ix2 r 0)) (Finset.univ.sup (sTile qi ki xq xk r))) := by
  unfold k1_pay11
  show FloatOps.exp (FloatOps.subf (k1_pay8 (F := Ideal) (BitVec.ofNat 32 qi) (BitVec.ofNat 32 ki) xq xk (ix2 r c))
      (broadcastTo S512x512 (k1_pay9 (F := Ideal) (BitVec.ofNat 32 qi) (BitVec.ofNat 32 ki) xq xk m0)
        broadcasts_S512x1_S512x512 (ix2 r c))) = _
  rw [broadcastTo_a1_ab_apply, pay8_at qi ki hq hk, pay9_at qi ki hq hk, Ideal.exp_def, Ideal.subf_def]

/-- The new running normaliser of row `r`. -/
theorem pay12_at (qi ki : ℕ) (hq : qi < 8) (hk : ki < 8) (xq xk : Vec Ideal S1x512x128 .bf16) (m0 l0 : Vec Ideal S512x1 .f32)
    (r : Fin 512) :
    k1_pay12 (F := Ideal) (BitVec.ofNat 32 qi) (BitVec.ofNat 32 ki) xq xk m0 l0 (ix2 r 0)
      = Ideal.exp (m0 (ix2 r 0) - max (m0 (ix2 r 0)) (Finset.univ.sup (sTile qi ki xq xk r))) * l0 (ix2 r 0)
        + ∑ c : Fin 512, Ideal.exp (sTile qi ki xq xk r c - max (m0 (ix2 r 0)) (Finset.univ.sup (sTile qi ki xq xk r))) := by
  unfold k1_pay12
  show shapeCast S512x1 (addf (mulf (k1_pay10 (F := Ideal) (BitVec.ofNat 32 qi) (BitVec.ofNat 32 ki) xq xk m0) l0)
      (shapeCast S512x1 (multiReduction (F := Ideal) .add [1] S512
        (k1_pay11 (F := Ideal) (BitVec.ofNat 32 qi) (BitVec.ofNat 32 ki) xq xk m0) 0x00000000#32 reduces_S512x512_S512 (.inl rfl) rfl)
        shapeCasts_S512_S512x1)) shapeCasts_S512x1_S512x1 (ix2 r 0) = _
  rw [shapeCast_self]
  show FloatOps.addf (FloatOps.mulf (k1_pay10 (F := Ideal) (BitVec.ofNat 32 qi) (BitVec.ofNat 32 ki) xq xk m0 (ix2 r 0)) (l0 (ix2 r 0)))
      (shapeCast S512x1 (multiReduction (F := Ideal) .add [1] S512
        (k1_pay11 (F := Ideal) (BitVec.ofNat 32 qi) (BitVec.ofNat 32 ki) xq xk m0) 0x00000000#32 reduces_S512x512_S512 (.inl rfl) rfl)
        shapeCasts_S512_S512x1 (ix2 r 0)) = _
  rw [shapeCast_a_a1_apply, rowsum_at, pay10_at qi ki hq hk, Ideal.addf_def, Ideal.mulf_def]
  exact congrArg (_ + ·) (Finset.sum_congr rfl fun c _ => pay11_at qi ki hq hk xq xk m0 r c)

/-- The new running weighted sums of row `r`, for any rescaling column `A` and any tile of weights `P`. -/
theorem pay4_at (xv : Vec Ideal S1x512x128 .bf16) (A : FVec Ideal S512x1 .f32) (P : FVec Ideal S512x512 .f32)
    (a0 : Vec Ideal S512x128 .f32) (r : Fin 512) (h : Fin 128) :
    k1_pay4 (F := Ideal) (k1_pay7 (F := Ideal) xv) A P a0 (ix2 r h)
      = A (ix2 r 0) * a0 (ix2 r h) + ∑ c : Fin 512, P (ix2 r c) * xv (ix3 0 c h) := by
  unfold k1_pay4 k1_pay7
  show shapeCast S512x128 (addf (mulf (broadcastTo S512x128 A broadcasts_S512x1_S512x128) a0)
      (matmul (F := Ideal) dot_S512x512_S512x128_S512x128_1_0_0_1_n_n none (truncf .bf16 P bitsLt_bf16_f32)
        (shapeCast S512x128 (xv : FVec Ideal S1x512x128 .bf16) shapeCasts_S1x512x128_S512x128) (constant S512x128 .f32 0x00000000#32)))
      shapeCasts_S512x128_S512x128 (ix2 r h) = _
  rw [shapeCast_self]
  show FloatOps.addf (FloatOps.mulf (broadcastTo S512x128 A broadcasts_S512x1_S512x128 (ix2 r h)) (a0 (ix2 r h)))
      (matmul (F := Ideal) dot_S512x512_S512x128_S512x128_1_0_0_1_n_n none (truncf .bf16 P bitsLt_bf16_f32)
        (shapeCast S512x128 (xv : FVec Ideal S1x512x128 .bf16) shapeCasts_S1x512x128_S512x128) (constant S512x128 .f32 0x00000000#32)
        (ix2 r h)) = _
  rw [broadcastTo_a1_ab_apply, pv_at, Ideal.addf_def, Ideal.mulf_def]

/-! ## The three readings -/

/-- One tile, read at row `r`: the stored maximum, normaliser and weighted sums are one step of the recurrence from
    the loaded ones, over the tile's masked scores and value rows. -/
theorem row_step (qi ki : ℕ) (hq : qi < 8) (hk : ki < 8) (xq xk xv : Vec Ideal S1x512x128 .bf16)
    (m0 l0 : Vec Ideal S512x1 .f32) (a0 : Vec Ideal S512x128 .f32) (r : Fin 512) :
    (⟨k1_pay5 (F := Ideal) (k1_pay9 (F := Ideal) (BitVec.ofNat 32 qi) (BitVec.ofNat 32 ki) xq xk m0) (ix2 r 0),
      k1_pay12 (F := Ideal) (BitVec.ofNat 32 qi) (BitVec.ofNat 32 ki) xq xk m0 l0 (ix2 r 0),
      fun h => k1_pay4 (F := Ideal) (k1_pay7 (F := Ideal) xv) (k1_pay10 (F := Ideal) (BitVec.ofNat 32 qi) (BitVec.ofNat 32 ki) xq xk m0)
        (k1_pay11 (F := Ideal) (BitVec.ofNat 32 qi) (BitVec.ofNat 32 ki) xq xk m0) a0 (ix2 r h)⟩ : Cert.OnlineSoftmax.St (Fin 128))
      = Cert.OnlineSoftmax.step ⟨m0 (ix2 r 0), l0 (ix2 r 0), fun h => a0 (ix2 r h)⟩ (sTile qi ki xq xk r)
          (fun c h => xv (ix3 0 c h)) := by
  have h5 : k1_pay5 (F := Ideal) (k1_pay9 (F := Ideal) (BitVec.ofNat 32 qi) (BitVec.ofNat 32 ki) xq xk m0) (ix2 r 0)
      = max (m0 (ix2 r 0)) (Finset.univ.sup (sTile qi ki xq xk r)) := by
    unfold k1_pay5
    show shapeCast S512x1 (k1_pay9 (F := Ideal) (BitVec.ofNat 32 qi) (BitVec.ofNat 32 ki) xq xk m0) shapeCasts_S512x1_S512x1 (ix2 r 0) = _
    rw [shapeCast_self, pay9_at qi ki hq hk]
  have h4 : (fun h : Fin 128 => k1_pay4 (F := Ideal) (k1_pay7 (F := Ideal) xv)
        (k1_pay10 (F := Ideal) (BitVec.ofNat 32 qi) (BitVec.ofNat 32 ki) xq xk m0)
        (k1_pay11 (F := Ideal) (BitVec.ofNat 32 qi) (BitVec.ofNat 32 ki) xq xk m0) a0 (ix2 r h))
      = fun h : Fin 128 =>
          Ideal.exp (m0 (ix2 r 0) - max (m0 (ix2 r 0)) (Finset.univ.sup (sTile qi ki xq xk r))) * a0 (ix2 r h)
          + ∑ c : Fin 512, Ideal.exp (sTile qi ki xq xk r c - max (m0 (ix2 r 0)) (Finset.univ.sup (sTile qi ki xq xk r)))
              * xv (ix3 0 c h) := by
    funext h
    rw [pay4_at, pay10_at qi ki hq hk]
    exact congrArg (_ + ·) (Finset.sum_congr rfl fun c _ => by rw [pay11_at qi ki hq hk])
  rw [h5, pay12_at qi ki hq hk, h4]
  rfl

/-- The reset values, read at row `r`, are the recurrence's initial state. -/
theorem reset_row (r : Fin 512) :
    k1_pay1 (F := Ideal) (ix2 r 0) = ⊥ ∧ k1_pay2 (F := Ideal) (ix2 r 0) = 0 ∧ ∀ h : Fin 128, k1_pay3 (F := Ideal) (ix2 r h) = 0 := by
  refine ⟨?_, ?_, fun h => ?_⟩
  · unfold k1_pay1
    show shapeCast S512x1 (broadcast S512x1 (Scalar.ofBits (F := Ideal) .f32 0xFF800000#32)) shapeCasts_S512x1_S512x1 (ix2 r 0) = _
    rw [shapeCast_self]
    exact neg_inf
  · unfold k1_pay2
    show shapeCast S512x1 (broadcast S512x1 (Scalar.ofBits (F := Ideal) .f32 0x00000000#32)) shapeCasts_S512x1_S512x1 (ix2 r 0) = _
    rw [shapeCast_self]
    exact zero_word
  · unfold k1_pay3
    show shapeCast S512x128 (broadcast S512x128 (Scalar.ofBits (F := Ideal) .f32 0x00000000#32)) shapeCasts_S512x128_S512x128 (ix2 r h) = _
    rw [shapeCast_self]
    exact zero_word

/-- The last store, read at row `r`: the weighted sums over the normaliser. -/
theorem final_row (a : Vec Ideal S512x128 .f32) (l : Vec Ideal S512x1 .f32) (r : Fin 512) (h : Fin 128) :
    k1_pay6 (F := Ideal) a l (ix3 0 r h) = Ideal.div (a (ix2 r h)) (l (ix2 r 0)) := by
  unfold k1_pay6
  refine (shapeCast_ab_1ab_apply _ shapeCasts_S512x128_S1x512x128 0 r h).trans ?_
  show FloatOps.divf (F := Ideal) (φ := .f32) (a (ix2 r h))
      (broadcastTo S512x128 (l : FVec Ideal S512x1 .f32) broadcasts_S512x1_S512x128 (ix2 r h)) = _
  rw [broadcastTo_a1_ab_apply, Ideal.divf_def]

end Cert.KernelIdeal.HandValue

end
-- ==== Proof.KIR1State.lean ====
/-
  Region 1 at the ideal instance: the scratch buffers, read row by row, follow the tile recurrence. Row r of the
  three scratch buffers after a point is a state (running maximum, running sum, accumulator row). A point whose key
  tile is at most its query tile takes the state one step of the recurrence forward — from the reset state when the
  key tile is 0, from what the point before left otherwise — over that point's tile of masked scaled scores and its
  value rows; a point above the diagonal leaves the state as it was; and at key tile 7 the output block's row r is
  the accumulator row divided by the running sum.
-/
import proofs.«120868_j4587025072851_2_alg».proof.Proof.KIR1Pieces
import proofs.«120868_j4587025072851_2_alg».proof.Proof.KIPayloads

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open Cert.OnlineSoftmax

variable (V : (c : Dev nD) → (b : Ref sig .tc) → Buf (Elt Ideal) ((c : Thread nD τ).loc b)) (c : Dev nD)

/-- Row `r` of the three scratch buffers as a state of the recurrence. -/
def rowState (p : Vec Ideal S512x1 .f32 × Vec Ideal S512x1 .f32 × Vec Ideal S512x128 .f32) (r : Fin 512) : St (Fin 128) :=
  ⟨p.1 (ix2 r 0), p.2.1 (ix2 r 0), fun h => p.2.2 (ix2 r h)⟩

theorem coords_lt (t : Fin cfg1.N) : (grid1.coords t 1).val < 8 ∧ (grid1.coords t 2).val < 8 :=
  ⟨(grid1.coords t 1).isLt, (grid1.coords t 2).isLt⟩

/-- The first key tile: the state is one step from the reset state. -/
theorem point_first (t : Fin cfg1.N) (h0 : t.val % 8 = 0) (r : Fin 512) :
    rowState (outsAt1 V c t.val t.isLt).2 r
      = step St.init (sTile (grid1.coords t 1).val (grid1.coords t 2).val (iblk1 V c 0 t : Vec Ideal S1x512x128 .bf16) (iblk1 V c 1 t : Vec Ideal S1x512x128 .bf16) r) (fun cc h => (iblk1 V c 2 t : Vec Ideal S1x512x128 .bf16) (ix3 0 cc h)) := by
  have h1 : t.val % 8 ≤ t.val / 8 % 8 := by omega
  have h2 : ¬t.val % 8 = 7 := by omega
  obtain ⟨prev, hO, -⟩ := outsAt1_eq V c t
  rw [hO, stepAt_A V c t prev h0 h1 h2]
  dsimp only [rowState]
  rw [sout1_A_0_eq, sout1_A_1_eq, sout1_A_2_eq]
  have hs := row_step (grid1.coords t 1).val (grid1.coords t 2).val (coords_lt t).1 (coords_lt t).2 (iblk1 V c 0 t : Vec Ideal S1x512x128 .bf16) (iblk1 V c 1 t : Vec Ideal S1x512x128 .bf16) (iblk1 V c 2 t : Vec Ideal S1x512x128 .bf16) (k1_pay1 (F := Ideal)) (k1_pay2 (F := Ideal)) (k1_pay3 (F := Ideal)) r
  have hr := reset_row r
  rw [hr.1, hr.2.1, show (fun h : Fin 128 => k1_pay3 (F := Ideal) (ix2 r h)) = fun _ => 0 from funext hr.2.2] at hs
  exact hs

/-- A later key tile on or below the diagonal: the state is one step from what the point before left. -/
theorem point_next (t : Fin cfg1.N) (h0 : ¬t.val % 8 = 0) (h1 : t.val % 8 ≤ t.val / 8 % 8) (r : Fin 512) :
    rowState (outsAt1 V c t.val t.isLt).2 r
      = step (rowState (outsAt1 V c (t.val - 1) (Nat.lt_of_le_of_lt (Nat.sub_le _ _) t.isLt)).2 r)
          (sTile (grid1.coords t 1).val (grid1.coords t 2).val (iblk1 V c 0 t : Vec Ideal S1x512x128 .bf16) (iblk1 V c 1 t : Vec Ideal S1x512x128 .bf16) r) (fun cc h => (iblk1 V c 2 t : Vec Ideal S1x512x128 .bf16) (ix3 0 cc h)) := by
  have hz : t.val ≠ 0 := by omega
  obtain ⟨prev, hO, hprev⟩ := outsAt1_eq V c t
  rw [hO, hprev hz]
  have hs := row_step (grid1.coords t 1).val (grid1.coords t 2).val (coords_lt t).1 (coords_lt t).2 (iblk1 V c 0 t : Vec Ideal S1x512x128 .bf16) (iblk1 V c 1 t : Vec Ideal S1x512x128 .bf16) (iblk1 V c 2 t : Vec Ideal S1x512x128 .bf16) prev.1 prev.2.1 prev.2.2 r
  by_cases h2 : t.val % 8 = 7
  · rw [stepAt_D V c t prev h0 h1 h2]
    dsimp only [rowState]
    rw [sout1_D_0_eq, sout1_D_1_eq, sout1_D_2_eq]
    exact hs
  · rw [stepAt_B V c t prev h0 h1 h2]
    dsimp only [rowState]
    rw [sout1_B_0_eq, sout1_B_1_eq, sout1_B_2_eq]
    exact hs

/-- A key tile above the diagonal: the state is what the point before left. -/
theorem point_skip (t : Fin cfg1.N) (h1 : ¬t.val % 8 ≤ t.val / 8 % 8) (r : Fin 512) :
    rowState (outsAt1 V c t.val t.isLt).2 r
      = rowState (outsAt1 V c (t.val - 1) (Nat.lt_of_le_of_lt (Nat.sub_le _ _) t.isLt)).2 r := by
  have hz : t.val ≠ 0 := by omega
  have h0 : ¬t.val % 8 = 0 := by omega
  obtain ⟨prev, hO, hprev⟩ := outsAt1_eq V c t
  rw [hO, hprev hz]
  by_cases h2 : t.val % 8 = 7
  · rw [stepAt_E V c t prev h0 h1 h2]
  · rw [stepAt_C V c t prev h0 h1 h2]

/-- At key tile 7 the output block's row is the accumulator row divided by the running sum. -/
theorem point_out (t : Fin cfg1.N) (h2 : t.val % 8 = 7) (r : Fin 512) (h : Fin 128) :
    (outsAt1 V c t.val t.isLt).1 (ix3 0 r h)
      = Ideal.div ((rowState (outsAt1 V c t.val t.isLt).2 r).acc h) ((rowState (outsAt1 V c t.val t.isLt).2 r).l) := by
  have h0 : ¬t.val % 8 = 0 := by omega
  obtain ⟨prev, hO, -⟩ := outsAt1_eq V c t
  rw [hO]
  by_cases h1 : t.val % 8 ≤ t.val / 8 % 8
  · rw [stepAt_D V c t prev h0 h1 h2]
    dsimp only [rowState]
    rw [out1_D_3_eq, sout1_D_1_eq, sout1_D_2_eq]
    exact final_row _ _ r h
  · rw [stepAt_E V c t prev h0 h1 h2]
    dsimp only [rowState]
    rw [out1_E_3_eq]
    exact final_row _ _ r h

end Cert.KernelIdeal.HandValue

end
-- ==== Proof.KIRegion1Blocks.lean ====
/- Region 1 of @main (the attention pallas_call, pipeline 1): where its windows' blocks sit in their arrays, and its
   output array after the region from the per-point values. The grid is 4 × 8 × 8 (batch, query tile, key tile; the
   key tile runs fastest): point t has batch t / 64, query tile t / 8 mod 8 and key tile t mod 8. The query window and
   the output window are at block (batch, query tile, 0); the key and value windows at block (batch, min(key tile,
   query tile), 0); every block is 1 × 512 × 128 of a 4 × 4096 × 128 array. The output block is written back at key
   tile 7 only, and those 32 blocks tile the output array. -/
import proofs.«120868_j4587025072851_2_alg».proof.Proof.KIRegion1
import Idealize.ShloMosaic.Lib.ValueIdx
import Idealize.ShloMosaic.Lib.Pipeline.Value

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

/-! ## The printed index maps over the grid -/

/-- The grid has 256 points. -/
theorem point_lt (t : Fin cfg1.N) : t.val < 256 := lt_of_lt_of_eq t.isLt N_1

/-- The query window's block at point `t`: (batch, query tile, 0). -/
theorem index1_0 : ∀ t : Fin cfg1.N,
    win1_0.index t (0 : Fin 3) = t.val / 64 ∧ win1_0.index t (1 : Fin 3) = t.val / 8 % 8 ∧ win1_0.index t (2 : Fin 3) = 0 :=
  (by decide +kernel : ∀ t : Fin grid1.N, _)
/-- The key window's block: (batch, min(key tile, query tile), 0). -/
theorem index1_1 : ∀ t : Fin cfg1.N,
    win1_1.index t (0 : Fin 3) = t.val / 64 ∧ win1_1.index t (1 : Fin 3) = min (t.val % 8) (t.val / 8 % 8) ∧ win1_1.index t (2 : Fin 3) = 0 :=
  (by decide +kernel : ∀ t : Fin grid1.N, _)
/-- The value window's block: the same. -/
theorem index1_2 : ∀ t : Fin cfg1.N,
    win1_2.index t (0 : Fin 3) = t.val / 64 ∧ win1_2.index t (1 : Fin 3) = min (t.val % 8) (t.val / 8 % 8) ∧ win1_2.index t (2 : Fin 3) = 0 :=
  (by decide +kernel : ∀ t : Fin grid1.N, _)
/-- The output window's block: (batch, query tile, 0). -/
theorem index1_3 : ∀ t : Fin cfg1.N,
    win1_3.index t (0 : Fin 3) = t.val / 64 ∧ win1_3.index t (1 : Fin 3) = t.val / 8 % 8 ∧ win1_3.index t (2 : Fin 3) = 0 :=
  (by decide +kernel : ∀ t : Fin grid1.N, _)

/-! ## Where a block's rows sit in the array -/

/-- The batch of point `t`. -/
abbrev r1Batch (t : Fin cfg1.N) : Fin 4 := ⟨t.val / 64, by have := point_lt t; omega⟩
/-- Row `r` of the query tile of point `t`, as a row of the array. -/
abbrev r1QRow (t : Fin cfg1.N) (r : Fin 512) : Fin 4096 := ⟨t.val / 8 % 8 * 512 + r.val, by have := r.isLt; omega⟩
/-- Row `r` of the key tile the pipeline stages at point `t` (the key tile, clamped to the query tile), as a row of the
    array. -/
abbrev r1KRow (t : Fin cfg1.N) (r : Fin 512) : Fin 4096 := ⟨min (t.val % 8) (t.val / 8 % 8) * 512 + r.val, by have := r.isLt; omega⟩

/-- An index of a 1 × 512 × 128 block has first coordinate 0. -/
theorem at_unit_ix3 {α : Type} (X : S1x512x128.Idx → α) (j : S1x512x128.Idx) : X j = X (ix3 (0 : Fin 1) (j 1) (j 2)) := by
  refine congrArg X (funext fun a => ?_)
  match a with
  | ⟨0, _⟩ => exact Fin.ext (by have h : (j 0).val < 1 := (j 0).isLt; show (j 0).val = 0; omega)
  | ⟨1, _⟩ => rfl
  | ⟨2, _⟩ => rfl

variable {F : FTy → Type} [FloatOps F] [Named F]

section Region1
variable (V : (c : Dev nD) → (b : Ref sig .tc) → Buf (Elt F) ((c : Thread nD τ).loc b))

/-! ## The input windows' blocks, read at an index -/

/-- The query block at point `t`: rows of the query tile of the point's batch. -/
theorem iblk1_0_apply (c : Dev nD) (t : Fin cfg1.N) (r : Fin 512) (h : Fin 128) :
    iblk1 V c 0 t (ix3 (0 : Fin 1) r h) = V c main_v3_0 (ix3 (r1Batch t) (r1QRow t r) h) := by
  obtain ⟨e0, e1, e2⟩ := index1_0 t
  show V c main_v3_0 (((cfg1.win 0).blk t).view.emb (ix3 (0 : Fin 1) r h)) = _
  refine congrArg (V c main_v3_0) (funext fun a => Fin.ext ?_)
  match a with
  | ⟨0, _⟩ => show win1_0.index t (0 : Fin 3) * 1 + 1 * 0 = t.val / 64; omega
  | ⟨1, _⟩ => show win1_0.index t (1 : Fin 3) * 512 + 1 * r.val = t.val / 8 % 8 * 512 + r.val; omega
  | ⟨2, _⟩ => show win1_0.index t (2 : Fin 3) * 128 + 1 * h.val = h.val; omega

/-- The key block at point `t`: rows of the key tile, clamped to the query tile, of the point's batch. -/
theorem iblk1_1_apply (c : Dev nD) (t : Fin cfg1.N) (r : Fin 512) (h : Fin 128) :
    iblk1 V c 1 t (ix3 (0 : Fin 1) r h) = V c main_v3_1 (ix3 (r1Batch t) (r1KRow t r) h) := by
  obtain ⟨e0, e1, e2⟩ := index1_1 t
  show V c main_v3_1 (((cfg1.win 1).blk t).view.emb (ix3 (0 : Fin 1) r h)) = _
  refine congrArg (V c main_v3_1) (funext fun a => Fin.ext ?_)
  match a with
  | ⟨0, _⟩ => show win1_1.index t (0 : Fin 3) * 1 + 1 * 0 = t.val / 64; omega
  | ⟨1, _⟩ => show win1_1.index t (1 : Fin 3) * 512 + 1 * r.val = min (t.val % 8) (t.val / 8 % 8) * 512 + r.val; omega
  | ⟨2, _⟩ => show win1_1.index t (2 : Fin 3) * 128 + 1 * h.val = h.val; omega

/-- The value block at point `t`: the same rows of the value array. -/
theorem iblk1_2_apply (c : Dev nD) (t : Fin cfg1.N) (r : Fin 512) (h : Fin 128) :
    iblk1 V c 2 t (ix3 (0 : Fin 1) r h) = V c main_v3_2 (ix3 (r1Batch t) (r1KRow t r) h) := by
  obtain ⟨e0, e1, e2⟩ := index1_2 t
  show V c main_v3_2 (((cfg1.win 2).blk t).view.emb (ix3 (0 : Fin 1) r h)) = _
  refine congrArg (V c main_v3_2) (funext fun a => Fin.ext ?_)
  match a with
  | ⟨0, _⟩ => show win1_2.index t (0 : Fin 3) * 1 + 1 * 0 = t.val / 64; omega
  | ⟨1, _⟩ => show win1_2.index t (1 : Fin 3) * 512 + 1 * r.val = min (t.val % 8) (t.val / 8 % 8) * 512 + r.val; omega
  | ⟨2, _⟩ => show win1_2.index t (2 : Fin 3) * 128 + 1 * h.val = h.val; omega

/-! ## From the output blocks to the output array -/

/-- The output window's block at point `t` of an array `Gout`, read at an index. -/
theorem read_blk1_3 (Gout : S4x4096x128.Idx → Elt F .f32) (t : Fin cfg1.N) (j : S1x512x128.Idx) :
    ((cfg1.win 3).blk t).view.read (Elt F) Gout j = Gout (ix3 (r1Batch t) (r1QRow t (j 1)) (j 2)) := by
  obtain ⟨e0, e1, e2⟩ := index1_3 t
  have hj0 : (j 0).val < 1 := (j 0).isLt
  show Gout (((cfg1.win 3).blk t).view.emb j) = _
  refine congrArg Gout (funext fun a => Fin.ext ?_)
  match a with
  | ⟨0, _⟩ => show win1_3.index t (0 : Fin 3) * 1 + 1 * (j 0).val = t.val / 64; omega
  | ⟨1, _⟩ => show win1_3.index t (1 : Fin 3) * 512 + 1 * (j 1).val = t.val / 8 % 8 * 512 + (j 1).val; omega
  | ⟨2, _⟩ => show win1_3.index t (2 : Fin 3) * 128 + 1 * (j 2).val = (j 2).val; omega

/-- A block buffer whose rows are the rows of `Gout` at the point's batch and query tile is the output window's block of
    `Gout` at the point. -/
theorem out_blk1_3_eq (Gout : S4x4096x128.Idx → Elt F .f32) (t : Fin cfg1.N) (X : S1x512x128.Idx → Elt F .f32)
    (hX : ∀ (r : Fin 512) (h : Fin 128), X (ix3 (0 : Fin 1) r h) = Gout (ix3 (r1Batch t) (r1QRow t r) h)) (j : S1x512x128.Idx) :
    X j = ((cfg1.win 3).blk t).view.read (Elt F) Gout j :=
  ((at_unit_ix3 X j).trans (hX (j 1) (j 2))).trans (read_blk1_3 Gout t j).symm

/-- An index of the array is in point `t`'s output block iff each coordinate is in the block's range on its axis. -/
theorem mem_blk1_3 (t : Fin cfg1.N) (i : S4x4096x128.Idx) :
    i ∈ ((cfg1.win 3).blk t).view.set ↔ ∀ a : Fin 3, win1_3.index t a * S1x512x128.size a ≤ (i a).val ∧ (i a).val < win1_3.index t a * S1x512x128.size a + S1x512x128.size a := by
  show i ∈ ((View.whole main_v4).slice (win1_3.rect t)).set ↔ _
  rw [View.set_slice_whole, Rect.mem_set_unit]
  exact Iff.rfl

/-- Every index of the output array is in the block of a point that writes back: row `s` of batch `b` in the block of the
    last key tile of query tile s / 512, point 64·b + 8·(s / 512) + 7. -/
theorem cover1_3 (i : S4x4096x128.Idx) : ∃ t : Fin cfg1.N, (cfg1.win 3).flush t = true ∧ i ∈ ((cfg1.win 3).blk t).view.set := by
  have hi0 : (i 0).val < 4 := (i 0).isLt
  have hi1 : (i 1).val < 4096 := (i 1).isLt
  have hi2 : (i 2).val < 128 := (i 2).isLt
  have hN : cfg1.N = 256 := N_1
  let t : Fin cfg1.N := ⟨64 * (i 0).val + 8 * ((i 1).val / 512) + 7, by rw [hN]; omega⟩
  have ht : t.val = 64 * (i 0).val + 8 * ((i 1).val / 512) + 7 := rfl
  obtain ⟨o0, o1, o2⟩ := index1_3 t
  refine ⟨t, (flush1_3 t).mpr (by omega), ?_⟩
  rw [mem_blk1_3]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 512 ≤ (i 1).val ∧ (i 1).val < win1_3.index t (1 : Fin 3) * 512 + 512; omega
  | ⟨2, _⟩ => show win1_3.index t (2 : Fin 3) * 128 ≤ (i 2).val ∧ (i 2).val < win1_3.index t (2 : Fin 3) * 128 + 128; omega

/-- What a point that writes back (key tile 7) writes to the output array is its block of `Gout`, when the output block's
    buffer after the body holds the rows of `Gout` at the point's batch and query tile. -/
theorem flushed1_3_eq (c : Dev nD) (Gout : S4x4096x128.Idx → Elt F .f32)
    (hpt : ∀ (t : Fin cfg1.N), t.val % 8 = 7 → ∀ (r : Fin 512) (h : Fin 128),
      (outsAt1 V c t.val t.isLt).1 (ix3 (0 : Fin 1) r h) = Gout (ix3 (r1Batch t) (r1QRow t r) h))
    (t : Fin cfg1.N) (hf : (cfg1.win 3).flush t = true) :
    (dat1 V c).flushed 3 t = ((cfg1.win 3).blk t).view.read (Elt F) Gout := by
  have h7 : t.val % 8 = 7 := (flush1_3 t).mp hf
  show (cfg1.win 3).cut (grid1.coords t) ((dat1 V c).after 3 t) = _
  rw [after1_3]
  funext j
  exact out_blk1_3_eq Gout t (outsAt1 V c t.val t.isLt).1 (hpt t h7) j

/-- THE OUTPUT ARRAY after the region is `Gout`, when at every point of key tile 7 the output block's buffer holds the
    rows of `Gout` at the point's batch and query tile: those points' blocks tile the array, and no other point writes
    back. -/
theorem final1_of (c : Dev nD) (Gout : S4x4096x128.Idx → Elt F .f32)
    (hpt : ∀ (t : Fin cfg1.N), t.val % 8 = 7 → ∀ (r : Fin 512) (h : Fin 128),
      (outsAt1 V c t.val t.isLt).1 (ix3 (0 : Fin 1) r h) = Gout (ix3 (r1Batch t) (r1QRow t r) h)) :
    (dat1 V c).arrAt 3 cfg1.N = Gout :=
  (dat1 V c).arrAt_eq_of_cover 3 Gout (fun t hf => flushed1_3_eq V c Gout hpt t hf) cover1_3

end Region1

end Cert.KernelIdeal.Hand

end
-- ==== Proof.AttnOnline.lean ====
import proofs.«120868_j4587025072851_2_alg».proof.Proof.Spec
import proofs.«120868_j4587025072851_2_alg».proof.Proof.LibOnlineSoftmax

/-!
# Causal attention, row by row, as an online softmax

A row of causal attention is a softmax-weighted average of the value rows, the weights coming
from the row's masked scores. Cutting the `S = N * Cn` key positions into `N` tiles of `Cn`
columns, position `j` is column `j % Cn` of tile `j / Cn`; the row's maximum, normaliser and
weighted sum become a maximum and two sums over tiles and columns, which is the two-pass form
that the online recurrence is shown to compute. For query row `i` the tiles after tile
`i / Cn` are entirely masked, so the recurrence may stop after `i / Cn + 1` tiles.

The finiteness facts used on the way: a finite sum of products of finite numbers is finite
(so the projections and the unmasked scores are real numbers), and the scale word denotes a
real number.
-/

noncomputable section

namespace Cert.Attn

open Idealize.ShloMosaic
open scoped BigOperators
open Cert.OnlineSoftmax

/-! ### Finite extended reals -/

/-- A product of two finite extended reals is finite. -/
theorem real_mul {x y : EReal} (hx : x ≠ ⊤ ∧ x ≠ ⊥) (hy : y ≠ ⊤ ∧ y ≠ ⊥) :
    x * y ≠ ⊤ ∧ x * y ≠ ⊥ := by
  rw [← EReal.coe_toReal hx.1 hx.2, ← EReal.coe_toReal hy.1 hy.2, ← EReal.coe_mul]
  exact ⟨EReal.coe_ne_top _, EReal.coe_ne_bot _⟩

/-- A finite sum of finite extended reals is finite. -/
theorem real_sum {ι : Type} (A : Finset ι) (f : ι → EReal) (hf : ∀ i ∈ A, f i ≠ ⊤ ∧ f i ≠ ⊥) :
    ∑ i ∈ A, f i ≠ ⊤ ∧ ∑ i ∈ A, f i ≠ ⊥ := by
  have hsum : ∑ i ∈ A, f i = ((∑ i ∈ A, (f i).toReal : ℝ) : EReal) := by
    rw [coe_sum]
    exact Finset.sum_congr rfl fun i hi => (EReal.coe_toReal (hf i hi).1 (hf i hi).2).symm
  rw [hsum]
  exact ⟨EReal.coe_ne_top _, EReal.coe_ne_bot _⟩

/-- The scale word denotes a real number. -/
theorem scale_real : scale ≠ ⊤ ∧ scale ≠ ⊥ := by
  -- the word's exponent field is neither all ones nor zero: it denotes a normal number
  have hr : ∃ r : ℝ, scale = (r : EReal) := by
    unfold scale Ideal.ofBits Ideal.ieee
    simp only []
    rw [if_neg (by decide), if_neg (by decide)]
    exact ⟨_, rfl⟩
  obtain ⟨r, hr⟩ := hr
  rw [hr]
  exact ⟨EReal.coe_ne_top _, EReal.coe_ne_bot _⟩

/-- A product of a finite array with a finite weight matrix is finite. -/
theorem proj_real {B S E H : ℕ} (x : Fin B → Fin S → Fin E → EReal) (W : Fin E → Fin H → EReal)
    (hx : ∀ b s e, x b s e ≠ ⊤ ∧ x b s e ≠ ⊥) (hW : ∀ e h, W e h ≠ ⊤ ∧ W e h ≠ ⊥) :
    ∀ b s h, proj x W b s h ≠ ⊤ ∧ proj x W b s h ≠ ⊥ := by
  intro b s h
  unfold proj
  exact real_sum _ _ fun e _ => real_mul (hx b s e) (hW e h)

/-! ### Scores -/

section Scores

variable {B S H : ℕ} {q k : Fin B → Fin S → Fin H → EReal}

/-- An unmasked score (key position at or before the query position) is a real number. -/
theorem score_real_of_le (hq : ∀ b s h, q b s h ≠ ⊤ ∧ q b s h ≠ ⊥)
    (hk : ∀ b s h, k b s h ≠ ⊤ ∧ k b s h ≠ ⊥) (b : Fin B) {i j : Fin S} (hji : j ≤ i) :
    score q k b i j ≠ ⊤ ∧ score q k b i j ≠ ⊥ := by
  rw [score, if_pos hji]
  exact real_mul (real_sum _ _ fun h _ => real_mul (hq b i h) (hk b j h)) scale_real

/-- A masked score (key position after the query position) is `-∞`. -/
theorem score_of_lt (b : Fin B) {i j : Fin S} (hij : i < j) : score q k b i j = ⊥ := by
  rw [score, if_neg (not_le.2 hij)]

/-- No score is `+∞`. -/
theorem score_ne_top (hq : ∀ b s h, q b s h ≠ ⊤ ∧ q b s h ≠ ⊥)
    (hk : ∀ b s h, k b s h ≠ ⊤ ∧ k b s h ≠ ⊥) (b : Fin B) (i j : Fin S) :
    score q k b i j ≠ ⊤ := by
  by_cases hji : j ≤ i
  · exact (score_real_of_le hq hk b hji).1
  · rw [score_of_lt b (not_le.1 hji)]
    exact bot_ne_top

end Scores

/-! ### Tiles -/

/-- The scores of query row `i` cut into tiles of `Cn` columns: tile `t`, column `c` is key
    position `t * Cn + c` (`-∞` past the end). -/
def tileScore {B S H : ℕ} (Cn : ℕ) (q k : Fin B → Fin S → Fin H → EReal) (b : Fin B) (i : Fin S) :
    ℕ → Fin Cn → EReal :=
  fun t c => if h : t * Cn + c.val < S then score q k b i ⟨t * Cn + c.val, h⟩ else ⊥

/-- The value rows cut into the same tiles (`0` past the end). -/
def tileVal {B S H : ℕ} (Cn : ℕ) (v : Fin B → Fin S → Fin H → EReal) (b : Fin B) :
    ℕ → Fin Cn → Fin H → EReal :=
  fun t c h => if hh : t * Cn + c.val < S then v b ⟨t * Cn + c.val, hh⟩ h else 0

/-- Column `c` of tile `t < N` is a position below `N * Cn`. -/
theorem tile_lt {N Cn t : ℕ} (ht : t < N) (c : Fin Cn) : t * Cn + c.val < N * Cn :=
  calc t * Cn + c.val < t * Cn + Cn := Nat.add_lt_add_left c.isLt _
    _ = (t + 1) * Cn := (Nat.succ_mul t Cn).symm
    _ ≤ N * Cn := Nat.mul_le_mul_right Cn ht

/-- A sum over `S = N * Cn` positions is the sum over `N` tiles of the sums over their `Cn`
    columns. -/
theorem sum_tiles {S : ℕ} (N Cn : ℕ) (hS : S = N * Cn) (g : Fin S → EReal) :
    ∑ j, g j = ∑ t ∈ Finset.range N, ∑ c : Fin Cn,
      if h : t * Cn + c.val < S then g ⟨t * Cn + c.val, h⟩ else 0 := by
  subst hS
  rw [← Fin.sum_univ_eq_sum_range (fun t => ∑ c : Fin Cn,
      if h : t * Cn + c.val < N * Cn then g ⟨t * Cn + c.val, h⟩ else 0) N,
    ← Equiv.sum_comp finProdFinEquiv g, Fintype.sum_prod_type]
  refine Finset.sum_congr rfl fun t _ => Finset.sum_congr rfl fun c _ => ?_
  rw [dif_pos (tile_lt t.isLt c)]
  congr 1
  apply Fin.ext
  show c.val + Cn * t.val = t.val * Cn + c.val
  rw [Nat.mul_comm, Nat.add_comm]

/-- A maximum over `S = N * Cn` positions is the maximum over `N` tiles of the maxima over
    their `Cn` columns. -/
theorem sup_tiles {S : ℕ} (N Cn : ℕ) (hS : S = N * Cn) (g : Fin S → EReal) :
    Finset.univ.sup g = (Finset.range N).sup fun t => Finset.univ.sup fun c : Fin Cn =>
      if h : t * Cn + c.val < S then g ⟨t * Cn + c.val, h⟩ else ⊥ := by
  subst hS
  apply le_antisymm
  · refine Finset.sup_le fun j _ => ?_
    have hpos : 0 < N * Cn := lt_of_le_of_lt (Nat.zero_le _) j.isLt
    have hCn : 0 < Cn := by
      rcases Nat.eq_zero_or_pos Cn with h | h
      · rw [h, Nat.mul_zero] at hpos
        exact absurd hpos (Nat.lt_irrefl 0)
      · exact h
    have ht : j.val / Cn < N := (Nat.div_lt_iff_lt_mul hCn).2 j.isLt
    have hj : j.val / Cn * Cn + j.val % Cn = j.val := Nat.div_add_mod' _ _
    have hlt : j.val / Cn * Cn + (⟨j.val % Cn, Nat.mod_lt _ hCn⟩ : Fin Cn).val < N * Cn := by
      show j.val / Cn * Cn + j.val % Cn < N * Cn
      rw [hj]
      exact j.isLt
    refine le_trans ?_ (Finset.le_sup (f := fun t => Finset.univ.sup fun c : Fin Cn =>
      if h : t * Cn + c.val < N * Cn then g ⟨t * Cn + c.val, h⟩ else ⊥) (Finset.mem_range.2 ht))
    refine le_trans ?_ (Finset.le_sup (f := fun c : Fin Cn =>
      if h : j.val / Cn * Cn + c.val < N * Cn then g ⟨j.val / Cn * Cn + c.val, h⟩ else ⊥)
      (Finset.mem_univ ⟨j.val % Cn, Nat.mod_lt _ hCn⟩))
    rw [dif_pos hlt]
    exact le_of_eq (congrArg g (Fin.ext hj.symm))
  · refine Finset.sup_le fun t _ => Finset.sup_le fun c _ => ?_
    split_ifs with h
    · exact Finset.le_sup (Finset.mem_univ _)
    · exact bot_le

/-- With a position to index, the tile width is positive. -/
theorem tile_width_pos {S N Cn : ℕ} (hS : S = N * Cn) (i : Fin S) : 0 < Cn := by
  have hiS : i.val < N * Cn := hS ▸ i.isLt
  have hpos : 0 < N * Cn := lt_of_le_of_lt (Nat.zero_le _) hiS
  rcases Nat.eq_zero_or_pos Cn with h0 | h0
  · rw [h0, Nat.mul_zero] at hpos
    exact absurd hpos (Nat.lt_irrefl 0)
  · exact h0

/-- The tile holding the diagonal of row `i` is one of the `N` tiles. -/
theorem tile_stop_le {S N Cn : ℕ} (hS : S = N * Cn) (i : Fin S) : i.val / Cn + 1 ≤ N := by
  have hiS : i.val < N * Cn := hS ▸ i.isLt
  exact (Nat.div_lt_iff_lt_mul (tile_width_pos hS i)).2 hiS

section TileFacts

variable {B S H Cn : ℕ} {q k v : Fin B → Fin S → Fin H → EReal}

/-- No tiled score is `+∞`. -/
theorem tileScore_ne_top (hq : ∀ b s h, q b s h ≠ ⊤ ∧ q b s h ≠ ⊥)
    (hk : ∀ b s h, k b s h ≠ ⊤ ∧ k b s h ≠ ⊥) (b : Fin B) (i : Fin S) (t : ℕ) (c : Fin Cn) :
    tileScore Cn q k b i t c ≠ ⊤ := by
  unfold tileScore
  split_ifs
  · exact score_ne_top hq hk b i _
  · exact bot_ne_top

/-- The tiles after the one holding the diagonal of row `i` are entirely masked. -/
theorem tileScore_mask (hCn : 0 < Cn) (b : Fin B) (i : Fin S) (t : ℕ)
    (ht : i.val / Cn + 1 ≤ t) (c : Fin Cn) : tileScore Cn q k b i t c = ⊥ := by
  unfold tileScore
  split_ifs with hlt
  · refine score_of_lt b (Fin.lt_def.2 ?_)
    calc i.val < (i.val / Cn + 1) * Cn := (Nat.div_lt_iff_lt_mul hCn).1 (Nat.lt_succ_self _)
      _ ≤ t * Cn := Nat.mul_le_mul_right Cn ht
      _ ≤ t * Cn + c.val := Nat.le_add_right _ _
  · rfl

/-- The first column of the first tile is unmasked for every row: a real score. -/
theorem tileScore_zero (hq : ∀ b s h, q b s h ≠ ⊤ ∧ q b s h ≠ ⊥)
    (hk : ∀ b s h, k b s h ≠ ⊤ ∧ k b s h ≠ ⊥) (hCn : 0 < Cn) (b : Fin B) (i : Fin S) :
    ∃ c, tileScore Cn q k b i 0 c ≠ ⊥ := by
  have hlt : 0 * Cn + (⟨0, hCn⟩ : Fin Cn).val < S := by
    show 0 * Cn + 0 < S
    rw [Nat.zero_mul]
    exact lt_of_le_of_lt (Nat.zero_le _) i.isLt
  refine ⟨⟨0, hCn⟩, ?_⟩
  unfold tileScore
  rw [dif_pos hlt]
  refine (score_real_of_le hq hk b (Fin.le_def.2 ?_)).2
  show 0 * Cn + 0 ≤ i.val
  rw [Nat.zero_mul]
  exact Nat.zero_le _

/-- The tiled values are finite. -/
theorem tileVal_real (hv : ∀ b s h, v b s h ≠ ⊤ ∧ v b s h ≠ ⊥) (b : Fin B) (t : ℕ) (c : Fin Cn)
    (h : Fin H) : tileVal Cn v b t c h ≠ ⊤ ∧ tileVal Cn v b t c h ≠ ⊥ := by
  unfold tileVal
  split_ifs
  · exact hv b _ h
  · exact ⟨EReal.zero_ne_top, EReal.zero_ne_bot⟩

end TileFacts

section Rows

variable {B S H : ℕ} (N Cn : ℕ) (hS : S = N * Cn) (q k v : Fin B → Fin S → Fin H → EReal)
  (hq : ∀ b s h, q b s h ≠ ⊤ ∧ q b s h ≠ ⊥) (hk : ∀ b s h, k b s h ≠ ⊤ ∧ k b s h ≠ ⊥)
  (hv : ∀ b s h, v b s h ≠ ⊤ ∧ v b s h ≠ ⊥) (b : Fin B) (i : Fin S)

include hS

/-- The row's maximum is the maximum over its tiles. -/
theorem rowMax_eq_gmax : rowMax q k b i = gmax (tileScore Cn q k b i) N :=
  sup_tiles N Cn hS _

/-- The row's exponentials are the tiles' softmax weights. -/
theorem expo_eq_wt (t : ℕ) (c : Fin Cn) (hlt : t * Cn + c.val < S) :
    expo q k b i ⟨t * Cn + c.val, hlt⟩ = wt (tileScore Cn q k b i) N t c := by
  rw [expo, wt, rowMax_eq_gmax N Cn hS]
  unfold tileScore
  rw [dif_pos hlt]

/-- The row's normaliser is the normaliser over its tiles. -/
theorem rowSum_eq_Zsum : rowSum q k b i = Zsum (tileScore Cn q k b i) N := by
  rw [rowSum, sum_tiles N Cn hS, Zsum]
  refine Finset.sum_congr rfl fun t ht => Finset.sum_congr rfl fun c _ => ?_
  have hlt : t * Cn + c.val < S := hS ▸ tile_lt (Finset.mem_range.1 ht) c
  rw [dif_pos hlt, expo_eq_wt N Cn hS q k b i t c hlt]

/-- After the tile holding the diagonal, the recurrence's maximum is the row's maximum. -/
theorem run_m_row :
    (run (tileScore Cn q k b i) (tileVal Cn v b) (i.val / Cn + 1)).m = rowMax q k b i := by
  rw [rowMax_eq_gmax N Cn hS]
  exact run_m_eq (tile_stop_le hS i) (tileScore_mask (tile_width_pos hS i) b i)

include hq hk hv

/-- After the tile holding the diagonal, the recurrence's normaliser is the row's normaliser. -/
theorem run_l_row :
    (run (tileScore Cn q k b i) (tileVal Cn v b) (i.val / Cn + 1)).l = rowSum q k b i := by
  have hCn : 0 < Cn := tile_width_pos hS i
  rw [rowSum_eq_Zsum N Cn hS]
  exact run_l_eq (Nat.succ_pos _) (tile_stop_le hS i) (tileScore_ne_top hq hk b i)
    (tileScore_mask hCn b i) (tileScore_zero hq hk hCn b i) (tileVal_real hv b)

/-- After the tile holding the diagonal, the recurrence's weighted sums are the row's
    unnormalised weighted sums. -/
theorem run_acc_row (h : Fin H) :
    (run (tileScore Cn q k b i) (tileVal Cn v b) (i.val / Cn + 1)).acc h
      = ∑ j : Fin S, expo q k b i j * v b j h := by
  have hCn : 0 < Cn := tile_width_pos hS i
  rw [run_acc_eq (N := N) (Nat.succ_pos _) (tile_stop_le hS i) (tileScore_ne_top hq hk b i)
    (tileScore_mask hCn b i) (tileScore_zero hq hk hCn b i) (tileVal_real hv b) h,
    sum_tiles N Cn hS]
  refine Finset.sum_congr rfl fun t ht => Finset.sum_congr rfl fun c _ => ?_
  have hlt : t * Cn + c.val < S := hS ▸ tile_lt (Finset.mem_range.1 ht) c
  rw [dif_pos hlt, expo_eq_wt N Cn hS q k b i t c hlt]
  congr 1
  unfold tileVal
  rw [dif_pos hlt]

/-- **A row of causal attention is the online softmax over its tiles**, stopped after the
    tile that holds the diagonal. -/
theorem attend_eq_online (h : Fin H) :
    attend q k v b i h
      = Ideal.div ((run (tileScore Cn q k b i) (tileVal Cn v b) (i.val / Cn + 1)).acc h)
          ((run (tileScore Cn q k b i) (tileVal Cn v b) (i.val / Cn + 1)).l) := by
  have hCn : 0 < Cn := tile_width_pos hS i
  rw [← run_eq_twoPass (N := N) (Nat.succ_pos _) (tile_stop_le hS i) (tileScore_ne_top hq hk b i)
    (tileScore_mask hCn b i) (tileScore_zero hq hk hCn b i) (tileVal_real hv b) h,
    attend, sum_tiles N Cn hS]
  refine Finset.sum_congr rfl fun t ht => Finset.sum_congr rfl fun c _ => ?_
  have hlt : t * Cn + c.val < S := hS ▸ tile_lt (Finset.mem_range.1 ht) c
  rw [dif_pos hlt, expo_eq_wt N Cn hS q k b i t c hlt, rowSum_eq_Zsum N Cn hS]
  congr 1
  unfold tileVal
  rw [dif_pos hlt]

end Rows

end Cert.Attn
-- ==== Proof.KITiles.lean ====
/-
  The kernel's tiles are the specification's. Query tile `q` holds the query rows q·512 … q·512 + 511 and key tile `k`
  the key rows k·512 … k·512 + 511 of one batch entry; the kernel's mask "key index at most query index" on those
  numbers is the specification's causal mask on the positions, so a row of the kernel's masked scores is the row's
  scores cut to tile `k`, and the loaded value rows are the value rows cut to tile `k`.
-/
import proofs.«120868_j4587025072851_2_alg».proof.Proof.KIPayloads
import proofs.«120868_j4587025072851_2_alg».proof.Proof.AttnOnline

noncomputable section

namespace Cert.KernelIdeal.HandValue

open Cert.KernelIdeal Cert.KernelIdeal.Gen Idealize.ShloMosaic Idealize.SL.Sem
open Idealize.ShloMosaic.ValueIdx

/-- Row `r` of the kernel's masked scores of the tile (q, k) is tile `k` of the scores of query position q·512 + r. -/
theorem sTile_eq_tileScore (Q K : Fin 4 → Fin 4096 → Fin 128 → EReal) (b : Fin 4) (q k : ℕ) (hq : q < 8) (hkq : k ≤ q)
    (r : Fin 512) (xq xk : Vec Ideal S1x512x128 .bf16)
    (hxq : ∀ h : Fin 128, xq (ix3 0 r h) = Q b ⟨q * 512 + r.val, by omega⟩ h)
    (hxk : ∀ (cc : Fin 512) (h : Fin 128), xk (ix3 0 cc h) = K b ⟨k * 512 + cc.val, by omega⟩ h) :
    sTile q k xq xk r = Cert.Attn.tileScore 512 Q K b ⟨q * 512 + r.val, by omega⟩ k := by
  funext c
  have hc := c.isLt
  have hlt : k * 512 + c.val < 4096 := by omega
  unfold sTile Cert.Attn.tileScore
  rw [dif_pos hlt]
  unfold Cert.Attn.score
  by_cases hle : k * 512 + c.val ≤ q * 512 + r.val
  · rw [if_pos hle, if_pos (Fin.mk_le_mk.mpr hle)]
    exact congrArg (· * Cert.Attn.scale) (Finset.sum_congr rfl fun h _ => by rw [hxq h, hxk c h])
  · rw [if_neg hle, if_neg (fun h' => hle (Fin.mk_le_mk.mp h'))]

/-- The loaded value rows of key tile `k` are tile `k` of the value rows. -/
theorem vals_eq_tileVal (Vv : Fin 4 → Fin 4096 → Fin 128 → EReal) (b : Fin 4) (k : ℕ) (hk : k < 8)
    (xv : Vec Ideal S1x512x128 .bf16)
    (hxv : ∀ (cc : Fin 512) (h : Fin 128), xv (ix3 0 cc h) = Vv b ⟨k * 512 + cc.val, by omega⟩ h) :
    (fun (cc : Fin 512) (h : Fin 128) => xv (ix3 0 cc h)) = Cert.Attn.tileVal 512 Vv b k := by
  funext c h
  have hc := c.isLt
  have hlt : k * 512 + c.val < 4096 := by omega
  unfold Cert.Attn.tileVal
  rw [dif_pos hlt]
  exact hxv c h

end Cert.KernelIdeal.HandValue

end
-- ==== Proof.AttnSteps.lean ====
import proofs.«120868_j4587025072851_2_alg».proof.Proof.AttnOnline

/-!
# A sequence of states that follows the recurrence, then rests

A sweep over key tiles `0, 1, …, Kmax` for a block of query rows in tile `q` applies the
recurrence's step on the tiles up to `q` and leaves the state alone on the later ones (they
are entirely masked for these rows). Such a sequence of states is the recurrence run over
`min k q + 1` tiles; at the end of the sweep its quotient `acc / l` is the row of causal
attention.
-/

noncomputable section

namespace Cert.Attn

open Idealize.ShloMosaic
open Cert.OnlineSoftmax

/-- A sequence of states that starts with the step on tile `0`, applies the step on tile `k`
    for `1 ≤ k ≤ q` and is left unchanged for `k > q` is, at every `k ≤ Kmax`, the recurrence
    over the first `min k q + 1` tiles. -/
theorem run_of_steps {C H : Type} [Fintype C] (s : ℕ → C → EReal) (v : ℕ → C → H → EReal)
    (q Kmax : ℕ) (st : ℕ → St H)
    (h0 : st 0 = step St.init (s 0) (v 0))
    (hstep : ∀ k, 1 ≤ k → k ≤ q → k ≤ Kmax → st k = step (st (k - 1)) (s k) (v k))
    (hskip : ∀ k, q < k → k ≤ Kmax → st k = st (k - 1)) :
    ∀ k, k ≤ Kmax → st k = run s v (min k q + 1) := by
  intro k
  induction k with
  | zero =>
    intro _
    rw [Nat.zero_min, h0]
    rfl
  | succ k ih =>
    intro hk
    have ihk := ih (Nat.le_of_succ_le hk)
    by_cases hkq : k + 1 ≤ q
    · rw [hstep (k + 1) (Nat.succ_pos k) hkq hk, Nat.add_sub_cancel, ihk,
        Nat.min_eq_left (Nat.le_of_succ_le hkq), Nat.min_eq_left hkq]
      rfl
    · have hqk : q ≤ k := Nat.le_of_lt_succ (Nat.lt_of_not_le hkq)
      rw [hskip (k + 1) (Nat.lt_succ_of_le hqk) hk, Nat.add_sub_cancel, ihk,
        Nat.min_eq_right hqk, Nat.min_eq_right (Nat.le_succ_of_le hqk)]

/-- At the sizes of the program (4096 positions in 8 tiles of 512): the state reached after
    `min 7 q + 1` tiles for row `r` of query tile `q` has quotient `acc / l` equal to that row
    of causal attention. -/
theorem attend_of_state (Q K Vv : Fin 4 → Fin 4096 → Fin 128 → EReal)
    (hQ : ∀ b s h, Q b s h ≠ ⊤ ∧ Q b s h ≠ ⊥) (hK : ∀ b s h, K b s h ≠ ⊤ ∧ K b s h ≠ ⊥)
    (hV : ∀ b s h, Vv b s h ≠ ⊤ ∧ Vv b s h ≠ ⊥) (b : Fin 4) (q : ℕ) (hq : q < 8) (r : Fin 512)
    (h : Fin 128) (st : St (Fin 128))
    (hst : st = run (tileScore 512 Q K b ⟨q * 512 + r.val, by omega⟩) (tileVal 512 Vv b)
      (min 7 q + 1)) :
    Ideal.div (st.acc h) st.l = attend Q K Vv b ⟨q * 512 + r.val, by omega⟩ h := by
  have hdiv : (q * 512 + r.val) / 512 = q := by omega
  have hmin : min 7 q = q := Nat.min_eq_right (Nat.le_of_lt_succ hq)
  rw [hst, hmin,
    attend_eq_online 8 512 (by norm_num) Q K Vv hQ hK hV b ⟨q * 512 + r.val, by omega⟩ h]
  simp only [hdiv]

end Cert.Attn
-- ==== Proof.KIRegion0Value.lean ====
/- Region 0 of @main on the extended reals: the contents of each of its three output arrays after the region, as
   one function of the region-entry contents — the product of the activations (4 × 4096 × 1024) by one weight matrix
   (1024 × 128), entry by entry. The body's payload at an index (a matrix product into the zero accumulator; changes of
   float format are the identity, shape casts add or drop a leading unit axis), what each grid point writes back, and
   the cover of each array by the points' blocks. -/
import proofs.«120868_j4587025072851_2_alg».proof.Proof.KIRegion0
import proofs.«120868_j4587025072851_2_alg».proof.Proof.Spec
import Idealize.ShloMosaic.Lib.ValueIdx
import Idealize.ShloMosaic.Lib.Pipeline.Value
import Idealize.ShloMosaic.PureOps.Ideal.Laws
import Idealize.ShloMosaic.Lib.ValueLayout

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

/-! ## The projection product at an index -/

/-- The left operand of the product is read at the output's row, -/
theorem proj_lhs_0 (j : S1024x128.Idx) (q : dot_S1024x1024_S1024x128_S1024x128_1_0_0_1_n_n.contr.Idx) :
    (dot_S1024x1024_S1024x128_S1024x128_1_0_0_1_n_n.lhsIdx j q 0).val = (j 0).val := by
  unfold DotDims.lhsIdx
  rw [dif_neg (show ¬(0 : Fin S1024x1024.rank) ∈ dot_S1024x1024_S1024x128_S1024x128_1_0_0_1_n_n.lhsBatch by decide), dif_pos (show (0 : Fin S1024x1024.rank) ∈ dot_S1024x1024_S1024x128_S1024x128_1_0_0_1_n_n.lhsNonContracting by decide)]
  rfl
/-- and at the contraction position; -/
theorem proj_lhs_1 (j : S1024x128.Idx) (q : dot_S1024x1024_S1024x128_S1024x128_1_0_0_1_n_n.contr.Idx) :
    (dot_S1024x1024_S1024x128_S1024x128_1_0_0_1_n_n.lhsIdx j q 1).val = (q ⟨0, by decide⟩).val :=
  dot_S1024x1024_S1024x128_S1024x128_1_0_0_1_n_n.lhsIdx_val_of_single rfl j q
/-- the right operand at the contraction position -/
theorem proj_rhs_0 (j : S1024x128.Idx) (q : dot_S1024x1024_S1024x128_S1024x128_1_0_0_1_n_n.contr.Idx) :
    (dot_S1024x1024_S1024x128_S1024x128_1_0_0_1_n_n.rhsIdx j q 0).val = (q ⟨0, by decide⟩).val :=
  dot_S1024x1024_S1024x128_S1024x128_1_0_0_1_n_n.rhsIdx_val_of_single rfl j q
/-- and at the output's column. -/
theorem proj_rhs_1 (j : S1024x128.Idx) (q : dot_S1024x1024_S1024x128_S1024x128_1_0_0_1_n_n.contr.Idx) :
    (dot_S1024x1024_S1024x128_S1024x128_1_0_0_1_n_n.rhsIdx j q 1).val = (j 1).val := by
  unfold DotDims.rhsIdx
  rw [dif_neg (show ¬(1 : Fin S1024x128.rank) ∈ dot_S1024x1024_S1024x128_S1024x128_1_0_0_1_n_n.rhsBatch by decide), dif_pos (show (1 : Fin S1024x128.rank) ∈ dot_S1024x1024_S1024x128_S1024x128_1_0_0_1_n_n.rhsNonContracting by decide)]
  rfl

/-- The product of a 1024×1024 matrix by a 1024×128 one into the zero accumulator, at row `r` and column `h`: the sum
    over the shared axis of the products of the entries. -/
theorem matmul_proj_apply (a : FVec Ideal S1024x1024 .bf16) (b : FVec Ideal S1024x128 .bf16) (r : Fin 1024) (h : Fin 128) :
    matmul dot_S1024x1024_S1024x128_S1024x128_1_0_0_1_n_n none a b (constant (F := Ideal) S1024x128 .f32 0x00000000#32) (ix2 r h)
      = ∑ e : Fin 1024, a (ix2 r e) * b (ix2 e h) := by
  show FloatOps.matmul dot_S1024x1024_S1024x128_S1024x128_1_0_0_1_n_n none a b (constant (F := Ideal) S1024x128 .f32 0x00000000#32) (ix2 r h) = _
  rw [Ideal.matmul_constant_zero_apply, ← Equiv.sum_comp (ValueIdx.contrEquiv1 dot_S1024x1024_S1024x128_S1024x128_1_0_0_1_n_n 1024 rfl rfl).symm]
  refine Finset.sum_congr rfl fun k _ => ?_
  have hk := ValueIdx.contrEquiv1_symm_val dot_S1024x1024_S1024x128_S1024x128_1_0_0_1_n_n 1024 rfl rfl k
  have el : dot_S1024x1024_S1024x128_S1024x128_1_0_0_1_n_n.lhsIdx (ix2 r h) ((ValueIdx.contrEquiv1 dot_S1024x1024_S1024x128_S1024x128_1_0_0_1_n_n 1024 rfl rfl).symm k) = ix2 r k := funext fun a => Fin.ext (by
    match a with
    | ⟨0, _⟩ => exact proj_lhs_0 _ _
    | ⟨1, _⟩ => exact (proj_lhs_1 _ _).trans hk)
  have er : dot_S1024x1024_S1024x128_S1024x128_1_0_0_1_n_n.rhsIdx (ix2 r h) ((ValueIdx.contrEquiv1 dot_S1024x1024_S1024x128_S1024x128_1_0_0_1_n_n 1024 rfl rfl).symm k) = ix2 k h := funext fun a => Fin.ext (by
    match a with
    | ⟨0, _⟩ => exact (proj_rhs_0 _ _).trans hk
    | ⟨1, _⟩ => exact proj_rhs_1 _ _)
  rw [el, er]

/-- The first output's payload at an index: row `r` of the activations block against column `h` of the weight matrix
    (the conversions between float formats are the identity on the extended reals, and the shape casts only add or drop
    the leading unit axis). -/
theorem pay2_apply (v0 : Vec Ideal S1x1024x1024 .f32) (v3 : Vec Ideal S1024x128 .bf16) (u : Fin 1) (r : Fin 1024) (h : Fin 128) :
    k0_pay2 v0 v3 (ix3 u r h) = ∑ e : Fin 1024, v0 (ix3 (0 : Fin 1) r e) * v3 (ix2 e h) := by
  unfold k0_pay2 k0_pay1
  rw [shapeCast_ab_1ab_apply, truncf_apply, matmul_proj_apply]
  refine Finset.sum_congr rfl fun e _ => ?_
  rw [truncf_apply, shapeCast_1ab_ab_apply, shapeCast_self]
theorem pay3_apply (v0 : Vec Ideal S1x1024x1024 .f32) (v3 : Vec Ideal S1024x128 .bf16) (u : Fin 1) (r : Fin 1024) (h : Fin 128) :
    k0_pay3 v0 v3 (ix3 u r h) = ∑ e : Fin 1024, v0 (ix3 (0 : Fin 1) r e) * v3 (ix2 e h) := by
  unfold k0_pay3 k0_pay1
  rw [shapeCast_ab_1ab_apply, truncf_apply, matmul_proj_apply]
  refine Finset.sum_congr rfl fun e _ => ?_
  rw [truncf_apply, shapeCast_1ab_ab_apply, shapeCast_self]
theorem pay4_apply (v0 : Vec Ideal S1x1024x1024 .f32) (v3 : Vec Ideal S1024x128 .bf16) (u : Fin 1) (r : Fin 1024) (h : Fin 128) :
    k0_pay4 v0 v3 (ix3 u r h) = ∑ e : Fin 1024, v0 (ix3 (0 : Fin 1) r e) * v3 (ix2 e h) := by
  unfold k0_pay4 k0_pay1
  rw [shapeCast_ab_1ab_apply, truncf_apply, matmul_proj_apply]
  refine Finset.sum_congr rfl fun e _ => ?_
  rw [truncf_apply, shapeCast_1ab_ab_apply, shapeCast_self]

/-! ## What the body leaves in an output buffer, at an index -/

theorem zeros3 : (![0, 0, 0] : Fin 3 → Nat) = fun _ => 0 := funext fun a => by fin_cases a <;> rfl
theorem zeros2 : (![0, 0] : Fin 2 → Nat) = fun _ => 0 := funext fun a => by fin_cases a <;> rfl

/-- Output window 4's buffer after the body, at an index: row `j 1` of the activations block against column `j 2` of
    the first weight matrix. -/
theorem out4_apply (x0 : Vec Ideal S1x1024x1024 .f32) (x1 : Vec Ideal S1024x128 .bf16) (j : S1x1024x128.Idx) :
    out0_4 x0 x1 j = ∑ e : Fin 1024, x0 (ix3 (0 : Fin 1) (j 1) e) * x1 (ix2 e (j 2)) := by
  unfold out0_4
  rw [View.canon_unit_zero zeros3]
  simp only [View.ld_unit_zero (S := S1x1024x1024) zeros3, View.ld_unit_zero (S := S1024x128) zeros2]
  obtain ⟨u, r, h, rfl⟩ : ∃ (u : Fin 1) (r : Fin 1024) (h : Fin 128), j = ix3 u r h := ⟨j 0, j 1, j 2, eq_ix3 j⟩
  exact pay2_apply x0 x1 u r h
theorem out5_apply (x0 : Vec Ideal S1x1024x1024 .f32) (x1 : Vec Ideal S1024x128 .bf16) (j : S1x1024x128.Idx) :
    out0_5 x0 x1 j = ∑ e : Fin 1024, x0 (ix3 (0 : Fin 1) (j 1) e) * x1 (ix2 e (j 2)) := by
  unfold out0_5
  rw [View.canon_unit_zero zeros3]
  simp only [View.ld_unit_zero (S := S1x1024x1024) zeros3, View.ld_unit_zero (S := S1024x128) zeros2]
  obtain ⟨u, r, h, rfl⟩ : ∃ (u : Fin 1) (r : Fin 1024) (h : Fin 128), j = ix3 u r h := ⟨j 0, j 1, j 2, eq_ix3 j⟩
  exact pay3_apply x0 x1 u r h
theorem out6_apply (x0 : Vec Ideal S1x1024x1024 .f32) (x1 : Vec Ideal S1024x128 .bf16) (j : S1x1024x128.Idx) :
    out0_6 x0 x1 j = ∑ e : Fin 1024, x0 (ix3 (0 : Fin 1) (j 1) e) * x1 (ix2 e (j 2)) := by
  unfold out0_6
  rw [View.canon_unit_zero zeros3]
  simp only [View.ld_unit_zero (S := S1x1024x1024) zeros3, View.ld_unit_zero (S := S1024x128) zeros2]
  obtain ⟨u, r, h, rfl⟩ : ∃ (u : Fin 1) (r : Fin 1024) (h : Fin 128), j = ix3 u r h := ⟨j 0, j 1, j 2, eq_ix3 j⟩
  exact pay4_apply x0 x1 u r h

/-! ## The printed index maps over the grid -/

/-- The block indices at grid point `t` = 4·b + p (batch `b`, row block `p`): the activations' and the three outputs' blocks
    are at (b, p, 0); the weight matrices' at (0, 0). -/
theorem index_facts : ∀ t : Fin cfg0.N,
    win0_0.index t (0 : Fin 3) = t.val / 4 ∧ win0_0.index t (1 : Fin 3) = t.val % 4 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val / 4 ∧ win0_4.index t (1 : Fin 3) = t.val % 4 ∧ win0_4.index t (2 : Fin 3) = 0
    ∧ win0_5.index t (0 : Fin 3) = t.val / 4 ∧ win0_5.index t (1 : Fin 3) = t.val % 4 ∧ win0_5.index t (2 : Fin 3) = 0
    ∧ win0_6.index t (0 : Fin 3) = t.val / 4 ∧ win0_6.index t (1 : Fin 3) = t.val % 4 ∧ win0_6.index t (2 : Fin 3) = 0 :=
  (by decide +kernel : ∀ t : Fin grid0.N, _)

/-! ## From blocks to the arrays -/

/-- The product of the activations by a weight matrix, as an array of shape 4 × 4096 × 128. -/
abbrev projArr (X : S4x4096x1024.Idx → EReal) (W : S1024x128.Idx → EReal) : S4x4096x128.Idx → EReal :=
  fun o => Cert.Attn.proj (Cert.Attn.at3 X) (Cert.Attn.at2 W) (o 0) (o 1) (o 2)

/-- A row of a block of the activations against a column of the weight block is the product array's entry `i`, when the
    block's row is row `(i 0, i 1)` of the activations and the weight block's column is column `i 2` of the matrix. -/
theorem block_sum_eq (X : S4x4096x1024.Idx → EReal) (W : S1024x128.Idx → EReal)
    (xb : S1x1024x1024.Idx → EReal) (wb : S1024x128.Idx → EReal) (j : S1x1024x128.Idx) (i : S4x4096x128.Idx)
    (hx : ∀ e : Fin 1024, xb (ix3 (0 : Fin 1) (j 1) e) = X (ix3 (i 0) (i 1) e))
    (hw : ∀ e : Fin 1024, wb (ix2 e (j 2)) = W (ix2 e (i 2))) :
    (∑ e : Fin 1024, xb (ix3 (0 : Fin 1) (j 1) e) * wb (ix2 e (j 2))) = projArr X W i := by
  show _ = ∑ e : Fin 1024, X (ix3 (i 0) (i 1) e) * W (ix2 e (i 2))
  exact Finset.sum_congr rfl fun e _ => by rw [hx e, hw e]

section Arrays
-- the TensorCore's buffer contents when the region is entered
variable (V : (c : Dev nD) → (b : Ref sig .tc) → Buf (Elt Ideal) ((c : Thread nD τ).loc b))

/-! ## Output window 4: the activations by the first weight matrix -/

/-- What point `t` writes back to output window 4's array is block `t` of the product of the activations by the first
    weight matrix, as the region finds them: the block's row is the array's row at the point's batch and row block, and
    the weight block is the whole matrix. -/
theorem flushed4_eq (c : Dev nD) (t : Fin cfg0.N) :
    (dat0 (F := Ideal) V c).flushed 4 t = ((cfg0.win 4).blk t).view.read (Elt Ideal) (projArr (V c main_arg0) (V c main_v0)) := by
  show (cfg0.win 4).cut (grid0.coords t) ((dat0 (F := Ideal) V c).after 4 t) = _
  rw [after0_4]
  obtain ⟨a0, a1, a2, b0, b1, -, -, -, -, o0, o1, o2, -⟩ := index_facts t
  funext j
  have hj0 : (j 0).val < 1 := (j 0).isLt
  have hj1 : (j 1).val < 1024 := (j 1).isLt
  have hj2 : (j 2).val < 128 := (j 2).isLt
  refine (out4_apply (iblk0 V c 0 t) (iblk0 V c 1 t) j).trans
    (block_sum_eq (V c main_arg0) (V c main_v0) _ _ j (((cfg0.win 4).blk t).view.emb j) (fun e => ?_) (fun e => ?_))
  · show V c main_arg0 (((cfg0.win 0).blk t).view.emb (ix3 (0 : Fin 1) (j 1) e)) = _
    refine congrArg (V c main_arg0) (funext fun a => Fin.ext ?_)
    match a with
    | ⟨0, _⟩ => show win0_0.index t (0 : Fin 3) * 1 + 1 * 0 = win0_4.index t (0 : Fin 3) * 1 + 1 * (j 0).val; omega
    | ⟨1, _⟩ => show win0_0.index t (1 : Fin 3) * 1024 + 1 * (j 1).val = win0_4.index t (1 : Fin 3) * 1024 + 1 * (j 1).val; omega
    | ⟨2, _⟩ => show win0_0.index t (2 : Fin 3) * 1024 + 1 * e.val = e.val; omega
  · show V c main_v0 (((cfg0.win 1).blk t).view.emb (ix2 e (j 2))) = _
    refine congrArg (V c main_v0) (funext fun a => Fin.ext ?_)
    match a with
    | ⟨0, _⟩ => show win0_1.index t (0 : Fin 2) * 1024 + 1 * e.val = e.val; omega
    | ⟨1, _⟩ => show win0_1.index t (1 : Fin 2) * 128 + 1 * (j 2).val = win0_4.index t (2 : Fin 3) * 128 + 1 * (j 2).val; omega

/-- An index of the array is in point `t`'s block iff each coordinate is in the block's range on its axis. -/
theorem mem_blk4 (t : Fin cfg0.N) (i : S4x4096x128.Idx) :
    i ∈ ((cfg0.win 4).blk t).view.set ↔ ∀ a : Fin 3, win0_4.index t a * S1x1024x128.size a ≤ (i a).val ∧ (i a).val < win0_4.index t a * S1x1024x128.size a + S1x1024x128.size a := by
  show i ∈ ((View.whole main_v3_0).slice (win0_4.rect t)).set ↔ _
  rw [View.set_slice_whole, Rect.mem_set_unit]
  exact Iff.rfl

/-- Every index of the array is in some point's block: row `s` of batch `b` in the block of point 4·b + s / 1024. -/
theorem cover4 (i : S4x4096x128.Idx) : ∃ t : Fin cfg0.N, (cfg0.win 4).flush t = true ∧ i ∈ ((cfg0.win 4).blk t).view.set := by
  have hi0 : (i 0).val < 4 := (i 0).isLt
  have hi1 : (i 1).val < 4096 := (i 1).isLt
  have hi2 : (i 2).val < 128 := (i 2).isLt
  have hN : cfg0.N = 16 := N_0
  let t : Fin cfg0.N := ⟨4 * (i 0).val + (i 1).val / 1024, by rw [hN]; omega⟩
  have ht : t.val = 4 * (i 0).val + (i 1).val / 1024 := rfl
  obtain ⟨-, -, -, -, -, -, -, -, -, o0, o1, o2, -⟩ := index_facts t
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1024 ≤ (i 1).val ∧ (i 1).val < win0_4.index t (1 : Fin 3) * 1024 + 1024; omega
  | ⟨2, _⟩ => show win0_4.index t (2 : Fin 3) * 128 ≤ (i 2).val ∧ (i 2).val < win0_4.index t (2 : Fin 3) * 128 + 128; omega

/-- The first output array after the region: the product of the activations by the first weight matrix, entry by
    entry. -/
theorem final0_4 (c : Dev nD) : (dat0 (F := Ideal) V c).arrAt 4 cfg0.N
    = fun o => Cert.Attn.proj (Cert.Attn.at3 (V c main_arg0)) (Cert.Attn.at2 (V c main_v0)) (o 0) (o 1) (o 2) :=
  (dat0 (F := Ideal) V c).arrAt_eq_of_cover 4 (projArr (V c main_arg0) (V c main_v0)) (fun t _ => flushed4_eq V c t) cover4

/-! ## Output window 5: the activations by the second weight matrix -/

/-- What point `t` writes back to output window 5's array is block `t` of the product of the activations by the second
    weight matrix, as the region finds them: the block's row is the array's row at the point's batch and row block, and
    the weight block is the whole matrix. -/
theorem flushed5_eq (c : Dev nD) (t : Fin cfg0.N) :
    (dat0 (F := Ideal) V c).flushed 5 t = ((cfg0.win 5).blk t).view.read (Elt Ideal) (projArr (V c main_arg0) (V c main_v1)) := by
  show (cfg0.win 5).cut (grid0.coords t) ((dat0 (F := Ideal) V c).after 5 t) = _
  rw [after0_5]
  obtain ⟨a0, a1, a2, -, -, b0, b1, -, -, -, -, -, o0, o1, o2, -⟩ := index_facts t
  funext j
  have hj0 : (j 0).val < 1 := (j 0).isLt
  have hj1 : (j 1).val < 1024 := (j 1).isLt
  have hj2 : (j 2).val < 128 := (j 2).isLt
  refine (out5_apply (iblk0 V c 0 t) (iblk0 V c 2 t) j).trans
    (block_sum_eq (V c main_arg0) (V c main_v1) _ _ j (((cfg0.win 5).blk t).view.emb j) (fun e => ?_) (fun e => ?_))
  · show V c main_arg0 (((cfg0.win 0).blk t).view.emb (ix3 (0 : Fin 1) (j 1) e)) = _
    refine congrArg (V c main_arg0) (funext fun a => Fin.ext ?_)
    match a with
    | ⟨0, _⟩ => show win0_0.index t (0 : Fin 3) * 1 + 1 * 0 = win0_5.index t (0 : Fin 3) * 1 + 1 * (j 0).val; omega
    | ⟨1, _⟩ => show win0_0.index t (1 : Fin 3) * 1024 + 1 * (j 1).val = win0_5.index t (1 : Fin 3) * 1024 + 1 * (j 1).val; omega
    | ⟨2, _⟩ => show win0_0.index t (2 : Fin 3) * 1024 + 1 * e.val = e.val; omega
  · show V c main_v1 (((cfg0.win 2).blk t).view.emb (ix2 e (j 2))) = _
    refine congrArg (V c main_v1) (funext fun a => Fin.ext ?_)
    match a with
    | ⟨0, _⟩ => show win0_2.index t (0 : Fin 2) * 1024 + 1 * e.val = e.val; omega
    | ⟨1, _⟩ => show win0_2.index t (1 : Fin 2) * 128 + 1 * (j 2).val = win0_5.index t (2 : Fin 3) * 128 + 1 * (j 2).val; omega

/-- An index of the array is in point `t`'s block iff each coordinate is in the block's range on its axis. -/
theorem mem_blk5 (t : Fin cfg0.N) (i : S4x4096x128.Idx) :
    i ∈ ((cfg0.win 5).blk t).view.set ↔ ∀ a : Fin 3, win0_5.index t a * S1x1024x128.size a ≤ (i a).val ∧ (i a).val < win0_5.index t a * S1x1024x128.size a + S1x1024x128.size a := by
  show i ∈ ((View.whole main_v3_1).slice (win0_5.rect t)).set ↔ _
  rw [View.set_slice_whole, Rect.mem_set_unit]
  exact Iff.rfl

/-- Every index of the array is in some point's block: row `s` of batch `b` in the block of point 4·b + s / 1024. -/
theorem cover5 (i : S4x4096x128.Idx) : ∃ t : Fin cfg0.N, (cfg0.win 5).flush t = true ∧ i ∈ ((cfg0.win 5).blk t).view.set := by
  have hi0 : (i 0).val < 4 := (i 0).isLt
  have hi1 : (i 1).val < 4096 := (i 1).isLt
  have hi2 : (i 2).val < 128 := (i 2).isLt
  have hN : cfg0.N = 16 := N_0
  let t : Fin cfg0.N := ⟨4 * (i 0).val + (i 1).val / 1024, by rw [hN]; omega⟩
  have ht : t.val = 4 * (i 0).val + (i 1).val / 1024 := rfl
  obtain ⟨-, -, -, -, -, -, -, -, -, -, -, -, o0, o1, o2, -⟩ := index_facts t
  refine ⟨t, flush0_5 t, ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 1024 ≤ (i 1).val ∧ (i 1).val < win0_5.index t (1 : Fin 3) * 1024 + 1024; omega
  | ⟨2, _⟩ => show win0_5.index t (2 : Fin 3) * 128 ≤ (i 2).val ∧ (i 2).val < win0_5.index t (2 : Fin 3) * 128 + 128; omega

/-- The second output array after the region: the product of the activations by the second weight matrix, entry by
    entry. -/
theorem final0_5 (c : Dev nD) : (dat0 (F := Ideal) V c).arrAt 5 cfg0.N
    = fun o => Cert.Attn.proj (Cert.Attn.at3 (V c main_arg0)) (Cert.Attn.at2 (V c main_v1)) (o 0) (o 1) (o 2) :=
  (dat0 (F := Ideal) V c).arrAt_eq_of_cover 5 (projArr (V c main_arg0) (V c main_v1)) (fun t _ => flushed5_eq V c t) cover5

/-! ## Output window 6: the activations by the third weight matrix -/

/-- What point `t` writes back to output window 6's array is block `t` of the product of the activations by the third
    weight matrix, as the region finds them: the block's row is the array's row at the point's batch and row block, and
    the weight block is the whole matrix. -/
theorem flushed6_eq (c : Dev nD) (t : Fin cfg0.N) :
    (dat0 (F := Ideal) V c).flushed 6 t = ((cfg0.win 6).blk t).view.read (Elt Ideal) (projArr (V c main_arg0) (V c main_v2)) := by
  show (cfg0.win 6).cut (grid0.coords t) ((dat0 (F := Ideal) V c).after 6 t) = _
  rw [after0_6]
  obtain ⟨a0, a1, a2, -, -, -, -, b0, b1, -, -, -, -, -, -, o0, o1, o2⟩ := index_facts t
  funext j
  have hj0 : (j 0).val < 1 := (j 0).isLt
  have hj1 : (j 1).val < 1024 := (j 1).isLt
  have hj2 : (j 2).val < 128 := (j 2).isLt
  refine (out6_apply (iblk0 V c 0 t) (iblk0 V c 3 t) j).trans
    (block_sum_eq (V c main_arg0) (V c main_v2) _ _ j (((cfg0.win 6).blk t).view.emb j) (fun e => ?_) (fun e => ?_))
  · show V c main_arg0 (((cfg0.win 0).blk t).view.emb (ix3 (0 : Fin 1) (j 1) e)) = _
    refine congrArg (V c main_arg0) (funext fun a => Fin.ext ?_)
    match a with
    | ⟨0, _⟩ => show win0_0.index t (0 : Fin 3) * 1 + 1 * 0 = win0_6.index t (0 : Fin 3) * 1 + 1 * (j 0).val; omega
    | ⟨1, _⟩ => show win0_0.index t (1 : Fin 3) * 1024 + 1 * (j 1).val = win0_6.index t (1 : Fin 3) * 1024 + 1 * (j 1).val; omega
    | ⟨2, _⟩ => show win0_0.index t (2 : Fin 3) * 1024 + 1 * e.val = e.val; omega
  · show V c main_v2 (((cfg0.win 3).blk t).view.emb (ix2 e (j 2))) = _
    refine congrArg (V c main_v2) (funext fun a => Fin.ext ?_)
    match a with
    | ⟨0, _⟩ => show win0_3.index t (0 : Fin 2) * 1024 + 1 * e.val = e.val; omega
    | ⟨1, _⟩ => show win0_3.index t (1 : Fin 2) * 128 + 1 * (j 2).val = win0_6.index t (2 : Fin 3) * 128 + 1 * (j 2).val; omega

/-- An index of the array is in point `t`'s block iff each coordinate is in the block's range on its axis. -/
theorem mem_blk6 (t : Fin cfg0.N) (i : S4x4096x128.Idx) :
    i ∈ ((cfg0.win 6).blk t).view.set ↔ ∀ a : Fin 3, win0_6.index t a * S1x1024x128.size a ≤ (i a).val ∧ (i a).val < win0_6.index t a * S1x1024x128.size a + S1x1024x128.size a := by
  show i ∈ ((View.whole main_v3_2).slice (win0_6.rect t)).set ↔ _
  rw [View.set_slice_whole, Rect.mem_set_unit]
  exact Iff.rfl

/-- Every index of the array is in some point's block: row `s` of batch `b` in the block of point 4·b + s / 1024. -/
theorem cover6 (i : S4x4096x128.Idx) : ∃ t : Fin cfg0.N, (cfg0.win 6).flush t = true ∧ i ∈ ((cfg0.win 6).blk t).view.set := by
  have hi0 : (i 0).val < 4 := (i 0).isLt
  have hi1 : (i 1).val < 4096 := (i 1).isLt
  have hi2 : (i 2).val < 128 := (i 2).isLt
  have hN : cfg0.N = 16 := N_0
  let t : Fin cfg0.N := ⟨4 * (i 0).val + (i 1).val / 1024, by rw [hN]; omega⟩
  have ht : t.val = 4 * (i 0).val + (i 1).val / 1024 := rfl
  obtain ⟨-, -, -, -, -, -, -, -, -, -, -, -, -, -, -, o0, o1, o2⟩ := index_facts t
  refine ⟨t, flush0_6 t, ?_⟩
  rw [mem_blk6]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 1024 ≤ (i 1).val ∧ (i 1).val < win0_6.index t (1 : Fin 3) * 1024 + 1024; omega
  | ⟨2, _⟩ => show win0_6.index t (2 : Fin 3) * 128 ≤ (i 2).val ∧ (i 2).val < win0_6.index t (2 : Fin 3) * 128 + 128; omega

/-- The third output array after the region: the product of the activations by the third weight matrix, entry by
    entry. -/
theorem final0_6 (c : Dev nD) : (dat0 (F := Ideal) V c).arrAt 6 cfg0.N
    = fun o => Cert.Attn.proj (Cert.Attn.at3 (V c main_arg0)) (Cert.Attn.at2 (V c main_v2)) (o 0) (o 1) (o 2) :=
  (dat0 (F := Ideal) V c).arrAt_eq_of_cover 6 (projArr (V c main_arg0) (V c main_v2)) (fun t _ => flushed6_eq V c t) cover6

end Arrays

end Cert.KernelIdeal.Hand

end
-- ==== Proof.KIFinite.lean ====
/- Finiteness out of the precondition. The precondition says that a printed predicate of the four argument arrays is
   all ones: the conjunction, array by array, of "every entry's absolute value is below +∞". Read back, every
   entry of every argument is a real number: neither +∞ nor −∞. -/
import proofs.«120868_j4587025072851_2_alg».proof.Defs
import proofs.«120868_j4587025072851_2_alg».proof.Proof.Gen.Pre_finite_inputs
import Idealize.ShloMosaic.Lib.ReduceAll
import Idealize.ShloMosaic.Lib.ValueIdx
import Idealize.ShloMosaic.PureOps.Ideal.Laws

noncomputable section

namespace Cert.KernelIdeal.HandValue

open Cert.KernelIdeal
open Idealize.ShloMosaic Idealize.ShloMosaic.TcCoe Idealize.SL.Sem

/-- The shape of rank 0 has one index. -/
instance : Subsingleton Cert.Pre_finite_inputs.S_.Idx := ⟨fun a b => funext fun d => d.elim0⟩

/-- The word 0x7F800000 is +∞. -/
theorem pos_inf : Ideal.ofBits .f32 0x7F800000#32 = (⊤ : EReal) := by simp [Ideal.ofBits, Ideal.ieee]

/-- An extended real whose absolute value max x (−x) is below +∞ is neither infinity. -/
theorem finite_of_abs_lt (x : Ideal .f32)
    (h : FloatOps.cmpf .olt (FloatOps.hostAbsf x) (FloatOps.ofBits (F := Ideal) .f32 0x7F800000#32) = 1#1) :
    (x : EReal) ≠ ⊤ ∧ (x : EReal) ≠ ⊥ := by
  change Ideal.cmp .olt (max (x : EReal) (-(x : EReal))) (Ideal.ofBits .f32 0x7F800000#32) = 1#1 at h
  rw [pos_inf] at h
  unfold Ideal.cmp at h
  constructor
  · rintro rfl; simp at h
  · rintro rfl; simp at h

/-- Under the precondition every entry of every argument array is a real number. -/
theorem finite_of_pre (m : (ℓ : Loc nD τ sig) → Buf (Elt Ideal) ℓ) (hpre : Cert.Pre_KernelIdeal m) (c : Dev nD) :
    (∀ i : S4x4096x1024.Idx, Ne (α := EReal) (m ((c.tc : Thread nD τ).loc main_arg0) i) ⊤ ∧ Ne (α := EReal) (m ((c.tc : Thread nD τ).loc main_arg0) i) ⊥)
    ∧ (∀ i : S1024x128.Idx, Ne (α := EReal) (m ((c.tc : Thread nD τ).loc main_arg1) i) ⊤ ∧ Ne (α := EReal) (m ((c.tc : Thread nD τ).loc main_arg1) i) ⊥)
    ∧ (∀ i : S1024x128.Idx, Ne (α := EReal) (m ((c.tc : Thread nD τ).loc main_arg2) i) ⊤ ∧ Ne (α := EReal) (m ((c.tc : Thread nD τ).loc main_arg2) i) ⊥)
    ∧ (∀ i : S1024x128.Idx, Ne (α := EReal) (m ((c.tc : Thread nD τ).loc main_arg3) i) ⊤ ∧ Ne (α := EReal) (m ((c.tc : Thread nD τ).loc main_arg3) i) ⊥) := by
  have h := congrFun (hpre c) ValueIdx.ix0
  dsimp only [Cert.Pre_finite_inputs.fn, Cert.Pre_finite_inputs.fn_part1, andi] at h
  obtain ⟨h012, h3⟩ := IntOp.andi_eq_one.1 h
  obtain ⟨h01, h2⟩ := IntOp.andi_eq_one.1 h012
  obtain ⟨h0, h1⟩ := IntOp.andi_eq_one.1 h01
  exact ⟨fun i => finite_of_abs_lt _ (Host.reduce_andi_all _ _ _ _ _ h0 i),
    fun i => finite_of_abs_lt _ (Host.reduce_andi_all _ _ _ _ _ h1 i),
    fun i => finite_of_abs_lt _ (Host.reduce_andi_all _ _ _ _ _ h2 i),
    fun i => finite_of_abs_lt _ (Host.reduce_andi_all _ _ _ _ _ h3 i)⟩

end Cert.KernelIdeal.HandValue

end
-- ==== Proof.KIValue.lean ====
/-
  The kernel's result at the ideal instance is the specification. Region 0 leaves the three products x·Wq, x·Wk,
  x·Wv in the arrays region 1 reads (rounding to the narrower format is the identity on the extended reals). In
  region 1, by induction over the grid points in order, row r of the scratch buffers after the point with key tile
  k and query tile q holds the recurrence run over the first min(k, q) + 1 key tiles of query row 512·q + r; at key
  tile 7 that is every tile on or below the diagonal, and the output row, accumulator / sum, is the two-pass
  attention row of the specification. The finiteness of the inputs makes every query, key and value entry real,
  which the passage from the recurrence to the two-pass form needs.
-/
import proofs.«120868_j4587025072851_2_alg».proof.Proof.KIR1State
import proofs.«120868_j4587025072851_2_alg».proof.Proof.KIRegion1Blocks
import proofs.«120868_j4587025072851_2_alg».proof.Proof.KITiles
import proofs.«120868_j4587025072851_2_alg».proof.Proof.AttnSteps
import proofs.«120868_j4587025072851_2_alg».proof.Proof.KIRegion0Value
import proofs.«120868_j4587025072851_2_alg».proof.Proof.KIRun
import proofs.«120868_j4587025072851_2_alg».proof.Proof.KIFinite
import proofs.«120868_j4587025072851_2_alg».proof.Defs
import proofs.«120868_j4587025072851_2_alg».proof.Proof.Gen.Pre_finite_inputs

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open Cert.OnlineSoftmax
open Cert.Attn

section Region1

variable (V : (c : Dev nD) → (b : Ref sig .tc) → Buf (Elt Ideal) ((c : Thread nD τ).loc b)) (c : Dev nD)

/-- The query, key and value arrays region 1 reads, by coordinates. -/
abbrev Qa : Fin 4 → Fin 4096 → Fin 128 → EReal := at3 (V c main_v3_0)
abbrev Ka : Fin 4 → Fin 4096 → Fin 128 → EReal := at3 (V c main_v3_1)
abbrev Va : Fin 4 → Fin 4096 → Fin 128 → EReal := at3 (V c main_v3_2)

theorem coords_val : ∀ t : Fin cfg1.N, (grid1.coords t 1).val = t.val / 8 % 8 ∧ (grid1.coords t 2).val = t.val % 8 :=
  (by decide +kernel : ∀ t : Fin grid1.N, (grid1.coords t 1).val = t.val / 8 % 8 ∧ (grid1.coords t 2).val = t.val % 8)

/-- On or below the diagonal, the point's tile of scores and its value rows are the specification's tile
    `t mod 8` of query row 512·q + r. -/
theorem tile_of_point (t : Fin cfg1.N) (h1 : t.val % 8 ≤ t.val / 8 % 8) (r : Fin 512) :
    sTile (grid1.coords t 1).val (grid1.coords t 2).val (iblk1 V c 0 t : Vec Ideal S1x512x128 .bf16) (iblk1 V c 1 t : Vec Ideal S1x512x128 .bf16) r
        = tileScore 512 (Qa V c) (Ka V c) (r1Batch t) (r1QRow t r) (t.val % 8)
      ∧ (fun (cc : Fin 512) (h : Fin 128) => (iblk1 V c 2 t : Vec Ideal S1x512x128 .bf16) (ix3 0 cc h)) = tileVal 512 (Va V c) (r1Batch t) (t.val % 8) := by
  have hlt := point_lt t
  have hq : t.val / 8 % 8 < 8 := Nat.mod_lt _ (by decide)
  have hk : t.val % 8 < 8 := Nat.mod_lt _ (by decide)
  rw [(coords_val t).1, (coords_val t).2]
  refine ⟨?_, ?_⟩
  · exact sTile_eq_tileScore (Qa V c) (Ka V c) (r1Batch t) (t.val / 8 % 8) (t.val % 8) hq h1 r _ _
      (fun h => iblk1_0_apply V c t r h)
      (fun cc h => (iblk1_1_apply V c t cc h).trans (by
        show V c main_v3_1 (ix3 (r1Batch t) (r1KRow t cc) h) = V c main_v3_1 (ix3 (r1Batch t) ⟨t.val % 8 * 512 + cc.val, _⟩ h)
        congr 2
        exact Fin.ext (by show min (t.val % 8) (t.val / 8 % 8) * 512 + cc.val = t.val % 8 * 512 + cc.val; rw [Nat.min_eq_left h1])))
  · exact vals_eq_tileVal (Va V c) (r1Batch t) (t.val % 8) hk _
      (fun cc h => (iblk1_2_apply V c t cc h).trans (by
        show V c main_v3_2 (ix3 (r1Batch t) (r1KRow t cc) h) = V c main_v3_2 (ix3 (r1Batch t) ⟨t.val % 8 * 512 + cc.val, _⟩ h)
        congr 2
        exact Fin.ext (by show min (t.val % 8) (t.val / 8 % 8) * 512 + cc.val = t.val % 8 * 512 + cc.val; rw [Nat.min_eq_left h1])))

theorem run_succ {C H : Type} [Fintype C] (s : ℕ → C → EReal) (v : ℕ → C → H → EReal) (n : ℕ) :
    run s v (n + 1) = step (run s v n) (s n) (v n) := rfl

/-- THE INVARIANT: after point `n`, row `r` of the scratch buffers is the recurrence run over the first
    min(k, q) + 1 key tiles of query row 512·q + r (k = n mod 8 the key tile, q = n / 8 mod 8 the query tile). -/
theorem state_eq : ∀ (n : ℕ) (hn : n < cfg1.N) (r : Fin 512),
    rowState (outsAt1 V c n hn).2 r
      = run (tileScore 512 (Qa V c) (Ka V c) (r1Batch ⟨n, hn⟩) (r1QRow ⟨n, hn⟩ r)) (tileVal 512 (Va V c) (r1Batch ⟨n, hn⟩))
          (min (n % 8) (n / 8 % 8) + 1) := by
  intro n
  induction n with
  | zero =>
    intro hn r
    have h0 : (⟨0, hn⟩ : Fin cfg1.N).val % 8 = 0 := rfl
    have hp := point_first V c ⟨0, hn⟩ h0 r
    have ht := tile_of_point V c ⟨0, hn⟩ (by show 0 % 8 ≤ 0 / 8 % 8; decide) r
    rw [ht.1, ht.2] at hp
    exact hp
  | succ n ih =>
    intro hn r
    have hlt : n + 1 < 256 := point_lt ⟨n + 1, hn⟩
    have hn' : n < cfg1.N := Nat.lt_of_succ_lt hn
    by_cases h0 : (n + 1) % 8 = 0
    · have hp := point_first V c ⟨n + 1, hn⟩ h0 r
      have ht := tile_of_point V c ⟨n + 1, hn⟩ (by show (n + 1) % 8 ≤ (n + 1) / 8 % 8; omega) r
      rw [ht.1, ht.2] at hp
      rw [hp]
      show _ = run _ _ (min ((n + 1) % 8) ((n + 1) / 8 % 8) + 1)
      rw [h0, Nat.zero_min]
      rfl
    · have eb : r1Batch ⟨n, hn'⟩ = r1Batch ⟨n + 1, hn⟩ := Fin.ext (by show n / 64 = (n + 1) / 64; omega)
      have eq : r1QRow ⟨n, hn'⟩ r = r1QRow ⟨n + 1, hn⟩ r := Fin.ext (by show n / 8 % 8 * 512 + r.val = (n + 1) / 8 % 8 * 512 + r.val; omega)
      have ihn := ih hn' r
      rw [eb, eq] at ihn
      by_cases h1 : (n + 1) % 8 ≤ (n + 1) / 8 % 8
      · have hp := point_next V c ⟨n + 1, hn⟩ h0 h1 r
        have ht := tile_of_point V c ⟨n + 1, hn⟩ h1 r
        rw [ht.1, ht.2] at hp
        rw [hp]
        show step (rowState (outsAt1 V c n _).2 r) _ _ = _
        rw [ihn]
        have e1 : min (n % 8) (n / 8 % 8) + 1 = (n + 1) % 8 := by omega
        have e2 : min ((n + 1) % 8) ((n + 1) / 8 % 8) + 1 = (n + 1) % 8 + 1 := by omega
        rw [e1, e2, run_succ]
      · have hp := point_skip V c ⟨n + 1, hn⟩ h1 r
        rw [hp]
        show rowState (outsAt1 V c n _).2 r = _
        rw [ihn]
        have e : min (n % 8) (n / 8 % 8) + 1 = min ((n + 1) % 8) ((n + 1) / 8 % 8) + 1 := by omega
        rw [e]

variable (hQ : ∀ b s h, Qa V c b s h ≠ ⊤ ∧ Qa V c b s h ≠ ⊥) (hK : ∀ b s h, Ka V c b s h ≠ ⊤ ∧ Ka V c b s h ≠ ⊥)
  (hV : ∀ b s h, Va V c b s h ≠ ⊤ ∧ Va V c b s h ≠ ⊥)

include hQ hK hV in
/-- At key tile 7 the output block's row is the specification's attention row. -/
theorem out_eq_attend (t : Fin cfg1.N) (h2 : t.val % 8 = 7) (r : Fin 512) (h : Fin 128) :
    (outsAt1 V c t.val t.isLt).1 (ix3 0 r h) = attend (Qa V c) (Ka V c) (Va V c) (r1Batch t) (r1QRow t r) h := by
  have hq : t.val / 8 % 8 < 8 := Nat.mod_lt _ (by decide)
  rw [point_out V c t h2 r h]
  refine attend_of_state (Qa V c) (Ka V c) (Va V c) hQ hK hV (r1Batch t) (t.val / 8 % 8) hq r h _ ?_
  have hs := state_eq V c t.val t.isLt r
  rw [h2] at hs
  exact hs

include hQ hK hV in
/-- So region 1 leaves the specification's attention of its three input arrays in its output array. -/
theorem final1_eq : (dat1 (F := Ideal) V c).arrAt 3 cfg1.N = fun o => attend (Qa V c) (Ka V c) (Va V c) (o 0) (o 1) (o 2) :=
  final1_of V c _ fun t h2 r h => out_eq_attend V c hQ hK hV t h2 r h

end Region1

/-! ## The whole kernel -/

theorem at3_fun {n0 n1 n2 : ℕ} (f : Fin n0 → Fin n1 → Fin n2 → EReal) :
    at3 (fun o : (⟨3, ![n0, n1, n2]⟩ : Shape).Idx => f (o 0) (o 1) (o 2)) = f := rfl

theorem final_eq_G (m : (ℓ : Loc nD τ sig) → Buf (Elt Ideal) ℓ) (ρ : Dev nD → PrngReg) (hpre : Cert.Pre_KernelIdeal m) (c : Dev nD) :
    (dat1 (F := Ideal) (V2 m ρ) c).arrAt 3 cfg1.N
      = Cert.Attn.G (m ((c.tc : Thread nD τ).loc main_arg0)) (m ((c.tc : Thread nD τ).loc main_arg1)) (m ((c.tc : Thread nD τ).loc main_arg2)) (m ((c.tc : Thread nD τ).loc main_arg3)) := by
  obtain ⟨hx, hwq, hwk, hwv⟩ := finite_of_pre m hpre c
  -- the three projections region 0 leaves
  have eX : V1 m ρ c main_arg0 = m ((c.tc : Thread nD τ).loc main_arg0) := V1_main_arg0 m ρ c
  have eWq : (V1 m ρ c main_v0 : S1024x128.Idx → EReal) = m ((c.tc : Thread nD τ).loc main_arg1) := V1_main_v0 m ρ c
  have eWk : (V1 m ρ c main_v1 : S1024x128.Idx → EReal) = m ((c.tc : Thread nD τ).loc main_arg2) := V1_main_v1 m ρ c
  have eWv : (V1 m ρ c main_v2 : S1024x128.Idx → EReal) = m ((c.tc : Thread nD τ).loc main_arg3) := V1_main_v2 m ρ c
  have eQ : Qa (V2 m ρ) c = proj (at3 (m ((c.tc : Thread nD τ).loc main_arg0))) (at2 (m ((c.tc : Thread nD τ).loc main_arg1))) := by
    show at3 (V2 m ρ c main_v3_0) = _
    rw [V2_main_v3_0 m ρ c, final0_4 (V1 m ρ) c, eX, eWq]; rfl
  have eK : Ka (V2 m ρ) c = proj (at3 (m ((c.tc : Thread nD τ).loc main_arg0))) (at2 (m ((c.tc : Thread nD τ).loc main_arg2))) := by
    show at3 (V2 m ρ c main_v3_1) = _
    rw [V2_main_v3_1 m ρ c, final0_5 (V1 m ρ) c, eX, eWk]; rfl
  have eV : Va (V2 m ρ) c = proj (at3 (m ((c.tc : Thread nD τ).loc main_arg0))) (at2 (m ((c.tc : Thread nD τ).loc main_arg3))) := by
    show at3 (V2 m ρ c main_v3_2) = _
    rw [V2_main_v3_2 m ρ c, final0_6 (V1 m ρ) c, eX, eWv]; rfl
  have hX : ∀ b s e, at3 (m ((c.tc : Thread nD τ).loc main_arg0)) b s e ≠ ⊤ ∧ at3 (m ((c.tc : Thread nD τ).loc main_arg0)) b s e ≠ ⊥ := fun b s e => hx _
  have hQ := proj_real _ _ hX (fun e h => hwq (ix2 e h))
  have hK := proj_real _ _ hX (fun e h => hwk (ix2 e h))
  have hV := proj_real _ _ hX (fun e h => hwv (ix2 e h))
  rw [final1_eq (V2 m ρ) c (by rw [eQ]; exact hQ) (by rw [eK]; exact hK) (by rw [eV]; exact hV), eQ, eK, eV]
  rfl

end Cert.KernelIdeal.HandValue

end
-- ==== Proof.RefValue.lean ====
/-
  The reference program read as the specification. The reference computes causal attention the naive way: three
  products with the weight matrices, the scores q·kᵀ scaled by the word c, the lower-triangular mask (row index
  plus zero at least the column index) choosing the score or −∞, the row's maximum (once more capped below by −∞,
  which changes nothing), exp of the difference, the row's sum from 0, the quotient, and the product with the values.
  Index by index each of these is the term the specification `Cert.Attn.G` writes, so the reference's result array is
  `G` of the four arguments; no finiteness of the inputs is used.
-/
import proofs.«120868_j4587025072851_2_alg».proof.Defs
import proofs.«120868_j4587025072851_2_alg».proof.Proof.Spec
import proofs.«120868_j4587025072851_2_alg».proof.Proof.Gen.Pre_finite_inputs
import proofs.«120868_j4587025072851_2_alg».proof.Proof.Gen.ReferenceIdeal.Run
import proofs.«120868_j4587025072851_2_alg».proof.Proof.Gen.ReferenceIdeal.Read
import Idealize.ShloMosaic.Lib.ValueIdx
import Idealize.ShloMosaic.Lib.Pipeline.Value
import Idealize.ShloMosaic.PureOps.Ideal.Laws
import Idealize.ShloMosaic.Lib.StableHlo.Run

noncomputable section

namespace Cert.ReferenceIdeal.RefValue

open Cert.ReferenceIdeal Cert.ReferenceIdeal.Gen Cert.ReferenceIdeal.Read Idealize.ShloMosaic Idealize.ShloMosaic.TcCoe Idealize.SL.Sem
open Idealize.ShloMosaic.ValueIdx Cert.Attn

/-- The input array, as the specification takes it. -/
abbrev X := (⟨S4x4096x1024, .f32⟩ : BufTy).Contents (Elt Ideal)
/-- A weight matrix, as the specification takes it. -/
abbrev W := (⟨S1024x128, .f32⟩ : BufTy).Contents (Elt Ideal)

/-- The score array's type. -/
abbrev Sc := (⟨S4x4096x4096, .f32⟩ : BufTy).Contents (Elt Ideal)

/-- Two index functions of rank 3 agree when they agree on the three axes. -/
local macro "axes3" : tactic =>
  `(tactic| (funext a; match a with | ⟨0, _⟩ => rfl | ⟨1, _⟩ => rfl | ⟨2, _⟩ => rfl))
/-- Two index functions of rank 2 agree when they agree on the two axes. -/
local macro "axes2" : tactic =>
  `(tactic| (funext a; match a with | ⟨0, _⟩ => rfl | ⟨1, _⟩ => rfl))

/-! ## The constants -/

/-- The word 0xFF800000 is −∞. -/
theorem neg_inf : Ideal.ofBits .f32 0xFF800000#32 = (⊥ : EReal) := by simp [Ideal.ofBits, Ideal.ieee]
/-- The word 0 is 0. -/
theorem zero_word : Ideal.ofBits .f32 0x00000000#32 = (0 : EReal) := by simp [Ideal.ofBits, Ideal.ieee]

/-! ## The three projections: (x·W)[b, s, h] = Σₑ x[b, s, e] · W[e, h] -/

theorem v0_at (x0 : X) (x1 : W) (b : Fin 4) (s : Fin 4096) (h : Fin 128) :
    val_main_v0 (F := Ideal) x0 x1 (ix3 b s h) = proj (at3 x0) (at2 x1) b s h := by
  rw [val_main_v0_apply]
  unfold proj at3 at2
  refine Finset.sum_congr rfl fun e _ => ?_
  rw [show lidx_main_v0 (ix3 b s h) e = ix3 b s e by axes3, show ridx_main_v0 (ix3 b s h) e = ix2 e h by axes2]

theorem v1_at (x0 : X) (x2 : W) (b : Fin 4) (s : Fin 4096) (h : Fin 128) :
    val_main_v1 (F := Ideal) x0 x2 (ix3 b s h) = proj (at3 x0) (at2 x2) b s h := by
  rw [val_main_v1_apply]
  unfold proj at3 at2
  refine Finset.sum_congr rfl fun e _ => ?_
  rw [show lidx_main_v1 (ix3 b s h) e = ix3 b s e by axes3, show ridx_main_v1 (ix3 b s h) e = ix2 e h by axes2]

theorem v2_at (x0 : X) (x3 : W) (b : Fin 4) (s : Fin 4096) (h : Fin 128) :
    val_main_v2 (F := Ideal) x0 x3 (ix3 b s h) = proj (at3 x0) (at2 x3) b s h := by
  rw [val_main_v2_apply]
  unfold proj at3 at2
  refine Finset.sum_congr rfl fun e _ => ?_
  rw [show lidx_main_v2 (ix3 b s h) e = ix3 b s e by axes3, show ridx_main_v2 (ix3 b s h) e = ix2 e h by axes2]

/-! ## The scaled scores: (q_i · k_j)·c -/

theorem v3_at (x0 : X) (x1 x2 : W) (b : Fin 4) (i j : Fin 4096) :
    val_main_v3 (F := Ideal) x0 x1 x2 (ix3 b i j)
      = ∑ h : Fin 128, proj (at3 x0) (at2 x1) b i h * proj (at3 x0) (at2 x2) b j h := by
  rw [val_main_v3_apply]
  refine Finset.sum_congr rfl fun h _ => ?_
  rw [show lidx_main_v3 (ix3 b i j) h = ix3 b i h by axes3, show ridx_main_v3 (ix3 b i j) h = ix3 b j h by axes3,
    v0_at, v1_at]

theorem v5_at (x0 : X) (x1 x2 : W) (b : Fin 4) (i j : Fin 4096) :
    val_main_v5 (F := Ideal) x0 x1 x2 (ix3 b i j)
      = (∑ h : Fin 128, proj (at3 x0) (at2 x1) b i h * proj (at3 x0) (at2 x2) b j h) * scale := by
  rw [val_main_v5_apply, v3_at, val_main_v4_apply, val_main_cst_apply]
  simp only [Ideal.mulf_def, Ideal.ofBits_def, scale]

/-! ## The mask: row index plus zero at least the column index, that is j ≤ i -/

/-- A coordinate below 4096 read as a signed 32-bit word is itself. -/
theorem toInt_coord (n : Nat) (hn : n < 4096) : (BitVec.ofNat 32 n).toInt = (n : Int) := by
  rw [BitVec.toInt_eq_toNat_cond, BitVec.toNat_ofNat, Nat.mod_eq_of_lt (by omega)]
  rw [if_pos (by omega)]

/-- The lower-triangle bit at row `i`, column `j`. -/
theorem tril_bit (i j : Fin 4096) :
    Scalar.select (IntOp.cmpi .sge (IntOp.addi (BitVec.ofNat 32 i.val) 0#32) (BitVec.ofNat 32 j.val)) (1#1) (0#1)
      = if j ≤ i then 1#1 else 0#1 := by
  have hi := toInt_coord i.val i.isLt
  have hj := toInt_coord j.val j.isLt
  have hadd : IntOp.addi (BitVec.ofNat 32 i.val) 0#32 = BitVec.ofNat 32 i.val := by
    unfold IntOp.addi; exact BitVec.add_zero _
  rw [hadd]
  by_cases hji : j ≤ i
  · rw [if_pos hji, (IntOp.cmpi_sge).mpr (by rw [hi, hj]; exact_mod_cast hji), select_one]
  · have h0 : IntOp.cmpi .sge (BitVec.ofNat 32 i.val) (BitVec.ofNat 32 j.val) = 0#1 :=
      eq_zero_of_ne_one fun h1 => hji (by
        have := (IntOp.cmpi_sge).mp h1; rw [hi, hj] at this; exact_mod_cast this)
    rw [if_neg hji, h0, select_zero]

theorem mask_at (b : Fin 4) (i j : Fin 4096) :
    val_main_call1_v1 (F := Ideal) (ix3 b i j) = if j ≤ i then 1#1 else 0#1 := by
  rw [val_main_call1_v1_apply, show idx_main_call1_v1 (ix3 b i j) = ix2 i j by axes2,
    val_main_v7_apply, val_main_call0_v4_apply, val_main_call0_v2_apply, val_main_call0_v0_apply,
    val_main_call0_v1_apply, val_main_call0_c_apply, val_main_call0_v3_apply, val_main_v6_apply, val_main_c_apply,
    val_main_call0_v5_apply, val_main_call0_c_0_apply]
  exact tril_bit i j

/-- The masked score. -/
theorem v8_at (x0 : X) (x1 x2 : W) (b : Fin 4) (i j : Fin 4096) :
    val_main_v8 (F := Ideal) x0 x1 x2 (ix3 b i j)
      = score (proj (at3 x0) (at2 x1)) (proj (at3 x0) (at2 x2)) b i j := by
  rw [val_main_v8_apply, mask_at, v5_at, val_main_call1_v2_apply, val_main_call1_v0_apply, val_main_cst_0_apply]
  unfold score
  by_cases hji : j ≤ i
  · rw [if_pos hji, if_pos hji, select_one]
  · rw [if_neg hji, if_neg hji, select_zero]; exact neg_inf

/-! ## The row's maximum -/

/-- The reduced index (b, i) with the column `k` put back is (b, i, k). -/
theorem lift_row (hr : S4x4096x4096.Reduces [2] S4x4096) (b : Fin 4) (i : Fin 4096) (k : Fin (S4x4096x4096.size 2)) :
    hr.lift (ix2 b i) k = ix3 b i (⟨k.val, k.isLt⟩ : Fin 4096) := by
  funext c; apply Fin.ext
  fin_cases c <;> rfl

/-- From −∞ the reduce with a maximum body over the columns, at row (b, i), is the row's supremum. -/
theorem reduce_max_row (y : FVec Ideal S4x4096x4096 .f32) (b : Fin 4) (i : Fin 4096) :
    Host.reduce (FloatOps.maximumf (F := Ideal) (φ := .f32)) y (constant (F := Ideal) S_ .f32 0xFF800000#32)
        reducesTo_S4x4096x4096_S4x4096_d2 h_S_ (ix2 b i)
      = Finset.univ.sup fun j : Fin 4096 => y (ix3 b i j) := by
  have hr : S4x4096x4096.Reduces [2] S4x4096 := by decide
  refine (Host.reduce_eq_fold_single (FloatOps.maximumf (F := Ideal) (φ := .f32)) y _
    reducesTo_S4x4096x4096_S4x4096_d2 hr h_S_ (ix2 b i)).trans ?_
  have hf : (y ∘ hr.lift (ix2 b i)) = fun j : Fin 4096 => y (ix3 b i j) :=
    funext fun k => congrArg y (lift_row hr b i k)
  have e : (Finset.univ : Finset (Fin 4096)).fold max (Ideal.ofBits .f32 0xFF800000#32) (fun j => y (ix3 b i j))
      = Finset.univ.sup fun j : Fin 4096 => y (ix3 b i j) := by
    rw [neg_inf]; rfl
  refine Eq.trans ?_ e
  exact congrArg (fun f => Finset.fold max (Ideal.ofBits .f32 0xFF800000#32) f (Finset.univ : Finset (Fin 4096))) hf

theorem v9_at (x0 : X) (x1 x2 : W) (b : Fin 4) (i : Fin 4096) :
    val_main_v9 (F := Ideal) x0 x1 x2 (ix2 b i)
      = rowMax (proj (at3 x0) (at2 x1)) (proj (at3 x0) (at2 x2)) b i := by
  unfold val_main_v9 val_main_cst_1
  rw [reduce_max_row]
  unfold rowMax
  exact congrArg (Finset.univ.sup) (funext fun j => v8_at x0 x1 x2 b i j)

/-- Capping the row's maximum below by −∞ changes nothing. -/
theorem v11_at (x0 : X) (x1 x2 : W) (b : Fin 4) (i : Fin 4096) :
    val_main_v11 (F := Ideal) x0 x1 x2 (ix2 b i)
      = rowMax (proj (at3 x0) (at2 x1)) (proj (at3 x0) (at2 x2)) b i := by
  rw [val_main_v11_apply, v9_at, val_main_v10_apply, val_main_cst_2_apply]
  simp only [Ideal.maximumf_def, Ideal.ofBits_def, neg_inf]
  exact max_bot_left _

/-- The row's maximum spread over the row. -/
theorem v13_at (x0 : X) (x1 x2 : W) (b : Fin 4) (i j : Fin 4096) :
    val_main_v13 (F := Ideal) x0 x1 x2 (ix3 b i j)
      = rowMax (proj (at3 x0) (at2 x1)) (proj (at3 x0) (at2 x2)) b i := by
  rw [val_main_v13_apply, show idx_main_v13 (ix3 b i j) = ix3 b i (0 : Fin 1) by axes3,
    val_main_v12_apply, show idx_main_v12 (ix3 b i (0 : Fin 1)) = ix2 b i by axes2, v11_at]

/-! ## The exponentials, their sum and the weights -/

theorem v15_at (x0 : X) (x1 x2 : W) (b : Fin 4) (i j : Fin 4096) :
    val_main_v15 (F := Ideal) x0 x1 x2 (ix3 b i j)
      = expo (proj (at3 x0) (at2 x1)) (proj (at3 x0) (at2 x2)) b i j := by
  rw [val_main_v15_apply, val_main_v14_apply, v8_at, v13_at]
  simp only [Ideal.hostUnary_exp_def, Ideal.subf_def, expo]

theorem v16_at (x0 : X) (x1 x2 : W) (b : Fin 4) (i : Fin 4096) :
    val_main_v16 (F := Ideal) x0 x1 x2 (ix2 b i)
      = rowSum (proj (at3 x0) (at2 x1)) (proj (at3 x0) (at2 x2)) b i := by
  rw [val_main_v16_apply, val_main_cst_3_apply, Ideal.ofBits_def, zero_word, zero_add]
  unfold rowSum
  refine Finset.sum_congr rfl fun j _ => ?_
  rw [show idx_main_v16 (ix2 b i) j = ix3 b i j by axes3, v15_at]

theorem v18_at (x0 : X) (x1 x2 : W) (b : Fin 4) (i j : Fin 4096) :
    val_main_v18 (F := Ideal) x0 x1 x2 (ix3 b i j)
      = rowSum (proj (at3 x0) (at2 x1)) (proj (at3 x0) (at2 x2)) b i := by
  rw [val_main_v18_apply, show idx_main_v18 (ix3 b i j) = ix3 b i (0 : Fin 1) by axes3,
    val_main_v17_apply, show idx_main_v17 (ix3 b i (0 : Fin 1)) = ix2 b i by axes2, v16_at]

theorem v19_at (x0 : X) (x1 x2 : W) (b : Fin 4) (i j : Fin 4096) :
    val_main_v19 (F := Ideal) x0 x1 x2 (ix3 b i j)
      = Ideal.div (expo (proj (at3 x0) (at2 x1)) (proj (at3 x0) (at2 x2)) b i j)
          (rowSum (proj (at3 x0) (at2 x1)) (proj (at3 x0) (at2 x2)) b i) := by
  rw [val_main_v19_apply, v15_at, v18_at, Ideal.hostDivf_def]

/-! ## The weighted sum of the value rows, and the whole function -/

theorem v20_at (x0 : X) (x1 x2 x3 : W) (b : Fin 4) (i : Fin 4096) (h : Fin 128) :
    val_main_v20 (F := Ideal) x0 x1 x2 x3 (ix3 b i h)
      = attend (proj (at3 x0) (at2 x1)) (proj (at3 x0) (at2 x2)) (proj (at3 x0) (at2 x3)) b i h := by
  rw [val_main_v20_apply]
  unfold attend
  refine Finset.sum_congr rfl fun j _ => ?_
  rw [show lidx_main_v20 (ix3 b i h) j = ix3 b i j by axes3, show ridx_main_v20 (ix3 b i h) j = ix3 b j h by axes3,
    v19_at, v2_at]

/-- The reference's last stage is the specification's function of the four arrays. -/
theorem v20_eq_G (x0 : X) (x1 x2 x3 : W) : val_main_v20 (F := Ideal) x0 x1 x2 x3 = G x0 x1 x2 x3 := by
  funext o
  obtain ⟨b, i, h, rfl⟩ : ∃ (b : Fin 4) (i : Fin 4096) (h : Fin 128), o = ix3 b i h := ⟨o 0, o 1, o 2, eq_ix3 o⟩
  exact v20_at x0 x1 x2 x3 b i h

/-- The reference run's result term is the specification's function of the argument arrays. -/
theorem res_eq (m : (ℓ : Loc nD τ sig) → Buf (Elt Ideal) ℓ) (c : Dev nD) :
    Cert.ReferenceIdeal.Value.res_out0 (F := Ideal) m c
      = Cert.Attn.G (m ((c.tc : Thread nD τ).loc main_arg0)) (m ((c.tc : Thread nD τ).loc main_arg1))
          (m ((c.tc : Thread nD τ).loc main_arg2)) (m ((c.tc : Thread nD τ).loc main_arg3)) :=
  (val_main_v20_eq (F := Ideal) m c).trans (v20_eq_G _ _ _ _)

/-! ## The runs -/

/-- The reference runs and leaves its arguments as they were. -/
theorem frame_ri : Cert.frame_ReferenceIdeal := fun m ρ _ =>
  (θ_run Cert.ReferenceIdeal.defs _ _).mono (fun _ h c => (h c).2) (Cert.ReferenceIdeal.Value.run (F := Ideal) m ρ)

/-- The reference runs and ends with the specification's function of its arguments in its result, the arguments as
    they were. -/
theorem run_G (m : (ℓ : Loc nD τ sig) → Buf (Elt Ideal) ℓ) (ρ : Dev nD → PrngReg) :
    θ_run (Cert.ReferenceIdeal.defs (F := Ideal)) (onTc (τ := τ) (main (F := Ideal))) ⟨m, fun _ => 0, ρ⟩ fun r => ∀ c : Dev nD,
      r.2.mem ((c.tc : Thread nD τ).loc main_v20)
        = Cert.Attn.G (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run Cert.ReferenceIdeal.defs _ _).mono (fun _ h c => ⟨(h c).1.trans (res_eq m c), (h c).2⟩)
    (Cert.ReferenceIdeal.Value.run (F := Ideal) m ρ)

end Cert.ReferenceIdeal.RefValue

end
-- ==== Proof.Claims.lean ====
/- The five claims. Each program's frame is its run with the result's contents forgotten; the idealization's one
   rewrite is the named constant's statement; and at the ideal instance both programs end with the specification's
   causal attention of the argument arrays in their result, so from memories agreeing on the arguments the results
   are equal. -/
import proofs.«120868_j4587025072851_2_alg».proof.Defs
import proofs.«120868_j4587025072851_2_alg».proof.Proof.Spec
import proofs.«120868_j4587025072851_2_alg».proof.Proof.Gen.Kernel
import proofs.«120868_j4587025072851_2_alg».proof.Proof.Gen.KernelIdeal
import proofs.«120868_j4587025072851_2_alg».proof.Proof.Gen.ReferenceIdeal
import proofs.«120868_j4587025072851_2_alg».proof.Proof.Gen.Pre_finite_inputs
import proofs.«120868_j4587025072851_2_alg».proof.Proof.KRun
import proofs.«120868_j4587025072851_2_alg».proof.Proof.KIRun
import proofs.«120868_j4587025072851_2_alg».proof.Proof.KIValue
import proofs.«120868_j4587025072851_2_alg».proof.Proof.RefValue
import Idealize.ShloMosaic.PureOps.IdealRules

noncomputable section

namespace Cert.Proof.Claims

open Idealize.ShloMosaic Idealize.ShloMosaic.TcCoe Idealize.SL.Sem

/-- The word-level kernel runs and leaves its arguments as they were: its run, the result's contents forgotten. -/
theorem frame_k : Cert.frame_Kernel := fun m ρ _ =>
  (θ_run Cert.Kernel.defs _ _).mono (fun _ h c => (h c).2) (Cert.Kernel.Hand.run_all (F := Bits) m ρ)

/-- The idealized kernel runs and leaves its arguments as they were. -/
theorem frame_ki : Cert.frame_KernelIdeal := fun m ρ _ =>
  (θ_run Cert.KernelIdeal.defs _ _).mono (fun _ h c => (h c).2) (Cert.KernelIdeal.Hand.run_all (F := Ideal) m ρ)

/-- The reference runs and leaves its arguments as they were. -/
theorem frame_ri : Cert.frame_ReferenceIdeal := Cert.ReferenceIdeal.RefValue.frame_ri

/-- The idealization's one rewrite: the mask's large negative constant is named, and the name's value is −∞. -/
theorem preserves : Cert.preserves_Kernel_KernelIdeal :=
  IdealRules.named_const.statement Cert.KernelIdeal.κ "neg_big" .f32 0xFF333332#32 ⊥ rfl

/-- At the ideal instance the kernel's result array ends at the specification's function of its arguments, and so
    does the reference's, of arguments that agree. -/
theorem algebraic : Cert.algebraic_KernelIdeal_ReferenceIdeal := by
  intro m ρ m' ρ' hpre hagree
  refine ⟨fun c => Cert.Attn.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun _ h c => ⟨(h c).1.trans (Cert.KernelIdeal.HandValue.final_eq_G m ρ hpre c), (h c).2⟩)
      (Cert.KernelIdeal.Hand.run_all (F := Ideal) m ρ)
  · refine (θ_run Cert.ReferenceIdeal.defs _ _).mono (fun _ h c => ⟨(h c).1.trans ?_, (h c).2⟩)
      (Cert.ReferenceIdeal.RefValue.run_G m' ρ')
    rw [(hagree c).1, (hagree c).2.1, (hagree c).2.2.1, (hagree c).2.2.2]

end Cert.Proof.Claims

end
-- ==== Proof.lean ====
/- Both programs compute single-head causal attention: at the ideal instance each ends with the specification's function
   of the four argument arrays in its result, every program's run leaves its arguments as launched, and the
   idealization's one rewrite names the mask's large negative constant, whose value is −∞. -/
import proofs.«120868_j4587025072851_2_alg».proof.Defs
import proofs.«120868_j4587025072851_2_alg».proof.Proof.Gen.Kernel
import proofs.«120868_j4587025072851_2_alg».proof.Proof.Gen.Kernel.Skeleton
import proofs.«120868_j4587025072851_2_alg».proof.Proof.Gen.Kernel.Launch
import proofs.«120868_j4587025072851_2_alg».proof.Proof.Gen.Kernel.Regions
import proofs.«120868_j4587025072851_2_alg».proof.Proof.Gen.Kernel.Points
import proofs.«120868_j4587025072851_2_alg».proof.Proof.Gen.KernelIdeal
import proofs.«120868_j4587025072851_2_alg».proof.Proof.Gen.KernelIdeal.Skeleton
import proofs.«120868_j4587025072851_2_alg».proof.Proof.Gen.KernelIdeal.Launch
import proofs.«120868_j4587025072851_2_alg».proof.Proof.Gen.KernelIdeal.Regions
import proofs.«120868_j4587025072851_2_alg».proof.Proof.Gen.KernelIdeal.Points
import proofs.«120868_j4587025072851_2_alg».proof.Proof.Gen.ReferenceIdeal
import proofs.«120868_j4587025072851_2_alg».proof.Proof.Gen.ReferenceIdeal.Run
import proofs.«120868_j4587025072851_2_alg».proof.Proof.Gen.ReferenceIdeal.Read
import proofs.«120868_j4587025072851_2_alg».proof.Proof.Gen.Pre_finite_inputs
import proofs.«120868_j4587025072851_2_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
